-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_v115) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S128x64 .f32) (main_arg14 : FVec F S128x64 .f32) (main_arg15 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S128x64 .f32 := Host.absf main_arg13
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S128x64 .f32 := Host.absf main_arg14
  let main_cst_22 : FVec F S_ .f32 := constant S_ .f32 0x7F800000#32
  let main_v60 : FVec F S128x64 .f32 := broadcastInDim S128x64 ![] bcast_S_S128x64 main_cst_22
  let main_v61 : IVec S128x64 1 := cmpf .olt main_v59 main_v60
  let main_c_23 : IVec S_ 1 := constantI S_ 1 1#1
  let main_v62 : IVec S_ 1 := (fun x v => Host.reduce IntOp.andi x v reducesTo_S128x64_S_d0_1 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_v63 main_v67

def fn_part2 {F : FTy → Type} [FloatOps F] (main_arg9 : FVec F S128 .f32) (main_arg10 : FVec F S128x64 .f32) (main_arg11 : FVec F S128x64 .f32) (main_arg12 : FVec F S64 .f32) (main_arg13 : FVec F S128x64 .f32) (main_arg14 : FVec F S128x64 .f32) (main_arg15 : FVec F S64 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x64 .f32 := Host.absf main_arg10
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S128x64 .f32 := Host.absf main_arg11
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_v48 main_v49 main_v50

def fn_part1 {F : FTy → Type} [FloatOps F] (main_arg6 : FVec F S128 .f32) (main_arg7 : FVec F S128x128 .f32) (main_arg8 : FVec F S128x128 .f32) (main_arg9 : FVec F S128 .f32) (main_arg10 : FVec F S128x64 .f32) (main_arg11 : FVec F S128x64 .f32) (main_arg12 : FVec F S64 .f32) (main_arg13 : FVec F S128x64 .f32) (main_arg14 : FVec F S128x64 .f32) (main_arg15 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S50000x128 .f32) (main_arg1 : FVec F S50000x128 .f32) (main_arg2 : IVec S2x1600000 32) (main_arg3 : IVec S2x1600000 32) (main_arg4 : FVec F S128x128 .f32) (main_arg5 : FVec F S128x128 .f32) (main_arg6 : FVec F S128 .f32) (main_arg7 : FVec F S128x128 .f32) (main_arg8 : FVec F S128x128 .f32) (main_arg9 : FVec F S128 .f32) (main_arg10 : FVec F S128x64 .f32) (main_arg11 : FVec F S128x64 .f32) (main_arg12 : FVec F S64 .f32) (main_arg13 : FVec F S128x64 .f32) (main_arg14 : FVec F S128x64 .f32) (main_arg15 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_v13 main_v16
-- ==== Kernel.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S1600000x128 : Shape := ⟨2, ![1600000, 128]⟩
abbrev S1x128 : Shape := ⟨2, ![1, 128]⟩
abbrev S50000x64 : Shape := ⟨2, ![50000, 64]⟩
abbrev S1600000x64 : Shape := ⟨2, ![1600000, 64]⟩
abbrev S1x64 : Shape := ⟨2, ![1, 64]⟩
abbrev S5000x128 : Shape := ⟨2, ![5000, 128]⟩
abbrev S5000x1 : Shape := ⟨2, ![5000, 1]⟩
abbrev S5000x64 : Shape := ⟨2, ![5000, 64]⟩

abbrev nBuf : Space → Nat
  | .hbm => 112
  | .vmem => 52
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S2x1600000, .i32⟩
  | .hbm, ⟨3, _⟩ => ⟨S2x1600000, .i32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x64, .f32⟩
  | .hbm, ⟨11, _⟩ => ⟨S128x64, .f32⟩
  | .hbm, ⟨12, _⟩ => ⟨S64, .f32⟩
  | .hbm, ⟨13, _⟩ => ⟨S128x64, .f32⟩
  | .hbm, ⟨14, _⟩ => ⟨S128x64, .f32⟩
  | .hbm, ⟨15, _⟩ => ⟨S64, .f32⟩
  | .hbm, ⟨16, _⟩ => ⟨S1x1600000, .i32⟩
  | .hbm, ⟨17, _⟩ => ⟨S1600000, .i32⟩
  | .hbm, ⟨18, _⟩ => ⟨S1x1600000, .i32⟩
  | .hbm, ⟨19, _⟩ => ⟨S1600000, .i32⟩
  | .hbm, ⟨20, _⟩ => ⟨S1x1600000, .i32⟩
  | .hbm, ⟨21, _⟩ => ⟨S1600000, .i32⟩
  | .hbm, ⟨22, _⟩ => ⟨S1x1600000, .i32⟩
  | .hbm, ⟨23, _⟩ => ⟨S1600000, .i32⟩
  | .hbm, ⟨24, _⟩ => ⟨S_, .f32⟩
  | .hbm, ⟨25, _⟩ => ⟨S1600000, .f32⟩
  | .hbm, ⟨26, _⟩ => ⟨S_, .f32⟩
  | .hbm, ⟨27, _⟩ => ⟨S50000, .f32⟩
  | .hbm, ⟨28, _⟩ => ⟨S1600000x1, .i32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S_, .f32⟩
  | .hbm, ⟨38, _⟩ => ⟨S1600000, .f32⟩
  | .hbm, ⟨39, _⟩ => ⟨S_, .f32⟩
  | .hbm, ⟨40, _⟩ => ⟨S50000, .f32⟩
  | .hbm, ⟨41, _⟩ => ⟨S1600000x1, .i32⟩
  | .hbm, ⟨42, _⟩ => ⟨S50000, .f32⟩
  | .hbm, ⟨43, _⟩ => ⟨S_, .f32⟩
  | .hbm, ⟨44, _⟩ => ⟨S50000, .f32⟩
  | .hbm, ⟨45, _⟩ => ⟨S50000, .f32⟩
  | .hbm, ⟨46, _⟩ => ⟨S_, .f32⟩
  | .hbm, ⟨47, _⟩ => ⟨S50000, .f32⟩
  | .hbm, ⟨48, _⟩ => ⟨S50000, .f32⟩
  | .hbm, ⟨49, _⟩ => ⟨S50000x1, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x128, .f32⟩
  | .hbm, ⟨59, _⟩ => ⟨S_, .f32⟩
  | .hbm, ⟨60, _⟩ => ⟨S50000x128, .f32⟩
  | .hbm, ⟨61, _⟩ => ⟨S1600000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S_, .i32⟩
  | .hbm, ⟨66, _⟩ => ⟨S1600000, .i32⟩
  | .hbm, ⟨67, _⟩ => ⟨S1600000, .i1⟩
  | .hbm, ⟨68, _⟩ => ⟨S_, .i32⟩
  | .hbm, ⟨69, _⟩ => ⟨S1600000, .i32⟩
  | .hbm, ⟨70, _⟩ => ⟨S1600000, .i32⟩
  | .hbm, ⟨71, _⟩ => ⟨S1600000, .i32⟩
  | .hbm, ⟨72, _⟩ => ⟨S1600000x1, .i32⟩
  | .hbm, ⟨73, _⟩ => ⟨S1600000x128, .f32⟩
  | .hbm, ⟨74, _⟩ => ⟨S_, .f32⟩
  | .hbm, ⟨75, _⟩ => ⟨S50000x128, .f32⟩
  | .hbm, ⟨76, _⟩ => ⟨S1600000x1, .i32⟩
  | .hbm, ⟨77, _⟩ => ⟨S50000x128, .f32⟩
  | .hbm, ⟨78, _⟩ => ⟨S1x128, .f32⟩
  | .hbm, ⟨79, _⟩ => ⟨S50000x128, .f32⟩
  | .hbm, ⟨80, _⟩ => ⟨S50000x64, .f32⟩
  | .hbm, ⟨81, _⟩ => ⟨S_, .i32⟩
  | .hbm, ⟨82, _⟩ => ⟨S1600000, .i32⟩
  | .hbm, ⟨83, _⟩ => ⟨S1600000, .i1⟩
  | .hbm, ⟨84, _⟩ => ⟨S_, .i32⟩
  | .hbm, ⟨85, _⟩ => ⟨S1600000, .i32⟩
  | .hbm, ⟨86, _⟩ => ⟨S1600000, .i32⟩
  | .hbm, ⟨87, _⟩ => ⟨S1600000, .i32⟩
  | .hbm, ⟨88, _⟩ => ⟨S1600000x1, .i32⟩
  | .hbm, ⟨89, _⟩ => ⟨S1600000x64, .f32⟩
  | .hbm, ⟨90, _⟩ => ⟨S_, .f32⟩
  | .hbm, ⟨91, _⟩ => ⟨S50000x64, .f32⟩
  | .hbm, ⟨92, _⟩ => ⟨S1600000x1, .i32⟩
  | .hbm, ⟨93, _⟩ => ⟨S50000x64, .f32⟩
  | .hbm, ⟨94, _⟩ => ⟨S1x64, .f32⟩
  | .hbm, ⟨95, _⟩ => ⟨S50000x64, .f32⟩
  | .hbm, ⟨96, _⟩ => ⟨S50000x64, .f32⟩
  | .hbm, ⟨97, _⟩ => ⟨S_, .i32⟩
  | .hbm, ⟨98, _⟩ => ⟨S1600000, .i32⟩
  | .hbm, ⟨99, _⟩ => ⟨S1600000, .i1⟩
  | .hbm, ⟨100, _⟩ => ⟨S_, .i32⟩
  | .hbm, ⟨101, _⟩ => ⟨S1600000, .i32⟩
  | .hbm, ⟨102, _⟩ => ⟨S1600000, .i32⟩
  | .hbm, ⟨103, _⟩ => ⟨S1600000, .i32⟩
  | .hbm, ⟨104, _⟩ => ⟨S1600000x1, .i32⟩
  | .hbm, ⟨105, _⟩ => ⟨S1600000x64, .f32⟩
  | .hbm, ⟨106, _⟩ => ⟨S_, .f32⟩
  | .hbm, ⟨107, _⟩ => ⟨S50000x64, .f32⟩
  | .hbm, ⟨108, _⟩ => ⟨S1600000x1, .i32⟩
  | .hbm, ⟨109, _⟩ => ⟨S50000x64, .f32⟩
  | .hbm, ⟨110, _⟩ => ⟨S1x64, .f32⟩
  | .hbm, ⟨111, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x1, .f32⟩
  | .local _ .vmem, ⟨14, _⟩ => ⟨S5000x1, .f32⟩
  | .local _ .vmem, ⟨15, _⟩ => ⟨S5000x128, .f32⟩
  | .local _ .vmem, ⟨16, _⟩ => ⟨S5000x128, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x1, .f32⟩
  | .local _ .vmem, ⟨30, _⟩ => ⟨S5000x1, .f32⟩
  | .local _ .vmem, ⟨31, _⟩ => ⟨S5000x128, .f32⟩
  | .local _ .vmem, ⟨32, _⟩ => ⟨S5000x128, .f32⟩
  | .local _ .vmem, ⟨33, _⟩ => ⟨S128x64, .f32⟩
  | .local _ .vmem, ⟨34, _⟩ => ⟨S1x64, .f32⟩
  | .local _ .vmem, ⟨35, _⟩ => ⟨S5000x64, .f32⟩
  | .local _ .vmem, ⟨36, _⟩ => ⟨S5000x64, .f32⟩
  | .local _ .vmem, ⟨37, _⟩ => ⟨S5000x128, .f32⟩
  | .local _ .vmem, ⟨38, _⟩ => ⟨S5000x128, .f32⟩
  | .local _ .vmem, ⟨39, _⟩ => ⟨S128x64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S5000x64, .f32⟩
  | .local _ .vmem, ⟨44, _⟩ => ⟨S5000x1, .f32⟩
  | .local _ .vmem, ⟨45, _⟩ => ⟨S5000x1, .f32⟩
  | .local _ .vmem, ⟨46, _⟩ => ⟨S5000x128, .f32⟩
  | .local _ .vmem, ⟨47, _⟩ => ⟨S5000x128, .f32⟩
  | .local _ .vmem, ⟨48, _⟩ => ⟨S128x64, .f32⟩
  | .local _ .vmem, ⟨49, _⟩ => ⟨S1x64, .f32⟩
  | .local _ .vmem, ⟨50, _⟩ => ⟨S5000x64, .f32⟩
  | .local _ .vmem, ⟨51, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_cst : Ref sig .tc := ⟨.hbm, 24, rfl⟩
abbrev main_call0_v8 : Ref sig .tc := ⟨.hbm, 25, rfl⟩
abbrev main_call0_cst_0 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_cst_1 : Ref sig .tc := ⟨.hbm, 30, rfl⟩
abbrev main_call0_v12 : Ref sig .tc := ⟨.hbm, 31, rfl⟩
abbrev main_call0_v13 : Ref sig .tc := ⟨.hbm, 32, rfl⟩
abbrev main_call0_cst_2 : Ref sig .tc := ⟨.hbm, 33, rfl⟩
abbrev main_call0_v14 : Ref sig .tc := ⟨.hbm, 34, rfl⟩
abbrev main_call0_v15 : Ref sig .tc := ⟨.hbm, 35, rfl⟩
abbrev main_call0_v16 : Ref sig .tc := ⟨.hbm, 36, rfl⟩
abbrev main_call0_cst_3 : Ref sig .tc := ⟨.hbm, 37, rfl⟩
abbrev main_call0_v17 : Ref sig .tc := ⟨.hbm, 38, rfl⟩
abbrev main_call0_cst_4 : Ref sig .tc := ⟨.hbm, 39, rfl⟩
abbrev main_call0_v18 : Ref sig .tc := ⟨.hbm, 40, rfl⟩
abbrev main_call0_v19 : Ref sig .tc := ⟨.hbm, 41, rfl⟩
abbrev main_call0_v20 : Ref sig .tc := ⟨.hbm, 42, rfl⟩
abbrev main_call0_cst_5 : Ref sig .tc := ⟨.hbm, 43, rfl⟩
abbrev main_call0_v21 : Ref sig .tc := ⟨.hbm, 44, rfl⟩
abbrev main_call0_v22 : Ref sig .tc := ⟨.hbm, 45, rfl⟩
abbrev main_call0_cst_6 : Ref sig .tc := ⟨.hbm, 46, rfl⟩
abbrev main_call0_v23 : Ref sig .tc := ⟨.hbm, 47, rfl⟩
abbrev main_call0_v24 : Ref sig .tc := ⟨.hbm, 48, rfl⟩
abbrev main_call0_v25 : Ref sig .tc := ⟨.hbm, 49, rfl⟩
abbrev main_call0_c : Ref sig .tc := ⟨.hbm, 50, rfl⟩
abbrev main_call0_v26 : Ref sig .tc := ⟨.hbm, 51, rfl⟩
abbrev main_call0_v27 : Ref sig .tc := ⟨.hbm, 52, rfl⟩
abbrev main_call0_c_7 : Ref sig .tc := ⟨.hbm, 53, rfl⟩
abbrev main_call0_v28 : Ref sig .tc := ⟨.hbm, 54, rfl⟩
abbrev main_call0_v29 : Ref sig .tc := ⟨.hbm, 55, rfl⟩
abbrev main_call0_v30 : Ref sig .tc := ⟨.hbm, 56, rfl⟩
abbrev main_call0_v31 : Ref sig .tc := ⟨.hbm, 57, rfl⟩
abbrev main_call0_v32 : Ref sig .tc := ⟨.hbm, 58, rfl⟩
abbrev main_call0_cst_8 : Ref sig .tc := ⟨.hbm, 59, rfl⟩
abbrev main_call0_v33 : Ref sig .tc := ⟨.hbm, 60, rfl⟩
abbrev main_call0_v34 : Ref sig .tc := ⟨.hbm, 61, rfl⟩
abbrev main_call0_v35 : Ref sig .tc := ⟨.hbm, 62, rfl⟩
abbrev main_call0_v36 : Ref sig .tc := ⟨.hbm, 63, rfl⟩
abbrev main_call0_v37 : Ref sig .tc := ⟨.hbm, 64, rfl⟩
abbrev main_call0_c_9 : Ref sig .tc := ⟨.hbm, 65, rfl⟩
abbrev main_call0_v38 : Ref sig .tc := ⟨.hbm, 66, rfl⟩
abbrev main_call0_v39 : Ref sig .tc := ⟨.hbm, 67, rfl⟩
abbrev main_call0_c_10 : Ref sig .tc := ⟨.hbm, 68, rfl⟩
abbrev main_call0_v40 : Ref sig .tc := ⟨.hbm, 69, rfl⟩
abbrev main_call0_v41 : Ref sig .tc := ⟨.hbm, 70, rfl⟩
abbrev main_call0_v42 : Ref sig .tc := ⟨.hbm, 71, rfl⟩
abbrev main_call0_v43 : Ref sig .tc := ⟨.hbm, 72, rfl⟩
abbrev main_call0_v44 : Ref sig .tc := ⟨.hbm, 73, rfl⟩
abbrev main_call0_cst_11 : Ref sig .tc := ⟨.hbm, 74, rfl⟩
abbrev main_call0_v45 : Ref sig .tc := ⟨.hbm, 75, rfl⟩
abbrev main_call0_v46 : Ref sig .tc := ⟨.hbm, 76, rfl⟩
abbrev main_call0_v47 : Ref sig .tc := ⟨.hbm, 77, rfl⟩
abbrev main_call0_v48 : Ref sig .tc := ⟨.hbm, 78, rfl⟩
abbrev main_call0_v49 : Ref sig .tc := ⟨.hbm, 79, rfl⟩
abbrev main_call0_v50 : Ref sig .tc := ⟨.hbm, 80, rfl⟩
abbrev main_call0_c_12 : Ref sig .tc := ⟨.hbm, 81, rfl⟩
abbrev main_call0_v51 : Ref sig .tc := ⟨.hbm, 82, rfl⟩
abbrev main_call0_v52 : Ref sig .tc := ⟨.hbm, 83, rfl⟩
abbrev main_call0_c_13 : Ref sig .tc := ⟨.hbm, 84, rfl⟩
abbrev main_call0_v53 : Ref sig .tc := ⟨.hbm, 85, rfl⟩
abbrev main_call0_v54 : Ref sig .tc := ⟨.hbm, 86, rfl⟩
abbrev main_call0_v55 : Ref sig .tc := ⟨.hbm, 87, rfl⟩
abbrev main_call0_v56 : Ref sig .tc := ⟨.hbm, 88, rfl⟩
abbrev main_call0_v57 : Ref sig .tc := ⟨.hbm, 89, rfl⟩
abbrev main_call0_cst_14 : Ref sig .tc := ⟨.hbm, 90, rfl⟩
abbrev main_call0_v58 : Ref sig .tc := ⟨.hbm, 91, rfl⟩
abbrev main_call0_v59 : Ref sig .tc := ⟨.hbm, 92, rfl⟩
abbrev main_call0_v60 : Ref sig .tc := ⟨.hbm, 93, rfl⟩
abbrev main_call0_v61 : Ref sig .tc := ⟨.hbm, 94, rfl⟩
abbrev main_v0_0 : Ref sig .tc := ⟨.hbm, 95, rfl⟩
abbrev main_call0_v63 : Ref sig .tc := ⟨.hbm, 96, rfl⟩
abbrev main_call0_c_15 : Ref sig .tc := ⟨.hbm, 97, rfl⟩
abbrev main_call0_v64 : Ref sig .tc := ⟨.hbm, 98, rfl⟩
abbrev main_call0_v65 : Ref sig .tc := ⟨.hbm, 99, rfl⟩
abbrev main_call0_c_16 : Ref sig .tc := ⟨.hbm, 100, rfl⟩
abbrev main_call0_v66 : Ref sig .tc := ⟨.hbm, 101, rfl⟩
abbrev main_call0_v67 : Ref sig .tc := ⟨.hbm, 102, rfl⟩
abbrev main_call0_v68 : Ref sig .tc := ⟨.hbm, 103, rfl⟩
abbrev main_call0_v69 : Ref sig .tc := ⟨.hbm, 104, rfl⟩
abbrev main_call0_v70 : Ref sig .tc := ⟨.hbm, 105, rfl⟩
abbrev main_call0_cst_17 : Ref sig .tc := ⟨.hbm, 106, rfl⟩
abbrev main_call0_v71 : Ref sig .tc := ⟨.hbm, 107, rfl⟩
abbrev main_call0_v72 : Ref sig .tc := ⟨.hbm, 108, rfl⟩
abbrev main_call0_v73 : Ref sig .tc := ⟨.hbm, 109, rfl⟩
abbrev main_call0_v74 : Ref sig .tc := ⟨.hbm, 110, rfl⟩
abbrev main_v0_1 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg2_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg5_1 : Ref sig .tc := ⟨.vmem, 36, rfl⟩
abbrev cc4_stg0_0 : Ref sig .tc := ⟨.vmem, 37, rfl⟩
abbrev cc4_stg0_1 : Ref sig .tc := ⟨.vmem, 38, rfl⟩
abbrev cc4_stg1_0 : Ref sig .tc := ⟨.vmem, 39, rfl⟩
abbrev cc4_stg2_0 : Ref sig .tc := ⟨.vmem, 40, rfl⟩
abbrev cc4_stg2_1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg1_1 : Ref sig .tc := ⟨.vmem, 45, rfl⟩
abbrev cc5_stg2_0 : Ref sig .tc := ⟨.vmem, 46, rfl⟩
abbrev cc5_stg2_1 : Ref sig .tc := ⟨.vmem, 47, rfl⟩
abbrev cc5_stg3_0 : Ref sig .tc := ⟨.vmem, 48, rfl⟩
abbrev cc5_stg4_0 : Ref sig .tc := ⟨.vmem, 49, rfl⟩
abbrev cc5_stg5_0 : Ref sig .tc := ⟨.vmem, 50, rfl⟩
abbrev cc5_stg5_1 : Ref sig .tc := ⟨.vmem, 51, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem2_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem4_0 : DmaSem sig := 34
abbrev cc3_sem5_0 : DmaSem sig := 35
abbrev cc3_sem5_1 : DmaSem sig := 36
abbrev cc4_sem0_0 : DmaSem sig := 37
abbrev cc4_sem0_1 : DmaSem sig := 38
abbrev cc4_sem1_0 : DmaSem sig := 39
abbrev cc4_sem2_0 : DmaSem sig := 40
abbrev cc4_sem2_1 : DmaSem sig := 41
abbrev cc5_sem0_0 : DmaSem sig := 42
abbrev cc5_sem0_1 : DmaSem sig := 43
abbrev cc5_sem1_0 : DmaSem sig := 44
abbrev cc5_sem1_1 : DmaSem sig := 45
abbrev cc5_sem2_0 : DmaSem sig := 46
abbrev cc5_sem2_1 : DmaSem sig := 47
abbrev cc5_sem3_0 : DmaSem sig := 48
abbrev cc5_sem4_0 : DmaSem sig := 49
abbrev cc5_sem5_0 : DmaSem sig := 50
abbrev cc5_sem5_1 : DmaSem sig := 51

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S128x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  shapeCasts_S50000_S50000x1 : S50000.ShapeCasts S50000x1
  bcast_S_S50000x128 : S_.BroadcastsInDim S50000x128 (![] : Fin 0 → Fin S50000x128.rank)
  shapeCasts_S128_S1x128 : S128.ShapeCasts S1x128
  bcast_S_S50000x64 : S_.BroadcastsInDim S50000x64 (![] : Fin 0 → Fin S50000x64.rank)
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S1600000x1_S1600000_n_0_0_1_wf : ScatterDims.WF S50000 S1600000x1 S1600000 [] [0] [0] 1
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x64.size a ≤ S128x64.size a
  hwx3_3 : ∀ i : grid3.Coords, EltTy.bits .f32 = 32 ∨ (Rect.block (s := S128x64) S128x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S50000x64.size a
  hwx3_5 : ∀ i : grid3.Coords, EltTy.bits .f32 = 32 ∨ (Rect.block (s := S50000x64) S5000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S50000x64.size a
  hwx4_2 : ∀ i : grid4.Coords, EltTy.bits .f32 = 32 ∨ (Rect.block (s := S50000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S50000x1.size a
  hwx5_1 : ∀ i : grid5.Coords, EltTy.bits .f32 = 32 ∨ (Rect.block (s := S50000x1) S5000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S50000x128.size a
  hwx5_2 : ∀ i : grid5.Coords, EltTy.bits .f32 = 32 ∨ (Rect.block (s := S50000x128) S5000x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x64.size a ≤ S128x64.size a
  hwx5_3 : ∀ i : grid5.Coords, EltTy.bits .f32 = 32 ∨ (Rect.block (s := S128x64) S128x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x64.size a ≤ S50000x64.size a
  hwx5_5 : ∀ i : grid5.Coords, EltTy.bits .f32 = 32 ∨ (Rect.block (s := S50000x64) S5000x64.size (cc5_transform_5 i) (hinb5_5 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_call0_v35) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v16) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v36) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v37) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_call0_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v25) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v48) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_call0_v49) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_call0_v49) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg10) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v50) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_call0_v60) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_call0_v16) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_call0_v37) S5000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg11) S128x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_call0_v61) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v0_0) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_call0_v37) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg13) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_call0_v63) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_call0_v73) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_call0_v25) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_call0_v49) S5000x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_arg14) S128x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_call0_v74) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v0_1) S5000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S50000 : Shape := ⟨1, ![50000]⟩
abbrev S50000x1 : Shape := ⟨2, ![50000, 1]⟩
abbrev S1x128 : Shape := ⟨2, ![1, 128]⟩
abbrev S50000x64 : Shape := ⟨2, ![50000, 64]⟩
abbrev S1x64 : Shape := ⟨2, ![1, 64]⟩

abbrev nBuf : Space → Nat
  | .hbm => 156
  | .vmem => 0
  | .smem => 0
  | _ => 0

abbrev hbmTy0_0 (i : Nat) : BufTy := match i % 128 with
  | 0 => ⟨S50000x128, .f32⟩
  | 1 => ⟨S50000x128, .f32⟩
  | 2 => ⟨S2x1600000, .i32⟩
  | 3 => ⟨S2x1600000, .i32⟩
  | 4 => ⟨S128x128, .f32⟩
  | 5 => ⟨S128x128, .f32⟩
  | 6 => ⟨S128, .f32⟩
  | 7 => ⟨S128x128, .f32⟩
  | 8 => ⟨S128x128, .f32⟩
  | 9 => ⟨S128, .f32⟩
  | 10 => ⟨S128x64, .f32⟩
  | 11 => ⟨S128x64, .f32⟩
  | 12 => ⟨S64, .f32⟩
  | 13 => ⟨S128x64, .f32⟩
  | 14 => ⟨S128x64, .f32⟩
  | 15 => ⟨S64, .f32⟩
  | 16 => ⟨S1x1600000, .i32⟩
  | 17 => ⟨S1600000, .i32⟩
  | 18 => ⟨S1x1600000, .i32⟩
  | 19 => ⟨S1600000, .i32⟩
  | 20 => ⟨S_, .i32⟩
  | 21 => ⟨S1600000, .i32⟩
  | 22 => ⟨S1600000, .i1⟩
  | 23 => ⟨S_, .i32⟩
  | 24 => ⟨S1600000, .i32⟩
  | 25 => ⟨S1600000, .i32⟩
  | 26 => ⟨S1600000, .i32⟩
  | 27 => ⟨S1600000x1, .i32⟩
  | 28 => ⟨S1600000x128, .f32⟩
  | 29 => ⟨S_, .f32⟩
  | 30 => ⟨S50000x128, .f32⟩
  | 31 => ⟨S1600000x1, .i32⟩
  | 32 => ⟨S50000x128, .f32⟩
  | 33 => ⟨S_, .f32⟩
  | 34 => ⟨S1600000, .f32⟩
  | 35 => ⟨S_, .f32⟩
  | 36 => ⟨S50000, .f32⟩
  | 37 => ⟨S1600000x1, .i32⟩
  | 38 => ⟨S50000, .f32⟩
  | 39 => ⟨S_, .f32⟩
  | 40 => ⟨S50000, .f32⟩
  | 41 => ⟨S50000, .f32⟩
  | 42 => ⟨S50000x1, .f32⟩
  | 43 => ⟨S50000x128, .f32⟩
  | 44 => ⟨S50000x128, .f32⟩
  | 45 => ⟨S50000x128, .f32⟩
  | 46 => ⟨S1x128, .f32⟩
  | 47 => ⟨S50000x128, .f32⟩
  | 48 => ⟨S50000x128, .f32⟩
  | 49 => ⟨S50000x128, .f32⟩
  | 50 => ⟨S50000x128, .f32⟩
  | 51 => ⟨S1x1600000, .i32⟩
  | 52 => ⟨S1600000, .i32⟩
  | 53 => ⟨S1x1600000, .i32⟩
  | 54 => ⟨S1600000, .i32⟩
  | 55 => ⟨S_, .i32⟩
  | 56 => ⟨S1600000, .i32⟩
  | 57 => ⟨S1600000, .i1⟩
  | 58 => ⟨S_, .i32⟩
  | 59 => ⟨S1600000, .i32⟩
  | 60 => ⟨S1600000, .i32⟩
  | 61 => ⟨S1600000, .i32⟩
  | 62 => ⟨S1600000x1, .i32⟩
  | 63 => ⟨S1600000x128, .f32⟩
  | 64 => ⟨S_, .f32⟩
  | 65 => ⟨S50000x128, .f32⟩
  | 66 => ⟨S1600000x1, .i32⟩
  | 67 => ⟨S50000x128, .f32⟩
  | 68 => ⟨S_, .f32⟩
  | 69 => ⟨S1600000, .f32⟩
  | 70 => ⟨S_, .f32⟩
  | 71 => ⟨S50000, .f32⟩
  | 72 => ⟨S1600000x1, .i32⟩
  | 73 => ⟨S50000, .f32⟩
  | 74 => ⟨S_, .f32⟩
  | 75 => ⟨S50000, .f32⟩
  | 76 => ⟨S50000, .f32⟩
  | 77 => ⟨S50000x1, .f32⟩
  | 78 => ⟨S50000x128, .f32⟩
  | 79 => ⟨S50000x128, .f32⟩
  | 80 => ⟨S50000x128, .f32⟩
  | 81 => ⟨S1x128, .f32⟩
  | 82 => ⟨S50000x128, .f32⟩
  | 83 => ⟨S50000x128, .f32⟩
  | 84 => ⟨S50000x128, .f32⟩
  | 85 => ⟨S50000x128, .f32⟩
  | 86 => ⟨S1x1600000, .i32⟩
  | 87 => ⟨S1600000, .i32⟩
  | 88 => ⟨S1x1600000, .i32⟩
  | 89 => ⟨S1600000, .i32⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S1600000x128, .f32⟩
  | 99 => ⟨S_, .f32⟩
  | 100 => ⟨S50000x128, .f32⟩
  | 101 => ⟨S1600000x1, .i32⟩
  | 102 => ⟨S50000x128, .f32⟩
  | 103 => ⟨S_, .f32⟩
  | 104 => ⟨S1600000, .f32⟩
  | 105 => ⟨S_, .f32⟩
  | 106 => ⟨S50000, .f32⟩
  | 107 => ⟨S1600000x1, .i32⟩
  | 108 => ⟨S50000, .f32⟩
  | 109 => ⟨S_, .f32⟩
  | 110 => ⟨S50000, .f32⟩
  | 111 => ⟨S50000, .f32⟩
  | 112 => ⟨S50000x1, .f32⟩
  | 113 => ⟨S50000x128, .f32⟩
  | 114 => ⟨S50000x128, .f32⟩
  | 115 => ⟨S50000x64, .f32⟩
  | 116 => ⟨S1x64, .f32⟩
  | 117 => ⟨S50000x64, .f32⟩
  | 118 => ⟨S50000x64, .f32⟩
  | 119 => ⟨S50000x64, .f32⟩
  | 120 => ⟨S50000x64, .f32⟩
  | 121 => ⟨S1x1600000, .i32⟩
  | 122 => ⟨S1600000, .i32⟩
  | 123 => ⟨S1x1600000, .i32⟩
  | 124 => ⟨S1600000, .i32⟩
  | 125 => ⟨S_, .i32⟩
  | 126 => ⟨S1600000, .i32⟩
  | 127 => ⟨S1600000, .i1⟩
  | _ => ⟨S50000x128, .f32⟩

abbrev hbmTy0_1 (i : Nat) : BufTy := match i % 128 with
  | 0 => ⟨S_, .i32⟩
  | 1 => ⟨S1600000, .i32⟩
  | 2 => ⟨S1600000, .i32⟩
  | 3 => ⟨S1600000, .i32⟩
  | 4 => ⟨S1600000x1, .i32⟩
  | 5 => ⟨S1600000x128, .f32⟩
  | 6 => ⟨S_, .f32⟩
  | 7 => ⟨S50000x128, .f32⟩
  | 8 => ⟨S1600000x1, .i32⟩
  | 9 => ⟨S50000x128, .f32⟩
  | 10 => ⟨S_, .f32⟩
  | 11 => ⟨S1600000, .f32⟩
  | 12 => ⟨S_, .f32⟩
  | 13 => ⟨S50000, .f32⟩
  | 14 => ⟨S1600000x1, .i32⟩
  | 15 => ⟨S50000, .f32⟩
  | 16 => ⟨S_, .f32⟩
  | 17 => ⟨S50000, .f32⟩
  | 18 => ⟨S50000, .f32⟩
  | 19 => ⟨S50000x1, .f32⟩
  | 20 => ⟨S50000x128, .f32⟩
  | 21 => ⟨S50000x128, .f32⟩
  | 22 => ⟨S50000x64, .f32⟩
  | 23 => ⟨S1x64, .f32⟩
  | 24 => ⟨S50000x64, .f32⟩
  | 25 => ⟨S50000x64, .f32⟩
  | 26 => ⟨S50000x64, .f32⟩
  | 27 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_1 : Ref sig .tc := ⟨.hbm, 33, rfl⟩
abbrev main_v14 : Ref sig .tc := ⟨.hbm, 34, rfl⟩
abbrev main_cst_2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_3 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_4 : Ref sig .tc := ⟨.hbm, 55, rfl⟩
abbrev main_v33 : Ref sig .tc := ⟨.hbm, 56, rfl⟩
abbrev main_v34 : Ref sig .tc := ⟨.hbm, 57, rfl⟩
abbrev main_c_5 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_6 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_7 : Ref sig .tc := ⟨.hbm, 68, rfl⟩
abbrev main_v43 : Ref sig .tc := ⟨.hbm, 69, rfl⟩
abbrev main_cst_8 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_9 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_c_10 : Ref sig .tc := ⟨.hbm, 90, rfl⟩
abbrev main_v62 : Ref sig .tc := ⟨.hbm, 91, rfl⟩
abbrev main_v63 : Ref sig .tc := ⟨.hbm, 92, rfl⟩
abbrev main_c_11 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_12 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_13 : Ref sig .tc := ⟨.hbm, 103, rfl⟩
abbrev main_v72 : Ref sig .tc := ⟨.hbm, 104, rfl⟩
abbrev main_cst_14 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_15 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_c_16 : Ref sig .tc := ⟨.hbm, 125, rfl⟩
abbrev main_v91 : Ref sig .tc := ⟨.hbm, 126, rfl⟩
abbrev main_v92 : Ref sig .tc := ⟨.hbm, 127, rfl⟩
abbrev main_c_17 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_cst_18 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_cst_19 : Ref sig .tc := ⟨.hbm, 138, rfl⟩
abbrev main_v101 : Ref sig .tc := ⟨.hbm, 139, rfl⟩
abbrev main_cst_20 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_cst_21 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  scatter_S50000_S1600000x1_S1600000_n_0_0_1_wf : ScatterDims.WF S50000 S1600000x1 S1600000 [] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The idealized kernel's run with every buffer named: every weakly fair execution of @main terminates without a
  fault, and each unscoped buffer of each TensorCore ends at the contents the last of the ten segments leaves
  (four stretches of host operations and six kernel regions, folded from the launch memory).
-/
import proofs.«117899_j51677046505876_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every unscoped buffer ends at the last segment's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c => h c)

end Cert.KernelIdeal.Run

end
-- ==== Proof.LibTypedRef.lean ====
/-
  Typed references of an inlined function call: contents carried along a type equation and back.

  A value of a called function lives in a buffer whose declared type equals the value's type by an equation
  (`StableHlo.TRef.ty_eq`); the builders of a called function's operations carry contents across that equation in both
  directions (`toBuf`, `ofBuf`: a `cast`). Three facts, none of which looks inside the contents:
    * `ofBuf_toBuf`: to the buffer's type and back is the identity, for any typed reference;
    * `toBuf_of`, `ofBuf_of`: at a literal reference taken at its own type each direction is the identity.
  With them the result of a line of a called function's operations is read free of casts, whatever the contents are.
  Imports Lib/StableHlo only; general in the signature and the element values.
-/
import Idealize.ShloMosaic.Lib.StableHlo

namespace Cert.TypedRef

open Idealize.ShloMosaic

/-- Contents carried to a typed reference's buffer type and back are unchanged. -/
theorem ofBuf_toBuf {sg : RefSig} {Val : EltTy → Type} {T : BufTy} (x : StableHlo.TRef sg T) (v : T.Contents Val) :
    x.ofBuf (x.toBuf v) = v := by
  obtain ⟨r, h, h2, h3⟩ := x
  subst h
  rfl

/-- At a reference taken at its own type, carrying contents to the buffer's type is the identity. -/
theorem toBuf_of {sg : RefSig} {Val : EltTy → Type} (r : Ref sg .tc) (h1 : r.ty = r.ty) (h2 : r.space ≠ .host)
    (h3 : r.isScoped = false) (v : r.ty.Contents Val) : (StableHlo.TRef.of (T := r.ty) r h1 h2 h3).toBuf v = v := rfl

/-- And carrying them back is the identity. -/
theorem ofBuf_of {sg : RefSig} {Val : EltTy → Type} (r : Ref sg .tc) (h1 : r.ty = r.ty) (h2 : r.space ≠ .host)
    (h3 : r.isScoped = false) (v : r.ty.Contents Val) : (StableHlo.TRef.of (T := r.ty) r h1 h2 h3).ofBuf v = v := rfl

end Cert.TypedRef
-- ==== Proof.LibSage.lean ====
/-
  Mean-aggregating graph layers on the extended reals.

  A node's neighbour sum adds, from zero, the rows of the edges selected for it; a layer multiplies a node's own row by
  one weight matrix, its neighbour sum scaled by the node's inverse degree by another, adds the two products and a
  bias, and clamps at zero. The last layer has no clamp, and may apply the neighbour weights BEFORE the rows are
  summed: for real entries the two orders agree, because a finite sum of reals commutes with a product by a real
  (`affinePre_eq`). On the extended reals this needs every entry to be a real number, which is why the entries'
  realness is carried through the layers (`isReal_layer`, `isReal_nsum`, `isReal_invdeg`).
-/
import Mathlib.Tactic
import Idealize.ShloMosaic.PureOps.Ideal

noncomputable section

namespace Sage

open Idealize.ShloMosaic

variable {N Eg D C : ℕ}

/-- The extended real `x` is a real number. -/
def IsReal (x : EReal) : Prop := ∃ r : ℝ, x = (r : EReal)

/-- Node `n`'s neighbour sum at feature `d`: from zero, the entries `h (row e) d` of the edges `e` selected for `n`. -/
def nsum (sel : Fin Eg → Fin N → Prop) [∀ e n, Decidable (sel e n)] (row : Fin Eg → Fin N)
    (h : Fin N → Fin D → EReal) (n : Fin N) (d : Fin D) : EReal :=
  0 + ∑ e : Fin Eg, if sel e n then h (row e) d else 0

/-- One over the number of edges selected for `n`, that number clamped below at one. -/
def invdeg (sel : Fin Eg → Fin N → Prop) [∀ e n, Decidable (sel e n)] (n : Fin N) : EReal :=
  Ideal.div 1 (max (0 + ∑ e : Fin Eg, if sel e n then (1 : EReal) else 0) 1)

/-- A matrix product, entry by entry. -/
def lin (h : Fin N → Fin D → EReal) (W : Fin D → Fin C → EReal) (i : Fin N) (j : Fin C) : EReal :=
  ∑ k : Fin D, h i k * W k j

/-- A layer before its clamp: own rows times `Ws`, plus scaled neighbour sums times `Wn`, plus the bias. -/
def affine (h a : Fin N → Fin D → EReal) (inv : Fin N → EReal) (Ws Wn : Fin D → Fin C → EReal) (b : Fin C → EReal)
    (i : Fin N) (j : Fin C) : EReal :=
  (lin h Ws i j + lin (fun n k => a n k * inv n) Wn i j) + b j

/-- A layer: the affine part clamped below at zero. -/
def layer (h a : Fin N → Fin D → EReal) (inv : Fin N → EReal) (Ws Wn : Fin D → Fin C → EReal) (b : Fin C → EReal)
    (i : Fin N) (j : Fin C) : EReal :=
  max (affine h a inv Ws Wn b i j) 0

/-- The last layer when the neighbour weights were applied before the rows were summed: `p` is the neighbour sum of
    the projected rows. -/
def affinePre (h : Fin N → Fin D → EReal) (p : Fin N → Fin C → EReal) (inv : Fin N → EReal) (Ws : Fin D → Fin C → EReal)
    (b : Fin C → EReal) (i : Fin N) (j : Fin C) : EReal :=
  (lin h Ws i j + p i j * inv i) + b j

/-! ### Realness is closed under the operations the layers use -/

theorem isReal_coe (r : ℝ) : IsReal (r : EReal) := ⟨r, rfl⟩

theorem isReal_zero : IsReal (0 : EReal) := ⟨0, EReal.coe_zero.symm⟩

theorem isReal_one : IsReal (1 : EReal) := ⟨1, EReal.coe_one.symm⟩

theorem isReal_add {x y : EReal} (hx : IsReal x) (hy : IsReal y) : IsReal (x + y) := by
  obtain ⟨a, rfl⟩ := hx
  obtain ⟨b, rfl⟩ := hy
  exact ⟨a + b, (EReal.coe_add a b).symm⟩

theorem isReal_mul {x y : EReal} (hx : IsReal x) (hy : IsReal y) : IsReal (x * y) := by
  obtain ⟨a, rfl⟩ := hx
  obtain ⟨b, rfl⟩ := hy
  exact ⟨a * b, (EReal.coe_mul a b).symm⟩

/-- The larger of two reals, taken in the extended reals, is the larger real. -/
theorem coe_max_real (a b : ℝ) : max (a : EReal) (b : EReal) = ((max a b : ℝ) : EReal) := by
  rcases le_total a b with hab | hab
  · rw [max_eq_right hab, max_eq_right (EReal.coe_le_coe_iff.mpr hab)]
  · rw [max_eq_left hab, max_eq_left (EReal.coe_le_coe_iff.mpr hab)]

theorem isReal_max {x y : EReal} (hx : IsReal x) (hy : IsReal y) : IsReal (max x y) := by
  obtain ⟨a, rfl⟩ := hx
  obtain ⟨b, rfl⟩ := hy
  exact ⟨max a b, coe_max_real a b⟩

theorem isReal_ite (p : Prop) [Decidable p] {x y : EReal} (hx : IsReal x) (hy : IsReal y) :
    IsReal (if p then x else y) := by
  by_cases hp : p
  · rw [if_pos hp]; exact hx
  · rw [if_neg hp]; exact hy

/-- The coercion of a finite sum of reals is the sum of the coercions. -/
theorem coe_sum_real {ι : Type*} (s : Finset ι) (f : ι → ℝ) :
    ((∑ i ∈ s, f i : ℝ) : EReal) = ∑ i ∈ s, (f i : EReal) := by
  classical
  refine Finset.induction_on s ?_ ?_
  · rw [Finset.sum_empty, Finset.sum_empty, EReal.coe_zero]
  · intro a s ha ih
    rw [Finset.sum_insert ha, Finset.sum_insert ha, EReal.coe_add, ih]

theorem isReal_sum {ι : Type*} (s : Finset ι) (f : ι → EReal) (hf : ∀ i, IsReal (f i)) :
    IsReal (∑ i ∈ s, f i) := by
  choose g hg using hf
  refine ⟨∑ i ∈ s, g i, ?_⟩
  rw [coe_sum_real]
  exact Finset.sum_congr rfl fun i _ => hg i

/-! ### The layers' entries are real -/

theorem isReal_nsum (sel : Fin Eg → Fin N → Prop) [∀ e n, Decidable (sel e n)] (row : Fin Eg → Fin N)
    (h : Fin N → Fin D → EReal) (hh : ∀ n d, IsReal (h n d)) (n : Fin N) (d : Fin D) :
    IsReal (nsum sel row h n d) := by
  unfold nsum
  exact isReal_add isReal_zero (isReal_sum _ _ fun e => isReal_ite _ (hh (row e) d) isReal_zero)

theorem isReal_invdeg (sel : Fin Eg → Fin N → Prop) [∀ e n, Decidable (sel e n)] (n : Fin N) :
    IsReal (invdeg sel n) := by
  unfold invdeg
  have hcount : IsReal (0 + ∑ e : Fin Eg, if sel e n then (1 : EReal) else 0) :=
    isReal_add isReal_zero (isReal_sum _ _ fun e => isReal_ite _ isReal_one isReal_zero)
  obtain ⟨c, hc⟩ := hcount
  have hpos : max c 1 ≠ 0 := ne_of_gt (lt_of_lt_of_le one_pos (le_max_right c 1))
  refine ⟨1 / max c 1, ?_⟩
  rw [hc, ← EReal.coe_one, coe_max_real, Ideal.div_coe hpos, EReal.coe_one, one_mul]

theorem isReal_lin (h : Fin N → Fin D → EReal) (W : Fin D → Fin C → EReal) (hh : ∀ i k, IsReal (h i k))
    (hW : ∀ k j, IsReal (W k j)) (i : Fin N) (j : Fin C) : IsReal (lin h W i j) := by
  unfold lin
  exact isReal_sum _ _ fun k => isReal_mul (hh i k) (hW k j)

theorem isReal_affine (h a : Fin N → Fin D → EReal) (inv : Fin N → EReal) (Ws Wn : Fin D → Fin C → EReal)
    (b : Fin C → EReal) (hh : ∀ i k, IsReal (h i k)) (ha : ∀ i k, IsReal (a i k)) (hinv : ∀ n, IsReal (inv n))
    (hWs : ∀ k j, IsReal (Ws k j)) (hWn : ∀ k j, IsReal (Wn k j)) (hb : ∀ j, IsReal (b j)) (i : Fin N)
    (j : Fin C) : IsReal (affine h a inv Ws Wn b i j) := by
  unfold affine
  exact isReal_add
    (isReal_add (isReal_lin h Ws hh hWs i j)
      (isReal_lin (fun n k => a n k * inv n) Wn (fun n k => isReal_mul (ha n k) (hinv n)) hWn i j))
    (hb j)

theorem isReal_layer (h a : Fin N → Fin D → EReal) (inv : Fin N → EReal) (Ws Wn : Fin D → Fin C → EReal)
    (b : Fin C → EReal) (hh : ∀ i k, IsReal (h i k)) (ha : ∀ i k, IsReal (a i k)) (hinv : ∀ n, IsReal (inv n))
    (hWs : ∀ k j, IsReal (Ws k j)) (hWn : ∀ k j, IsReal (Wn k j)) (hb : ∀ j, IsReal (b j)) (i : Fin N)
    (j : Fin C) : IsReal (layer h a inv Ws Wn b i j) := by
  unfold layer
  exact isReal_max (isReal_affine h a inv Ws Wn b hh ha hinv hWs hWn hb i j) isReal_zero

/-! ### Applying the neighbour weights before or after the rows are summed -/

/-- A neighbour sum of real entries, as the coercion of the real neighbour sum. -/
theorem nsum_coe (sel : Fin Eg → Fin N → Prop) [∀ e n, Decidable (sel e n)] (row : Fin Eg → Fin N)
    (hr : Fin N → Fin D → ℝ) (n : Fin N) (d : Fin D) :
    nsum sel row (fun m k => (hr m k : EReal)) n d
      = ((∑ e : Fin Eg, if sel e n then hr (row e) d else 0 : ℝ) : EReal) := by
  unfold nsum
  rw [zero_add, coe_sum_real]
  refine Finset.sum_congr rfl fun e _ => ?_
  by_cases hs : sel e n
  · rw [if_pos hs, if_pos hs]
  · rw [if_neg hs, if_neg hs, EReal.coe_zero]

/-- A matrix product of real entries, as the coercion of the real matrix product. -/
theorem lin_coe (hr : Fin N → Fin D → ℝ) (wr : Fin D → Fin C → ℝ) (i : Fin N) (j : Fin C) :
    lin (fun m k => (hr m k : EReal)) (fun k c => (wr k c : EReal)) i j
      = ((∑ k : Fin D, hr i k * wr k j : ℝ) : EReal) := by
  unfold lin
  rw [coe_sum_real]
  exact Finset.sum_congr rfl fun k _ => (EReal.coe_mul _ _).symm

/-- The real identity: summing the projected rows and scaling, against projecting the scaled sums. -/
theorem real_sum_swap (sel : Fin Eg → Fin N → Prop) [∀ e n, Decidable (sel e n)] (row : Fin Eg → Fin N)
    (hr : Fin N → Fin D → ℝ) (wr : Fin D → Fin C → ℝ) (r : ℝ) (i : Fin N) (j : Fin C) :
    (∑ e : Fin Eg, if sel e i then ∑ k : Fin D, hr (row e) k * wr k j else 0) * r
      = ∑ k : Fin D, ((∑ e : Fin Eg, if sel e i then hr (row e) k else 0) * r) * wr k j := by
  have hR : ∀ k : Fin D, ((∑ e : Fin Eg, if sel e i then hr (row e) k else 0) * r) * wr k j
      = ∑ e : Fin Eg, (if sel e i then hr (row e) k * wr k j else 0) * r := by
    intro k
    rw [Finset.sum_mul, Finset.sum_mul]
    refine Finset.sum_congr rfl fun e _ => ?_
    by_cases hs : sel e i
    · rw [if_pos hs, if_pos hs]; ring
    · rw [if_neg hs, if_neg hs]; ring
  have hL : ∀ e : Fin Eg, (if sel e i then ∑ k : Fin D, hr (row e) k * wr k j else 0) * r
      = ∑ k : Fin D, (if sel e i then hr (row e) k * wr k j else 0) * r := by
    intro e
    by_cases hs : sel e i
    · rw [if_pos hs, Finset.sum_mul]
      exact Finset.sum_congr rfl fun k _ => by rw [if_pos hs]
    · rw [if_neg hs, zero_mul]
      exact (Finset.sum_eq_zero fun k _ => by rw [if_neg hs, zero_mul]).symm
  calc (∑ e : Fin Eg, if sel e i then ∑ k : Fin D, hr (row e) k * wr k j else 0) * r
      = ∑ e : Fin Eg, ∑ k : Fin D, (if sel e i then hr (row e) k * wr k j else 0) * r := by
        rw [Finset.sum_mul]
        exact Finset.sum_congr rfl fun e _ => hL e
    _ = ∑ k : Fin D, ∑ e : Fin Eg, (if sel e i then hr (row e) k * wr k j else 0) * r := Finset.sum_comm
    _ = ∑ k : Fin D, ((∑ e : Fin Eg, if sel e i then hr (row e) k else 0) * r) * wr k j :=
        Finset.sum_congr rfl fun k _ => (hR k).symm

/-- For real entries, scaling the neighbour sum of the projected rows is projecting the scaled neighbour sums. -/
theorem nsum_lin_swap (sel : Fin Eg → Fin N → Prop) [∀ e n, Decidable (sel e n)] (row : Fin Eg → Fin N)
    (h : Fin N → Fin D → EReal) (inv : Fin N → EReal) (Wn : Fin D → Fin C → EReal)
    (hh : ∀ n d, IsReal (h n d)) (hinv : ∀ n, IsReal (inv n)) (hWn : ∀ k j, IsReal (Wn k j)) (i : Fin N)
    (j : Fin C) :
    nsum sel row (lin h Wn) i j * inv i = lin (fun n k => nsum sel row h n k * inv n) Wn i j := by
  choose hr hhr using hh
  choose ir hir using hinv
  choose wr hwr using hWn
  obtain rfl : h = fun m k => (hr m k : EReal) := funext fun m => funext fun k => hhr m k
  obtain rfl : inv = fun m => (ir m : EReal) := funext fun m => hir m
  obtain rfl : Wn = fun k c => (wr k c : EReal) := funext fun k => funext fun c => hwr k c
  have hlin : lin (fun m k => (hr m k : EReal)) (fun k c => (wr k c : EReal))
      = fun m c => ((∑ k : Fin D, hr m k * wr k c : ℝ) : EReal) :=
    funext fun m => funext fun c => lin_coe hr wr m c
  have hscaled : (fun n k => nsum sel row (fun m k => (hr m k : EReal)) n k * (ir n : EReal))
      = fun n k => (((∑ e : Fin Eg, if sel e n then hr (row e) k else 0) * ir n : ℝ) : EReal) :=
    funext fun n => funext fun k => by rw [nsum_coe, EReal.coe_mul]
  rw [hlin, hscaled, nsum_coe, lin_coe, ← EReal.coe_mul, real_sum_swap]

theorem affinePre_eq (sel : Fin Eg → Fin N → Prop) [∀ e n, Decidable (sel e n)] (row : Fin Eg → Fin N)
    (h : Fin N → Fin D → EReal) (inv : Fin N → EReal) (Ws Wn : Fin D → Fin C → EReal) (b : Fin C → EReal)
    (hh : ∀ n d, IsReal (h n d)) (hinv : ∀ n, IsReal (inv n)) (hWn : ∀ k j, IsReal (Wn k j)) (i : Fin N)
    (j : Fin C) :
    affinePre h (nsum sel row (lin h Wn)) inv Ws b i j = affine h (nsum sel row h) inv Ws Wn b i j := by
  unfold affinePre affine
  rw [nsum_lin_swap sel row h inv Wn hh hinv hWn i j]

end Sage

end
-- ==== Proof.SageLayers.lean ====
/-
  The layers of a two-sided mean-aggregating network, entry by entry on the extended reals.

  Each side's new row is  (mean over the incoming edges of the OTHER side's rows) · Wl + b + (own row) · Wr.
  The mean is written in two ways: the neighbour sum DIVIDED by the clamped edge count, or the neighbour sum
  TIMES the inverse of that count.  The count is a natural number, so both are the product with the real 1/c.
  The last layer is also written with the weights Wl applied to every row BEFORE the edges are summed; moving Wl
  across the edge sum is distributivity, which holds on the extended reals only where every entry is a real number.
-/
import proofs.«117899_j51677046505876_2_alg».proof.Proof.LibSage

noncomputable section

namespace SageLayers

open Sage Idealize.ShloMosaic

variable {N Eg D C : ℕ}

/-- The number of edges selected for `n`, counted from zero. -/
def deg (sel : Fin Eg → Fin N → Prop) [∀ e n, Decidable (sel e n)] (n : Fin N) : EReal :=
  0 + ∑ e : Fin Eg, if sel e n then (1 : EReal) else 0

theorem invdeg_eq (sel : Fin Eg → Fin N → Prop) [∀ e n, Decidable (sel e n)] (n : Fin N) :
    invdeg sel n = Ideal.div 1 (max (deg sel n) 1) := rfl

/-- Scaled neighbour sums times `Wl`, plus own rows times `Wr`, plus the bias. -/
def combineFull (a : Fin N → Fin D → EReal) (inv : Fin N → EReal) (h : Fin N → Fin D → EReal)
    (Wl Wr : Fin D → Fin C → EReal) (b : Fin C → EReal) (i : Fin N) (j : Fin C) : EReal :=
  (lin (fun n k => a n k * inv n) Wl i j + lin h Wr i j) + b j

/-- Own rows times `Wr`, plus the scaled neighbour sum `p` of rows already multiplied by `Wl`, plus the bias. -/
def combineProj (p : Fin N → Fin C → EReal) (inv : Fin N → EReal) (h : Fin N → Fin D → EReal)
    (Wr : Fin D → Fin C → EReal) (b : Fin C → EReal) (i : Fin N) (j : Fin C) : EReal :=
  (lin h Wr i j + p i j * inv i) + b j

/-- Neighbour sums divided by the clamped count, times `Wl`, plus the bias, plus own rows times `Wr`. -/
def meanConv (a : Fin N → Fin D → EReal) (cnt : Fin N → EReal) (h : Fin N → Fin D → EReal)
    (Wl Wr : Fin D → Fin C → EReal) (b : Fin C → EReal) (i : Fin N) (j : Fin C) : EReal :=
  (lin (fun n k => Ideal.div (a n k) (max (cnt n) 1)) Wl i j + b j) + lin h Wr i j

/-- The edge count is a non-negative real. -/
theorem deg_coe (sel : Fin Eg → Fin N → Prop) [∀ e n, Decidable (sel e n)] (n : Fin N) :
    deg sel n = ((∑ e : Fin Eg, if sel e n then (1 : ℝ) else 0 : ℝ) : EReal) := by
  unfold deg
  rw [zero_add, coe_sum_real]
  refine Finset.sum_congr rfl fun e _ => ?_
  split_ifs <;> simp

/-- The clamped count is a real that is at least one. -/
theorem max_deg_coe (sel : Fin Eg → Fin N → Prop) [∀ e n, Decidable (sel e n)] (n : Fin N) :
    ∃ r : ℝ, r ≠ 0 ∧ max (deg sel n) 1 = (r : EReal) := by
  refine ⟨max (∑ e : Fin Eg, if sel e n then (1 : ℝ) else 0) 1, ?_, ?_⟩
  · have : (1 : ℝ) ≤ max (∑ e : Fin Eg, if sel e n then (1 : ℝ) else 0) 1 := le_max_right _ _
    intro h0; rw [h0] at this; norm_num at this
  · rw [deg_coe, ← EReal.coe_one, coe_max_real]

/-- Dividing by the clamped count is multiplying by its inverse, for every extended real. -/
theorem div_max_deg (sel : Fin Eg → Fin N → Prop) [∀ e n, Decidable (sel e n)] (n : Fin N) (x : EReal) :
    Ideal.div x (max (deg sel n) 1) = x * invdeg sel n := by
  obtain ⟨r, hr, hm⟩ := max_deg_coe sel n
  rw [invdeg_eq, hm, Ideal.div_coe hr, Ideal.div_coe hr, one_mul]

/-- The first layer: dividing the neighbour sums or scaling them by the inverse count is one function; only the order
    of the three summands differs. -/
theorem meanConv_eq_combineFull (sel : Fin Eg → Fin N → Prop) [∀ e n, Decidable (sel e n)]
    (a h : Fin N → Fin D → EReal) (Wl Wr : Fin D → Fin C → EReal) (b : Fin C → EReal) (i : Fin N) (j : Fin C) :
    meanConv a (deg sel) h Wl Wr b i j = combineFull a (invdeg sel) h Wl Wr b i j := by
  unfold meanConv combineFull
  simp only [div_max_deg]
  rw [add_right_comm]

/-- The last layer: the neighbour weights applied before the edge sum or after it, for real rows and weights. -/
theorem meanConv_eq_combineProj (sel : Fin Eg → Fin N → Prop) [∀ e n, Decidable (sel e n)] (row : Fin Eg → Fin N)
    (src h : Fin N → Fin D → EReal) (Wl Wr : Fin D → Fin C → EReal) (b : Fin C → EReal)
    (hsrc : ∀ n d, IsReal (src n d)) (hWl : ∀ k j, IsReal (Wl k j)) (i : Fin N) (j : Fin C) :
    meanConv (nsum sel row src) (deg sel) h Wl Wr b i j
      = combineProj (nsum sel row (lin src Wl)) (invdeg sel) h Wr b i j := by
  unfold meanConv combineProj
  simp only [div_max_deg]
  rw [nsum_lin_swap sel row src (invdeg sel) Wl hsrc (isReal_invdeg sel) hWl i j]
  rw [add_right_comm, add_comm (lin _ Wl i j) (lin h Wr i j)]

/-- A first layer of real entries is real. -/
theorem isReal_combineFull (a : Fin N → Fin D → EReal) (inv : Fin N → EReal) (h : Fin N → Fin D → EReal)
    (Wl Wr : Fin D → Fin C → EReal) (b : Fin C → EReal) (ha : ∀ i k, IsReal (a i k)) (hinv : ∀ n, IsReal (inv n))
    (hh : ∀ i k, IsReal (h i k)) (hWl : ∀ k j, IsReal (Wl k j)) (hWr : ∀ k j, IsReal (Wr k j))
    (hb : ∀ j, IsReal (b j)) (i : Fin N) (j : Fin C) : IsReal (combineFull a inv h Wl Wr b i j) := by
  unfold combineFull
  exact isReal_add (isReal_add (isReal_lin _ _ (fun n k => isReal_mul (ha n k) (hinv n)) hWl i j)
    (isReal_lin _ _ hh hWr i j)) (hb j)

end SageLayers

end
-- ==== Proof.LibScatterAddRows.lean ====
/-
  An accumulating scatter of whole rows, read at an entry.

  The operand is an `N × C` array, the updates an `E × C` array, and update row `e` is added onto the operand row
  whose number is the `e`-th scatter index (one signed integer per update row); a row whose index is negative or
  `≥ N` is dropped. On the extended reals the result at `(n, c)` is therefore the operand's entry plus the sum, over
  the update rows `e` whose index is `n`, of the update entry `(e, c)`: the columns never mix.

  Everything is general in the three extents and in the width of the index integers.
-/
import Idealize.ShloMosaic.PureOps.Ideal
import Idealize.ShloMosaic.PureOps.Contract
import Idealize.ShloMosaic.Lib.ValueIdx

noncomputable section

namespace LibScatterAddRows

open Idealize.ShloMosaic Idealize.ShloMosaic.ValueIdx

variable {N E C w : Nat}

/-- The dimension numbers of a row scatter: operand `[N, C]`, one index per update row held as `[E, 1]`, updates
    `[E, C]`; the update's axis 1 is the window, the operand's axis 0 is the one the index names. -/
abbrev rowDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable (wf : ScatterDims.WF ⟨2, ![N, C]⟩ ⟨2, ![E, 1]⟩ ⟨2, ![E, C]⟩ [1] [0] [0] 1)

/-- On the row axis the window of update entry `(e, b)` starts at the `e`-th scatter index, read signed. -/
theorem start_row (idx : IVec ⟨2, ![E, 1]⟩ w) (e : Fin E) (b : Fin C) :
    (rowDims N E C wf).start (ix2 e b) idx 0 = (idx (ix2 e (0 : Fin 1))).toInt := by
  unfold ScatterDims.start
  rw [dif_pos (show (0 : Fin 2) ∈ (rowDims N E C wf).scatterDimsToOperandDims from List.mem_singleton.mpr rfl)]
  have hsi : (rowDims N E C wf).siIdx (ix2 e b) ⟨List.idxOf (0 : Fin 2) (rowDims N E C wf).scatterDimsToOperandDims,
      List.idxOf_lt_length_iff.2 (List.mem_singleton.mpr rfl)⟩ = ix2 e (0 : Fin 1) := by
    funext a; refine Fin.ext ?_
    match a with
    | ⟨0, _⟩ => rfl
    | ⟨1, _⟩ => rfl
  rw [hsi]

/-- On the column axis it starts at zero. -/
theorem start_col (idx : IVec ⟨2, ![E, 1]⟩ w) (e : Fin E) (b : Fin C) :
    (rowDims N E C wf).start (ix2 e b) idx 1 = 0 := by
  unfold ScatterDims.start
  rw [dif_neg (show ¬ (1 : Fin 2) ∈ (rowDims N E C wf).scatterDimsToOperandDims from by
    intro h; exact absurd (congrArg Fin.val (List.mem_singleton.mp h)) Nat.one_ne_zero)]

/-- The window coordinate on the row axis is zero … -/
theorem window_row (e : Fin E) (b : Fin C) : (rowDims N E C wf).window (ix2 e b) 0 = 0 := by
  unfold ScatterDims.window
  rw [dif_neg (show ¬ (0 : Fin 2) ∈ (rowDims N E C wf).sKept from by
    show ¬ (0 : Fin 2) ∈ ([1] : List (Fin 2))
    intro h; exact absurd (congrArg Fin.val (List.mem_singleton.mp h)) Nat.zero_ne_one)]

/-- … and on the column axis it is the update entry's column. -/
theorem window_col (e : Fin E) (b : Fin C) : (rowDims N E C wf).window (ix2 e b) 1 = b.val := by
  unfold ScatterDims.window
  rw [dif_pos (show (1 : Fin 2) ∈ (rowDims N E C wf).sKept from by
    show (1 : Fin 2) ∈ ([1] : List (Fin 2))
    exact List.mem_singleton.mpr rfl)]
  rfl

/-- WHERE AN UPDATE ENTRY LANDS: entry `(e, b)` lands on operand entry `(n, c)` exactly when the `e`-th index is
    `n` and the columns agree. -/
theorem resultIdx?_iff (idx : IVec ⟨2, ![E, 1]⟩ w) (e : Fin E) (b : Fin C) (n : Fin N) (c : Fin C) :
    (rowDims N E C wf).resultIdx? (ix2 e b) idx = some (ix2 n c)
      ↔ (idx (ix2 e (0 : Fin 1))).toInt = (n.val : Int) ∧ b = c := by
  have hs0 := start_row wf idx e b
  have hs1 := start_col wf idx e b
  have hw0 := window_row wf e b
  have hw1 := window_col wf e b
  unfold ScatterDims.resultIdx?
  constructor
  · intro H
    split at H
    · rename_i h
      have H' := Option.some.inj H
      have h0 : ((rowDims N E C wf).start (ix2 e b) idx 0 + (rowDims N E C wf).window (ix2 e b) 0).toNat = n.val :=
        congrArg (fun f => (f 0).val) H'
      have h1 : ((rowDims N E C wf).start (ix2 e b) idx 1 + (rowDims N E C wf).window (ix2 e b) 1).toNat = c.val :=
        congrArg (fun f => (f 1).val) H'
      have hh0 := (h 0).1
      rw [hs0, hw0] at h0 hh0
      rw [hs1, hw1] at h1
      exact ⟨by omega, Fin.ext (by omega)⟩
    · exact absurd H (by simp)
  · rintro ⟨h0, rfl⟩
    have hn : n.val < N := n.isLt
    have hb : b.val < C := b.isLt
    have h : ∀ a, 0 ≤ (rowDims N E C wf).start (ix2 e b) idx a + (rowDims N E C wf).window (ix2 e b) a
        ∧ (rowDims N E C wf).start (ix2 e b) idx a + (rowDims N E C wf).window (ix2 e b) a
          < (⟨2, ![N, C]⟩ : Shape).size a :=
      Fin.forall_fin_two.2 ⟨by
        rw [hs0, hw0, h0]
        refine ⟨by omega, ?_⟩
        show (n.val : Int) + ((0 : Nat) : Int) < ((N : Nat) : Int)
        omega, by
        rw [hs1, hw1]
        refine ⟨by omega, ?_⟩
        show (0 : Int) + ((b.val : Nat) : Int) < ((C : Nat) : Int)
        omega⟩
    rw [dif_pos h]
    refine congrArg some (funext ?_)
    refine Fin.forall_fin_two.2 ⟨Fin.ext ?_, Fin.ext ?_⟩
    · show ((rowDims N E C wf).start (ix2 e b) idx 0 + (rowDims N E C wf).window (ix2 e b) 0).toNat = n.val
      rw [hs0, hw0, h0]; omega
    · show ((rowDims N E C wf).start (ix2 e b) idx 1 + (rowDims N E C wf).window (ix2 e b) 1).toNat = b.val
      rw [hs1, hw1]; omega

/-- THE ROW SCATTER READ AT AN ENTRY, on the extended reals: the operand's entry plus the update entries of the
    same column in the rows whose index is `n`. -/
theorem hostScatterAdd_rows (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowDims N E C wf) x idx upd (ix2 n c)
      = x (ix2 n c) + ∑ e : Fin E, if (idx (ix2 e (0 : Fin 1))).toInt = (n.val : Int) then upd (ix2 e c) else 0 := by
  unfold Ideal.hostScatterAdd
  refine congrArg (x (ix2 n c) + ·) ?_
  rw [Finset.sum_filter, sum_idx2]
  refine Finset.sum_congr rfl fun e _ => ?_
  simp only [resultIdx?_iff]
  by_cases hq : (idx (ix2 e (0 : Fin 1))).toInt = (n.val : Int)
  · simp only [hq, true_and, Finset.sum_ite_eq', Finset.mem_univ, if_true]
  · simp only [hq, false_and, if_false, Finset.sum_const_zero]

/-- The same for the host operation as a program prints it, read at the exact instance. -/
theorem scatterAdd_rows (x : FVec Ideal ⟨2, ![N, C]⟩ .f32) (idx : IVec ⟨2, ![E, 1]⟩ w)
    (upd : FVec Ideal ⟨2, ![E, C]⟩ .f32) (n : Fin N) (c : Fin C) :
    Host.scatterAdd (F := Ideal) (rowDims N E C wf) x idx upd (ix2 n c)
      = x (ix2 n c) + ∑ e : Fin E, if (idx (ix2 e (0 : Fin 1))).toInt = (n.val : Int) then upd (ix2 e c) else 0 :=
  hostScatterAdd_rows wf x idx upd n c

end LibScatterAddRows

end
-- ==== Proof.LibScatterAddVec.lean ====
/-
  An accumulating scatter of scalars into a vector, read at an entry.

  The operand is a vector of `N` entries, the updates a vector of `E` scalars, and update `e` is added onto the operand
  entry whose number is the `e`-th scatter index (one signed integer per update, held as an `E × 1` array); an update
  whose index is negative or `≥ N` is dropped. On the extended reals the result at `n` is therefore the operand's entry
  plus the sum of the updates `e` whose index is `n`.

  Everything is general in the two extents and in the width of the index integers.
-/
import Idealize.ShloMosaic.PureOps.Ideal
import Idealize.ShloMosaic.PureOps.Contract
import Idealize.ShloMosaic.Lib.ValueIdx

noncomputable section

namespace LibScatterAddVec

open Idealize.ShloMosaic Idealize.ShloMosaic.ValueIdx

variable {N E w : Nat}

/-- The dimension numbers of a scalar scatter into a vector: operand `[N]`, one index per update held as `[E, 1]`,
    updates `[E]`; no window axis, and the operand's one axis is the one the index names. -/
abbrev vecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable (wf : ScatterDims.WF ⟨1, ![N]⟩ ⟨2, ![E, 1]⟩ ⟨1, ![E]⟩ [] [0] [0] 1)

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The window of update `e` starts at the `e`-th scatter index, read signed. -/
theorem start_at (idx : IVec ⟨2, ![E, 1]⟩ w) (e : Fin E) :
    (vecDims N E wf).start (ix1 e) idx 0 = (idx (ix2 e (0 : Fin 1))).toInt := by
  unfold ScatterDims.start
  rw [dif_pos (show (0 : Fin 1) ∈ (vecDims N E wf).scatterDimsToOperandDims from List.mem_singleton.mpr rfl)]
  have hsi : (vecDims N E wf).siIdx (ix1 e) ⟨List.idxOf (0 : Fin 1) (vecDims N E wf).scatterDimsToOperandDims,
      List.idxOf_lt_length_iff.2 (List.mem_singleton.mpr rfl)⟩ = ix2 e (0 : Fin 1) := by
    funext a; refine Fin.ext ?_
    match a with
    | ⟨0, _⟩ => rfl
    | ⟨1, _⟩ => rfl
  rw [hsi]

/-- There is no window axis: the window coordinate is zero. -/
theorem window_at (e : Fin E) : (vecDims N E wf).window (ix1 e) 0 = 0 := by
  unfold ScatterDims.window
  rw [dif_neg (show ¬ (0 : Fin 1) ∈ (vecDims N E wf).sKept from by
    show ¬ (0 : Fin 1) ∈ ([] : List (Fin 1))
    exact List.not_mem_nil)]

/-- WHERE AN UPDATE LANDS: update `e` lands on operand entry `n` exactly when the `e`-th index is `n`. -/
theorem resultIdx?_iff (idx : IVec ⟨2, ![E, 1]⟩ w) (e : Fin E) (n : Fin N) :
    (vecDims N E wf).resultIdx? (ix1 e) idx = some (ix1 n)
      ↔ (idx (ix2 e (0 : Fin 1))).toInt = (n.val : Int) := by
  have hs0 := start_at wf idx e
  have hw0 := window_at wf e
  unfold ScatterDims.resultIdx?
  constructor
  · intro H
    split at H
    · rename_i h
      have H' := Option.some.inj H
      have h0 : ((vecDims N E wf).start (ix1 e) idx 0 + (vecDims N E wf).window (ix1 e) 0).toNat = n.val :=
        congrArg (fun f => (f 0).val) H'
      have hh0 := (h 0).1
      rw [hs0, hw0] at h0 hh0
      omega
    · exact absurd H (by simp)
  · intro h0
    have hn : n.val < N := n.isLt
    have h : ∀ a, 0 ≤ (vecDims N E wf).start (ix1 e) idx a + (vecDims N E wf).window (ix1 e) a
        ∧ (vecDims N E wf).start (ix1 e) idx a + (vecDims N E wf).window (ix1 e) a
          < (⟨1, ![N]⟩ : Shape).size a :=
      Fin.forall_fin_one.2 ⟨by rw [hs0, hw0, h0]; omega, by
        rw [hs0, hw0, h0]
        show (n.val : Int) + ((0 : Nat) : Int) < ((N : Nat) : Int)
        omega⟩
    rw [dif_pos h]
    refine congrArg some (funext ?_)
    refine Fin.forall_fin_one.2 (Fin.ext ?_)
    show ((vecDims N E wf).start (ix1 e) idx 0 + (vecDims N E wf).window (ix1 e) 0).toNat = n.val
    rw [hs0, hw0, h0]; omega

/-- THE SCALAR SCATTER READ AT AN ENTRY, on the extended reals: the operand's entry plus the updates whose index is
    `n`. -/
theorem hostScatterAdd_vec (x : (⟨1, ![N]⟩ : Shape).Idx → EReal) (idx : IVec ⟨2, ![E, 1]⟩ w)
    (upd : (⟨1, ![E]⟩ : Shape).Idx → EReal) (n : Fin N) :
    Ideal.hostScatterAdd (vecDims N E wf) x idx upd (ix1 n)
      = x (ix1 n) + ∑ e : Fin E, if (idx (ix2 e (0 : Fin 1))).toInt = (n.val : Int) then upd (ix1 e) else 0 := by
  unfold Ideal.hostScatterAdd
  refine congrArg (x (ix1 n) + ·) ?_
  rw [Finset.sum_filter, sum_idx1]
  refine Finset.sum_congr rfl fun e _ => ?_
  simp only [resultIdx?_iff]

/-- The same for the host operation as a program prints it, read at the exact instance. -/
theorem scatterAdd_vec (x : FVec Ideal ⟨1, ![N]⟩ .f32) (idx : IVec ⟨2, ![E, 1]⟩ w)
    (upd : FVec Ideal ⟨1, ![E]⟩ .f32) (n : Fin N) :
    Host.scatterAdd (F := Ideal) (vecDims N E wf) x idx upd (ix1 n)
      = x (ix1 n) + ∑ e : Fin E, if (idx (ix2 e (0 : Fin 1))).toInt = (n.val : Int) then upd (ix1 e) else 0 :=
  hostScatterAdd_vec wf x idx upd n

end LibScatterAddVec

end
-- ==== Proof.LibRowGather.lean ====
/-
  Whole rows of a table gathered at integer start indices, read at an entry.

  `x[idx]` of a table `x : [N, C]` at an integer array lowers to a gather that collapses the row axis, takes a slice of
  one row and all `C` columns, and reads the row's start off the index array. Result entry `(r, k)` — or `(r, e, k)`
  when the index array has two axes — is the table at column `k` of the row named by the start index, read as a signed
  integer and brought into `[0, N - 1]`: the gather clamps every start so that the slice fits. Stated for an index array
  laid out `[R, 1]` (one start per result row) and `[R, J, 1]` (a `J`-tuple of starts per result row), general in every
  extent and in the integers' width.
-/
import Idealize.ShloMosaic.PureOps.ShapeOps
import Idealize.ShloMosaic.PureOps.Dims
import Idealize.ShloMosaic.Lib.ValueIdx

noncomputable section

namespace Cert.RowGather

open Idealize.ShloMosaic Idealize.ShloMosaic.ValueIdx

variable {α : Type}

/-- The dimension numbers of a row gather at starts laid out `[R, 1]`. -/
abbrev dims2 (N C R : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Entry `(r, k)` of the gathered rows is the table at column `k` of the clamped row `idx[r, 0]`. -/
theorem rows2_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (k : Fin C) :
    Host.gather (dims2 N C R wf) x idx (ix2 r k)
      = x (ix2 (⟨min (idx (ix2 r (0 : Fin 1))).toInt.toNat (N - 1), by omega⟩ : Fin N) k) := by
  unfold Host.gather
  refine congrArg x (funext fun a => Fin.ext ?_)
  match a with
  | ⟨0, _⟩ =>
    show (dims2 N C R wf).start (ix2 r k) idx 0 + (dims2 N C R wf).batchCoord (ix2 r k) 0 + (dims2 N C R wf).offCoord (ix2 r k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (dims2 N C R wf).startIndexMap from List.mem_singleton.mpr rfl)]
    have hsi : (dims2 N C R wf).siIdx (ix2 r k) ⟨List.idxOf (0 : Fin 2) (dims2 N C R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (dims2 N C R wf).start (ix2 r k) idx 1 + (dims2 N C R wf).batchCoord (ix2 r k) 1 + (dims2 N C R wf).offCoord (ix2 r k) 1 = _
    rw [GatherDims.batchCoord_eq_zero _ _ _ List.not_mem_nil]
    unfold GatherDims.start
    rw [dif_neg (show ¬ (1 : Fin 2) ∈ ([0] : List (Fin 2)) by decide)]
    unfold GatherDims.offCoord
    rw [dif_pos ((GatherDims.mem_sKept _ _).mpr ⟨(show ¬ (1 : Fin 2) ∈ ([0] : List (Fin 2)) by decide), List.not_mem_nil⟩)]
    simp only [Nat.zero_add]
    rfl

/-- The dimension numbers of a row gather at starts laid out `[R, J, 1]`. -/
abbrev dims3 (N C R J : Nat) (wf : GatherDims.WF ⟨2, ![N, C]⟩ ⟨3, ![R, J, 1]⟩ ⟨3, ![R, J, C]⟩ [2] [0] [] [0] [] 2 ![1, C]) :
    GatherDims ⟨2, ![N, C]⟩ ⟨3, ![R, J, 1]⟩ ⟨3, ![R, J, C]⟩ where
  offsetDims := [2]
  collapsedSliceDims := [0]
  operandBatchingDims := []
  startIndicesBatchingDims := []
  startIndexMap := [0]
  indexVectorDim := 2
  sliceSizes := ![1, C]
  wf := wf

/-- Entry `(r, e, k)` of the gathered rows is the table at column `k` of the clamped row `idx[r, e, 0]`. -/
theorem rows3_apply {N C R J w : Nat} (hN : 0 < N)
    (wf : GatherDims.WF ⟨2, ![N, C]⟩ ⟨3, ![R, J, 1]⟩ ⟨3, ![R, J, C]⟩ [2] [0] [] [0] [] 2 ![1, C])
    (x : (⟨2, ![N, C]⟩ : Shape).Idx → α) (idx : IVec ⟨3, ![R, J, 1]⟩ w) (r : Fin R) (e : Fin J) (k : Fin C) :
    Host.gather (dims3 N C R J wf) x idx (ix3 r e k)
      = x (ix2 (⟨min (idx (ix3 r e (0 : Fin 1))).toInt.toNat (N - 1), by omega⟩ : Fin N) k) := by
  unfold Host.gather
  refine congrArg x (funext fun a => Fin.ext ?_)
  match a with
  | ⟨0, _⟩ =>
    show (dims3 N C R J wf).start (ix3 r e k) idx 0 + (dims3 N C R J wf).batchCoord (ix3 r e k) 0 + (dims3 N C R J wf).offCoord (ix3 r e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (dims3 N C R J wf).startIndexMap from List.mem_singleton.mpr rfl)]
    have hsi : (dims3 N C R J wf).siIdx (ix3 r e k) ⟨List.idxOf (0 : Fin 2) (dims3 N C R J wf).startIndexMap,
        List.idxOf_lt_length_iff.2 (List.mem_singleton.mpr rfl)⟩ = ix3 r e (0 : Fin 1) := by
      funext b; refine Fin.ext ?_
      match b with
      | ⟨0, _⟩ => rfl
      | ⟨1, _⟩ => rfl
      | ⟨2, _⟩ => rfl
    rw [hsi]
    rfl
  | ⟨1, _⟩ =>
    show (dims3 N C R J wf).start (ix3 r e k) idx 1 + (dims3 N C R J wf).batchCoord (ix3 r e k) 1 + (dims3 N C R J wf).offCoord (ix3 r e k) 1 = _
    rw [GatherDims.batchCoord_eq_zero _ _ _ List.not_mem_nil]
    unfold GatherDims.start
    rw [dif_neg (show ¬ (1 : Fin 2) ∈ ([0] : List (Fin 2)) by decide)]
    unfold GatherDims.offCoord
    rw [dif_pos ((GatherDims.mem_sKept _ _).mpr ⟨(show ¬ (1 : Fin 2) ∈ ([0] : List (Fin 2)) by decide), List.not_mem_nil⟩)]
    simp only [Nat.zero_add]
    rfl

end Cert.RowGather

end
-- ==== Proof.EdgeStage.lean ====
/-
  The edge stage of a mean-aggregating layer, read at an entry.

  An edge list gives every edge a source row (read signed and clamped into the table, as a gather does) and a target
  node (read signed; an edge whose target is out of range lands nowhere, as a scatter does).  Gathering the source rows
  and adding them into zeros at the targets leaves, at node `n` and feature `k`, the sum from zero over the edges aimed
  at `n` of their source rows' entry `k`; adding ones the same way leaves the number of edges aimed at `n`.
-/
import proofs.«117899_j51677046505876_2_alg».proof.Proof.SageLayers
import proofs.«117899_j51677046505876_2_alg».proof.Proof.LibScatterAddRows
import proofs.«117899_j51677046505876_2_alg».proof.Proof.LibScatterAddVec
import proofs.«117899_j51677046505876_2_alg».proof.Proof.LibRowGather

noncomputable section

namespace EdgeStage

open Idealize.ShloMosaic Idealize.ShloMosaic.ValueIdx Sage SageLayers

variable {N E C w : ℕ}

/-- Edge `e` is aimed at node `n`: its target word, read signed, is `n`. -/
def aims (ci : IVec ⟨2, ![E, 1]⟩ w) (e : Fin E) (n : Fin N) : Prop :=
  (ci (ix2 e (0 : Fin 1))).toInt = (n.val : Int)

instance (ci : IVec ⟨2, ![E, 1]⟩ w) (e : Fin E) (n : Fin N) : Decidable (aims ci e n) := by
  unfold aims; infer_instance

/-- Edge `e`'s source row: its source word read signed and clamped into the table. -/
def src (hN : 0 < N) (ri : IVec ⟨2, ![E, 1]⟩ w) (e : Fin E) : Fin N :=
  ⟨min (ri (ix2 e (0 : Fin 1))).toInt.toNat (N - 1), by omega⟩

/-- Source rows gathered and added into zeros at the targets: the neighbour sum. -/
theorem gathered_rows_sum (hN : 0 < N)
    (wfs : ScatterDims.WF ⟨2, ![N, C]⟩ ⟨2, ![E, 1]⟩ ⟨2, ![E, C]⟩ [1] [0] [0] 1)
    (wfg : GatherDims.WF ⟨2, ![N, C]⟩ ⟨2, ![E, 1]⟩ ⟨2, ![E, C]⟩ [1] [0] [] [0] [] 1 ![1, C])
    (x : FVec Ideal ⟨2, ![N, C]⟩ .f32) (ri ci : IVec ⟨2, ![E, 1]⟩ w)
    (z : FVec Ideal ⟨2, ![N, C]⟩ .f32) (hz : ∀ i, z i = 0) (n : Fin N) (k : Fin C) :
    Host.scatterAdd (F := Ideal) (LibScatterAddRows.rowDims N E C wfs) z ci
        (Host.gather (Cert.RowGather.dims2 N C E wfg) x ri) (ix2 n k)
      = nsum (aims ci) (src hN ri) (fun a b => x (ix2 a b)) n k := by
  rw [LibScatterAddRows.scatterAdd_rows, hz]
  unfold nsum
  congr 1
  refine Finset.sum_congr rfl fun e _ => ?_
  by_cases h : (ci (ix2 e (0 : Fin 1))).toInt = (n.val : Int)
  · rw [if_pos h, if_pos (show aims ci e n from h), Cert.RowGather.rows2_apply hN]
    rfl
  · rw [if_neg h, if_neg (show ¬ aims ci e n from h)]

/-- Ones added into zeros at the targets: the edge count. -/
theorem ones_sum (wfv : ScatterDims.WF ⟨1, ![N]⟩ ⟨2, ![E, 1]⟩ ⟨1, ![E]⟩ [] [0] [0] 1)
    (ci : IVec ⟨2, ![E, 1]⟩ w) (z : FVec Ideal ⟨1, ![N]⟩ .f32) (hz : ∀ i, z i = 0)
    (o : FVec Ideal ⟨1, ![E]⟩ .f32) (ho : ∀ i, o i = 1) (n : Fin N) :
    Host.scatterAdd (F := Ideal) (LibScatterAddVec.vecDims N E wfv) z ci o (ix1 n) = deg (aims ci) n := by
  rw [LibScatterAddVec.scatterAdd_vec, hz]
  unfold deg
  congr 1
  refine Finset.sum_congr rfl fun e _ => ?_
  by_cases h : (ci (ix2 e (0 : Fin 1))).toInt = (n.val : Int)
  · rw [if_pos h, if_pos (show aims ci e n from h), ho]
  · rw [if_neg h, if_neg (show ¬ aims ci e n from h)]

end EdgeStage

end
-- ==== Proof.LibHostRead.lean ====
/-
  The host's whole-array operations read at one entry, general in the extents.

  * a vector laid out as a one-row matrix, a row repeated down the rows, a vector laid out as a one-column matrix, a
    column repeated across the columns, and a rank-zero array repeated everywhere: each reads ONE element of its operand;
  * the sum of a matrix over its column axis from an initial value: at row `p` the initial value plus
    `∑ k, x (p, k)`;
  * the fold of `max` over the column axis from the word `-inf`: at row `p` the fold over `k` of `x (p, k)`; the
    word `-inf` is the least extended real, so a further `max` with it changes nothing.
-/
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce

noncomputable section

open scoped BigOperators

namespace Cert.HostRead

open Idealize.ShloMosaic Idealize.ShloMosaic.ValueIdx

variable {α : Type} {m n : Nat}

/-! ## Layouts -/

/-- A vector as a one-row matrix: entry `(u, k)` is the vector's entry `k`. -/
theorem vec_row_apply (b : (⟨1, ![n]⟩ : Shape).Idx → α) (h : (⟨1, ![n]⟩ : Shape).BroadcastsInDim ⟨2, ![1, n]⟩ ![1])
    (u : Fin 1) (k : Fin n) : broadcastInDim ⟨2, ![1, n]⟩ ![1] h b (ix2 u k) = b (ix1 k) :=
  broadcastInDim_apply _ h b (ix2 u k) (ix1 k) (fun a => match a with
    | ⟨0, _⟩ => by
      show k.val = if n = 1 then 0 else k.val
      split
      · have := k.isLt; omega
      · rfl)

/-- A one-row matrix repeated down the rows: entry `(p, k)` is the row's entry `(0, k)`. -/
theorem row_rows_apply (x : (⟨2, ![1, n]⟩ : Shape).Idx → α) (h : (⟨2, ![1, n]⟩ : Shape).BroadcastsInDim ⟨2, ![m, n]⟩ ![0, 1])
    (p : Fin m) (k : Fin n) : broadcastInDim ⟨2, ![m, n]⟩ ![0, 1] h x (ix2 p k) = x (ix2 0 k) :=
  broadcastInDim_apply _ h x (ix2 p k) (ix2 0 k) (fun a => match a with
    | ⟨0, _⟩ => by show (0 : ℕ) = if (1 : ℕ) = 1 then 0 else _; rw [if_pos rfl]
    | ⟨1, _⟩ => by
      show k.val = if n = 1 then 0 else k.val
      split
      · have := k.isLt; omega
      · rfl)

/-- A vector as a one-column matrix: entry `(p, u)` is the vector's entry `p`. -/
theorem vec_col_apply (x : (⟨1, ![m]⟩ : Shape).Idx → α) (h : (⟨1, ![m]⟩ : Shape).BroadcastsInDim ⟨2, ![m, 1]⟩ ![0])
    (p : Fin m) (u : Fin 1) : broadcastInDim ⟨2, ![m, 1]⟩ ![0] h x (ix2 p u) = x (ix1 p) :=
  broadcastInDim_apply _ h x (ix2 p u) (ix1 p) (fun a => match a with
    | ⟨0, _⟩ => by
      show p.val = if m = 1 then 0 else p.val
      split
      · have := p.isLt; omega
      · rfl)

/-- A one-column matrix repeated across the columns: entry `(p, k)` is the column's entry `(p, 0)`. -/
theorem col_cols_apply (x : (⟨2, ![m, 1]⟩ : Shape).Idx → α) (h : (⟨2, ![m, 1]⟩ : Shape).BroadcastsInDim ⟨2, ![m, n]⟩ ![0, 1])
    (p : Fin m) (k : Fin n) : broadcastInDim ⟨2, ![m, n]⟩ ![0, 1] h x (ix2 p k) = x (ix2 p 0) :=
  broadcastInDim_apply _ h x (ix2 p k) (ix2 p 0) (fun a => match a with
    | ⟨0, _⟩ => by
      show p.val = if m = 1 then 0 else p.val
      split
      · have := p.isLt; omega
      · rfl
    | ⟨1, _⟩ => by show (0 : ℕ) = if (1 : ℕ) = 1 then 0 else _; rw [if_pos rfl])

/-- A rank-zero array repeated everywhere reads its one element. -/
theorem scalar_apply (t : Shape) (x : (⟨0, ![]⟩ : Shape).Idx → α) (h : (⟨0, ![]⟩ : Shape).BroadcastsInDim t ![]) (j : t.Idx) :
    broadcastInDim t ![] h x j = x (fun a => a.elim0) :=
  broadcastInDim_apply _ h x j (fun a => a.elim0) (fun a => a.elim0)

/-- A float word repeated everywhere, over the extended reals. -/
theorem word_apply (t : Shape) (w : BitVec 32) (h : (⟨0, ![]⟩ : Shape).BroadcastsInDim t ![]) (j : t.Idx) :
    broadcastInDim t ![] h (constant (F := Ideal) (⟨0, ![]⟩ : Shape) .f32 w) j = Ideal.ofBits .f32 w :=
  scalar_apply t _ h j

/-! ## Reductions over the column axis -/

/-- The row index `p` with column `k` put back is `(p, k)`. -/
theorem lift_row (h : (⟨2, ![m, n]⟩ : Shape).Reduces [1] (⟨1, ![m]⟩ : Shape)) (p : Fin m) (k : Fin n) :
    h.lift (ix1 p) k = ix2 p k := by
  funext c; apply Fin.ext
  fin_cases c <;> rfl

/-- The host's sum over the columns, at row `p`: the initial value plus the sum of the row. -/
theorem reduceAdd_row_apply (x : (⟨2, ![m, n]⟩ : Shape).Idx → EReal) (init : (⟨0, ![]⟩ : Shape).Idx → EReal)
    (h' : (⟨2, ![m, n]⟩ : Shape).ReducesTo [1] (⟨1, ![m]⟩ : Shape)) (hu : 0 < (⟨0, ![]⟩ : Shape).numel) (p : Fin m) :
    Host.reduceAdd (F := Ideal) (φ := .f32) x init h' hu (ix1 p) = init (Shape.Idx.first hu) + ∑ k : Fin n, x (ix2 p k) := by
  have hr : (⟨2, ![m, n]⟩ : Shape).Reduces [1] (⟨1, ![m]⟩ : Shape) := ⟨h'.1, Nat.one_pos, h'.2⟩
  simp only [Host.reduceAdd, Ideal.hostReduceAdd_def]
  rw [Ideal.hostReduceAdd_single h' hr]
  refine congrArg (_ + ·) (Finset.sum_congr rfl fun k _ => ?_)
  exact congrArg x (lift_row hr p k)

/-- The host's sum over the columns from the zero word, at row `p`: the sum of the row. -/
theorem reduceAdd_row_zero_apply (x : (⟨2, ![m, n]⟩ : Shape).Idx → EReal)
    (h' : (⟨2, ![m, n]⟩ : Shape).ReducesTo [1] (⟨1, ![m]⟩ : Shape)) (hu : 0 < (⟨0, ![]⟩ : Shape).numel) (p : Fin m) :
    Host.reduceAdd (F := Ideal) (φ := .f32) x (constant (F := Ideal) (⟨0, ![]⟩ : Shape) .f32 0x00000000#32) h' hu (ix1 p)
      = ∑ k : Fin n, x (ix2 p k) := by
  rw [reduceAdd_row_apply]
  show Ideal.ofBits .f32 0x00000000#32 + _ = _
  rw [Ideal.ofBits_zero_f32, zero_add]

/-- The word `-inf` is the least extended real. -/
theorem max_negInf (y : EReal) : max (Ideal.ofBits .f32 0xFF800000#32) y = y := by
  simp [Ideal.ofBits, Ideal.ieee]

/-- The host's fold of `max` over the columns from the word `-inf`, at row `p`: the fold over the row. -/
theorem reduceMax_row_apply (x : FVec Ideal ⟨2, ![m, n]⟩ .f32)
    (h' : (⟨2, ![m, n]⟩ : Shape).ReducesTo [1] (⟨1, ![m]⟩ : Shape)) (hu : 0 < (⟨0, ![]⟩ : Shape).numel) (p : Fin m) :
    Host.reduce (FloatOps.maximumf (F := Ideal) (φ := .f32)) x (constant (F := Ideal) (⟨0, ![]⟩ : Shape) .f32 0xFF800000#32) h' hu (ix1 p)
      = (Finset.univ : Finset (Fin n)).fold (max : EReal → EReal → EReal) (Ideal.ofBits .f32 0xFF800000#32 : EReal)
          (fun k => (x (ix2 p k) : EReal)) := by
  have hr : (⟨2, ![m, n]⟩ : Shape).Reduces [1] (⟨1, ![m]⟩ : Shape) := ⟨h'.1, Nat.one_pos, h'.2⟩
  refine (Host.reduce_eq_fold_single FloatOps.maximumf x _ h' hr hu (ix1 p)).trans ?_
  have hf : (x ∘ hr.lift (ix1 p)) = fun k : Fin n => x (ix2 p k) := funext fun k => congrArg x (lift_row hr p k)
  exact congrArg (fun f => Finset.fold max (Ideal.ofBits .f32 0xFF800000#32) f (Finset.univ : Finset (Fin n))) hf

/-- One more `max` with the word `-inf` repeated along a vector: at `p` the other operand's entry. -/
theorem maxWord_apply (r : FVec Ideal ⟨1, ![m]⟩ .f32) (h : (⟨0, ![]⟩ : Shape).BroadcastsInDim ⟨1, ![m]⟩ ![]) (p : Fin m) (v : EReal)
    (hr : r (ix1 p) = v) :
    maximumf (broadcastInDim ⟨1, ![m]⟩ ![] h (constant (F := Ideal) (⟨0, ![]⟩ : Shape) .f32 0xFF800000#32)) r (ix1 p) = v := by
  refine (congrArg₂ (max : EReal → EReal → EReal) (word_apply ⟨1, ![m]⟩ _ h (ix1 p)) hr).trans ?_
  exact max_negInf v

/-! ## Pointwise host operations -/

theorem hostLog_apply {s : Shape} (y : FVec Ideal s .f32) (i : s.Idx) : Host.log (F := Ideal) y i = Ideal.log (y i) := rfl
theorem hostExp_apply {s : Shape} (y : FVec Ideal s .f32) (i : s.Idx) : Host.exp (F := Ideal) y i = Ideal.exp (y i) := rfl
theorem hostRsqrt_apply {s : Shape} (y : FVec Ideal s .f32) (i : s.Idx) : Host.rsqrt (F := Ideal) y i = Ideal.rsqrt (y i) := rfl
theorem hostDivf_apply {s : Shape} (x y : FVec Ideal s .f32) (i : s.Idx) : Host.divf (F := Ideal) x y i = Ideal.div (x i) (y i) := rfl
theorem addf_apply {s : Shape} (x y : FVec Ideal s .f32) (i : s.Idx) : addf x y i = x i + y i := rfl
theorem subf_apply {s : Shape} (x y : FVec Ideal s .f32) (i : s.Idx) : subf x y i = x i - y i := rfl
theorem mulf_apply {s : Shape} (x y : FVec Ideal s .f32) (i : s.Idx) : mulf x y i = x i * y i := rfl
theorem maximumf_apply {s : Shape} (x y : FVec Ideal s .f32) (i : s.Idx) : maximumf x y i = max (x i) (y i) := rfl

end Cert.HostRead

end
-- ==== Proof.LibKeepdims.lean ====
/-
  Column ("keepdims") layouts read at an index given by coordinates.

  A row statistic of a matrix (a row sum, a row maximum) is a vector `[a]`; to combine it with the matrix again it is
  first viewed as the one-column matrix `[a, 1]` and then repeated along the columns to `[a, b]`. A statistic of the
  whole matrix is a one-element vector `[1]`, viewed as `[1, 1]` and repeated down the rows to the column `[a, 1]`.
  And a matrix that is one block of a rank-4 array is the block `[1, 1, a, b]` with its two unit axes dropped, or
  the matrix with two unit axes put in front. Each lemma here says which ONE element of the operand such a view reads
  at an index written by coordinates: a shape cast keeps the row-major position, and a broadcast reads coordinate `0`
  on an axis of size one. They complement the leading-unit-axis casts and the row broadcast `[1, b] → [a, b]` of the
  library's layout lemmas; all are general in the sizes.
-/
import Idealize.ShloMosaic.Lib.ValueLayout

namespace Cert.Keepdims

open Idealize.ShloMosaic Idealize.ShloMosaic.ValueIdx

variable {α : Type}

/-! ## A vector as a one-column matrix, and the column repeated -/

/-- An `[a]` vector cast to the column `[a, 1]` reads, at `(i, u)`, the vector at `i`: the position `i · 1 + u` is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast back to the vector `[a]` reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## One number as a `[1, 1]` matrix, repeated down a column -/

/-- A one-element vector `[1]` cast to `[1, 1]` reads its one element everywhere. -/
theorem shapeCast_1_11_apply (x : (⟨1, ![1]⟩ : Shape).Idx → α) (h : (⟨1, ![1]⟩ : Shape).ShapeCasts ⟨2, ![1, 1]⟩)
    (u v : Fin 1) : shapeCast ⟨2, ![1, 1]⟩ x h (ix2 u v) = x (ix1 (0 : Fin 1)) := by
  obtain rfl : u = 0 := Subsingleton.elim _ _
  exact shapeCast_a_a1_apply x h 0 v

/-- A `[1, 1]` matrix broadcast to the column `[a, 1]` reads its one element in every row. -/
theorem broadcastTo_11_a1_apply {a : ℕ} (v : (⟨2, ![1, 1]⟩ : Shape).Idx → α)
    (h : (⟨2, ![1, 1]⟩ : Shape).Broadcasts ⟨2, ![a, 1]⟩) (p : Fin a) (u : Fin 1) :
    broadcastTo ⟨2, ![a, 1]⟩ v h (ix2 p u) = v (ix2 (0 : Fin 1) (0 : Fin 1)) := by
  obtain rfl : u = 0 := Subsingleton.elim _ _
  exact broadcastTo_1b_ab_apply v h p 0

/-! ## Two leading unit axes dropped from, or added to, a matrix -/

/-- A `[1, 1, a, b]` block cast to the matrix `[a, b]` reads, at `(i, j)`, the block at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add, Nat.add_zero])

/-- A matrix `[a, b]` cast to the block `[1, 1, a, b]` reads, at `(u, v, i, j)`, the matrix at `(i, j)`, whatever the
    two unit coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    simp only [hu, hv, Nat.zero_mul, Nat.zero_add, Nat.add_zero])

end Cert.Keepdims
-- ==== Proof.HostStages.lean ====
/-
  The host stages of a mean-aggregating layer as whole-array functions, each read at an entry.

  From an edge list `[2, E]`: row 0 holds source words (a negative word is first raised by the table's height, as
  indexing from the end does) and row 1 target words.  `aggregate` gathers the source rows of a table and adds them
  into zeros at the targets; `inverseDegree` is one over the edge count clamped below at one, laid out as a column;
  `clampedDegree` is that clamped count as a vector; `biasRow` lays a bias vector out as a one-row matrix.
  Read at an entry, `aggregate` is the neighbour sum, `inverseDegree` the inverse clamped degree and
  `clampedDegree` the clamped degree of the layers' entrywise description.
-/
import proofs.«117899_j51677046505876_2_alg».proof.Proof.EdgeStage
import proofs.«117899_j51677046505876_2_alg».proof.Proof.LibHostRead
import proofs.«117899_j51677046505876_2_alg».proof.Proof.LibKeepdims
import Idealize.ShloMosaic.Lib.ValueLayout

noncomputable section

namespace HostStages

open Idealize.ShloMosaic Idealize.ShloMosaic.ValueIdx Sage SageLayers EdgeStage

variable {N E C : ℕ}

/-- The float word `0x3F800000` is one. -/
theorem ofBits_one_f32 : Ideal.ofBits .f32 0x3F800000#32 = 1 := by
  simp [Ideal.ofBits, Ideal.ieee, -EReal.coe_mul]; norm_num

/-- Row `k` of an edge list as a vector of words. -/
def edgeRow (k : ℕ) (hs : (⟨2, ![2, E]⟩ : Shape).Slices ![k, 0] ⟨2, ![1, E]⟩)
    (hc : (⟨2, ![1, E]⟩ : Shape).ShapeCasts ⟨1, ![E]⟩) (Eg : IVec ⟨2, ![2, E]⟩ 32) : IVec ⟨1, ![E]⟩ 32 :=
  shapeCast ⟨1, ![E]⟩ (extractStridedSlice ⟨2, ![1, E]⟩ ![k, 0] Eg hs) hc

/-- Target words as a start-index column. -/
def targetColumn (hb : (⟨1, ![E]⟩ : Shape).BroadcastsInDim ⟨2, ![E, 1]⟩ ![0]) (r : IVec ⟨1, ![E]⟩ 32) :
    IVec ⟨2, ![E, 1]⟩ 32 :=
  broadcastInDim ⟨2, ![E, 1]⟩ ![0] hb r

/-- Source words as a start-index column, a negative word raised by `height` first. -/
def sourceColumn (hb0 : (⟨0, ![]⟩ : Shape).BroadcastsInDim ⟨1, ![E]⟩ ![])
    (hb : (⟨1, ![E]⟩ : Shape).BroadcastsInDim ⟨2, ![E, 1]⟩ ![0]) (height : BitVec 32) (r : IVec ⟨1, ![E]⟩ 32) :
    IVec ⟨2, ![E, 1]⟩ 32 :=
  broadcastInDim ⟨2, ![E, 1]⟩ ![0] hb
    (select (cmpi .slt r (broadcastInDim ⟨1, ![E]⟩ ![] hb0 (constantI ⟨0, ![]⟩ 32 0#32)))
      (addi r (broadcastInDim ⟨1, ![E]⟩ ![] hb0 (constantI ⟨0, ![]⟩ 32 height))) r)

/-- Source rows of `x` gathered and added into zeros at the targets. -/
def aggregate (wfs : ScatterDims.WF ⟨2, ![N, C]⟩ ⟨2, ![E, 1]⟩ ⟨2, ![E, C]⟩ [1] [0] [0] 1)
    (wfg : GatherDims.WF ⟨2, ![N, C]⟩ ⟨2, ![E, 1]⟩ ⟨2, ![E, C]⟩ [1] [0] [] [0] [] 1 ![1, C])
    (hz : (⟨0, ![]⟩ : Shape).BroadcastsInDim ⟨2, ![N, C]⟩ ![])
    (x : FVec Ideal ⟨2, ![N, C]⟩ .f32) (ri ci : IVec ⟨2, ![E, 1]⟩ 32) : FVec Ideal ⟨2, ![N, C]⟩ .f32 :=
  Host.scatterAdd (F := Ideal) (LibScatterAddRows.rowDims N E C wfs)
    (broadcastInDim ⟨2, ![N, C]⟩ ![] hz (constant (F := Ideal) ⟨0, ![]⟩ .f32 0x00000000#32)) ci
    (Host.gather (Cert.RowGather.dims2 N C E wfg) x ri)

theorem aggregate_apply (hN : 0 < N)
    (wfs : ScatterDims.WF ⟨2, ![N, C]⟩ ⟨2, ![E, 1]⟩ ⟨2, ![E, C]⟩ [1] [0] [0] 1)
    (wfg : GatherDims.WF ⟨2, ![N, C]⟩ ⟨2, ![E, 1]⟩ ⟨2, ![E, C]⟩ [1] [0] [] [0] [] 1 ![1, C])
    (hz : (⟨0, ![]⟩ : Shape).BroadcastsInDim ⟨2, ![N, C]⟩ ![])
    (x : FVec Ideal ⟨2, ![N, C]⟩ .f32) (ri ci : IVec ⟨2, ![E, 1]⟩ 32) (n : Fin N) (k : Fin C) :
    aggregate wfs wfg hz x ri ci (ix2 n k) = nsum (aims ci) (src hN ri) (fun a b => x (ix2 a b)) n k := by
  unfold aggregate
  exact gathered_rows_sum hN wfs wfg x ri ci _
    (fun i => (Cert.HostRead.word_apply _ _ hz i).trans Ideal.ofBits_zero_f32) n k

/-- The edge count clamped below at one, as a vector over the nodes. -/
def clampedDegree (wfv : ScatterDims.WF ⟨1, ![N]⟩ ⟨2, ![E, 1]⟩ ⟨1, ![E]⟩ [] [0] [0] 1)
    (hzN : (⟨0, ![]⟩ : Shape).BroadcastsInDim ⟨1, ![N]⟩ ![]) (hoE : (⟨0, ![]⟩ : Shape).BroadcastsInDim ⟨1, ![E]⟩ ![])
    (ci : IVec ⟨2, ![E, 1]⟩ 32) : FVec Ideal ⟨1, ![N]⟩ .f32 :=
  maximumf
    (Host.scatterAdd (F := Ideal) (LibScatterAddVec.vecDims N E wfv)
      (broadcastInDim ⟨1, ![N]⟩ ![] hzN (constant (F := Ideal) ⟨0, ![]⟩ .f32 0x00000000#32)) ci
      (broadcastInDim ⟨1, ![E]⟩ ![] hoE (constant (F := Ideal) ⟨0, ![]⟩ .f32 0x3F800000#32)))
    (broadcastInDim ⟨1, ![N]⟩ ![] hzN (constant (F := Ideal) ⟨0, ![]⟩ .f32 0x3F800000#32))

theorem clampedDegree_apply (wfv : ScatterDims.WF ⟨1, ![N]⟩ ⟨2, ![E, 1]⟩ ⟨1, ![E]⟩ [] [0] [0] 1)
    (hzN : (⟨0, ![]⟩ : Shape).BroadcastsInDim ⟨1, ![N]⟩ ![]) (hoE : (⟨0, ![]⟩ : Shape).BroadcastsInDim ⟨1, ![E]⟩ ![])
    (ci : IVec ⟨2, ![E, 1]⟩ 32) (n : Fin N) :
    clampedDegree wfv hzN hoE ci (ix1 n) = max (deg (aims ci) n) 1 := by
  unfold clampedDegree
  rw [Cert.HostRead.maximumf_apply,
    ones_sum wfv ci _ (fun i => (Cert.HostRead.word_apply _ _ hzN i).trans Ideal.ofBits_zero_f32) _
      (fun i => (Cert.HostRead.word_apply _ _ hoE i).trans ofBits_one_f32) n,
    Cert.HostRead.word_apply, ofBits_one_f32]

/-- One over the clamped edge count, as a column over the nodes. -/
def inverseDegree (wfv : ScatterDims.WF ⟨1, ![N]⟩ ⟨2, ![E, 1]⟩ ⟨1, ![E]⟩ [] [0] [0] 1)
    (hzN : (⟨0, ![]⟩ : Shape).BroadcastsInDim ⟨1, ![N]⟩ ![]) (hoE : (⟨0, ![]⟩ : Shape).BroadcastsInDim ⟨1, ![E]⟩ ![])
    (hsc : (⟨1, ![N]⟩ : Shape).ShapeCasts ⟨2, ![N, 1]⟩) (ci : IVec ⟨2, ![E, 1]⟩ 32) : FVec Ideal ⟨2, ![N, 1]⟩ .f32 :=
  shapeCast ⟨2, ![N, 1]⟩
    (Host.divf (F := Ideal) (broadcastInDim ⟨1, ![N]⟩ ![] hzN (constant (F := Ideal) ⟨0, ![]⟩ .f32 0x3F800000#32))
      (clampedDegree wfv hzN hoE ci)) hsc

theorem inverseDegree_apply (wfv : ScatterDims.WF ⟨1, ![N]⟩ ⟨2, ![E, 1]⟩ ⟨1, ![E]⟩ [] [0] [0] 1)
    (hzN : (⟨0, ![]⟩ : Shape).BroadcastsInDim ⟨1, ![N]⟩ ![]) (hoE : (⟨0, ![]⟩ : Shape).BroadcastsInDim ⟨1, ![E]⟩ ![])
    (hsc : (⟨1, ![N]⟩ : Shape).ShapeCasts ⟨2, ![N, 1]⟩) (ci : IVec ⟨2, ![E, 1]⟩ 32) (n : Fin N) :
    inverseDegree wfv hzN hoE hsc ci (ix2 n (0 : Fin 1)) = invdeg (aims ci) n := by
  unfold inverseDegree
  rw [Cert.Keepdims.shapeCast_a_a1_apply, Cert.HostRead.hostDivf_apply, clampedDegree_apply,
    Cert.HostRead.word_apply, ofBits_one_f32, invdeg_eq]

/-- A bias vector as a one-row matrix. -/
def biasRow (hsc : (⟨1, ![C]⟩ : Shape).ShapeCasts ⟨2, ![1, C]⟩) (b : FVec Ideal ⟨1, ![C]⟩ .f32) :
    FVec Ideal ⟨2, ![1, C]⟩ .f32 :=
  shapeCast ⟨2, ![1, C]⟩ b hsc

theorem biasRow_apply (hsc : (⟨1, ![C]⟩ : Shape).ShapeCasts ⟨2, ![1, C]⟩) (b : FVec Ideal ⟨1, ![C]⟩ .f32)
    (u : Fin 1) (j : Fin C) : biasRow hsc b (ix2 u j) = b (ix1 j) := by
  unfold biasRow
  exact ValueIdx.shapeCast_a_1a_apply b hsc u j

end HostStages

end
-- ==== Proof.KernelStages.lean ====
/-
  The host stretches of the kernel's program, one buffer at a time, as the named stages of a mean-aggregating layer.

  The first stretch takes the two edge lists apart (source words and target words of each), counts the edges aimed at
  every node of each side and inverts the clamped counts, gathers side t's rows along the first list's sources and adds
  them up at its targets, and lays the first bias out as a row.  The later stretches do the same gather-and-add for the
  other side's rows and, after the projections, for the projected rows of each side, and lay the other biases out.
  Each statement holds from ANY buffer contents the stretch starts from.
-/
import proofs.«117899_j51677046505876_2_alg».proof.Proof.Gen.KernelIdeal.Launch
import proofs.«117899_j51677046505876_2_alg».proof.Proof.LibTypedRef
import proofs.«117899_j51677046505876_2_alg».proof.Proof.HostStages
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.ShloMosaic.Tactic Idealize.SL.Sem
open Idealize.ShloMosaic.ValueIdx
open HostStages EdgeStage

/-- Row 0 of an edge list: the source words. -/
abbrev row0 (x : IVec S2x1600000 32) : IVec S1600000 32 :=
  edgeRow 0 slices_S2x1600000_S1x1600000_0_0 shapeCasts_S1x1600000_S1600000 x
/-- Row 1 of an edge list: the target words. -/
abbrev row1 (x : IVec S2x1600000 32) : IVec S1600000 32 :=
  edgeRow 1 slices_S2x1600000_S1x1600000_1_0 shapeCasts_S1x1600000_S1600000 x
/-- Source words as a start-index column (a negative word raised by the table's 50000 rows). -/
abbrev srcCol (r : IVec S1600000 32) : IVec S1600000x1 32 :=
  sourceColumn bcast_S_S1600000 bcast_S1600000_S1600000x1_0 50000#32 r
/-- Target words as a start-index column. -/
abbrev tgtCol (r : IVec S1600000 32) : IVec S1600000x1 32 :=
  targetColumn bcast_S1600000_S1600000x1_0 r
/-- An edge list's target column. -/
abbrev tgt (x : IVec S2x1600000 32) : IVec S1600000x1 32 := tgtCol (row1 x)
/-- An edge list's source column. -/
abbrev sco (x : IVec S2x1600000 32) : IVec S1600000x1 32 := srcCol (row0 x)
/-- A vector read by its one coordinate. -/
abbrev vec {C : ℕ} (b : (⟨1, ![C]⟩ : Shape).Idx → EReal) : Fin C → EReal := fun j => b (ix1 j)

theorem nodes_pos : 0 < 50000 := by norm_num

/-- Gather-and-add over 128 features. -/
abbrev agg128 := aggregate scatter_S50000x128_S1600000x1_S1600000x128_1_0_0_1_wf
  gather_S50000x128_S1600000x1_S1600000x128_1_0_n_n_0_1_1128_wf bcast_S_S50000x128
/-- Gather-and-add over 64 features. -/
abbrev agg64 := aggregate scatter_S50000x64_S1600000x1_S1600000x64_1_0_0_1_wf
  gather_S50000x64_S1600000x1_S1600000x64_1_0_n_n_0_1_164_wf bcast_S_S50000x64
/-- The inverse clamped degree of 50000 nodes under 1600000 edges, as a column. -/
abbrev invDeg := inverseDegree scatter_S50000_S1600000x1_S1600000_n_0_0_1_wf bcast_S_S50000 bcast_S_S1600000
  shapeCasts_S50000_S50000x1

variable (Vv : Valuation τ sig (Elt Ideal))

/-! ## The first stretch -/

theorem h0_v1 : StableHlo.after (hostOps0 (F := Ideal)) Vv (Proc.devRef .tc main_call0_v1) = row0 (Vv (Proc.devRef .tc main_arg3)) := by
  after_results_simp
  try simp only [Cert.TypedRef.ofBuf_toBuf]
  rfl
theorem h0_v3 : StableHlo.after (hostOps0 (F := Ideal)) Vv (Proc.devRef .tc main_call0_v3) = row1 (Vv (Proc.devRef .tc main_arg3)) := by
  after_results_simp
  try simp only [Cert.TypedRef.ofBuf_toBuf]
  rfl
theorem h0_v5 : StableHlo.after (hostOps0 (F := Ideal)) Vv (Proc.devRef .tc main_call0_v5) = row0 (Vv (Proc.devRef .tc main_arg2)) := by
  after_results_simp
  try simp only [Cert.TypedRef.ofBuf_toBuf]
  rfl
theorem h0_v7 : StableHlo.after (hostOps0 (F := Ideal)) Vv (Proc.devRef .tc main_call0_v7) = row1 (Vv (Proc.devRef .tc main_arg2)) := by
  after_results_simp
  try simp only [Cert.TypedRef.ofBuf_toBuf]
  rfl

theorem h0_v36 : StableHlo.after (hostOps0 (F := Ideal)) Vv (Proc.devRef .tc main_call0_v36)
    = biasRow shapeCasts_S128_S1x128 (Vv (Proc.devRef .tc main_arg6)) := by
  after_results_simp
  try simp only [Cert.TypedRef.ofBuf_toBuf]
  rfl

theorem h0_v35 : StableHlo.after (hostOps0 (F := Ideal)) Vv (Proc.devRef .tc main_call0_v35)
    = agg128 (Vv (Proc.devRef .tc main_arg1)) (sco (Vv (Proc.devRef .tc main_arg3))) (tgt (Vv (Proc.devRef .tc main_arg3))) := by
  after_results_simp
  try simp only [Cert.TypedRef.ofBuf_toBuf]
  rfl

/-- One over the clamped count, before it is laid out as a column. -/
abbrev invVec (ci : IVec S1600000x1 32) : FVec Ideal S50000 .f32 :=
  Host.divf (F := Ideal) (broadcastInDim S50000 ![] bcast_S_S50000 (constant (F := Ideal) S_ .f32 0x3F800000#32))
    (clampedDegree scatter_S50000_S1600000x1_S1600000_n_0_0_1_wf bcast_S_S50000 bcast_S_S1600000 ci)

theorem h0_v15 : StableHlo.after (hostOps0 (F := Ideal)) Vv (Proc.devRef .tc main_call0_v15) = invVec (tgt (Vv (Proc.devRef .tc main_arg3))) := by
  after_results_simp
  try simp only [Cert.TypedRef.ofBuf_toBuf]
  rfl
theorem h0_v24 : StableHlo.after (hostOps0 (F := Ideal)) Vv (Proc.devRef .tc main_call0_v24) = invVec (tgt (Vv (Proc.devRef .tc main_arg2))) := by
  after_results_simp
  try simp only [Cert.TypedRef.ofBuf_toBuf]
  rfl

/-- The column is the vector laid out `[50000, 1]`: stated against the vector's own buffer, whatever it holds. -/
theorem h0_v16_of_v15 : StableHlo.after (hostOps0 (F := Ideal)) Vv (Proc.devRef .tc main_call0_v16)
    = shapeCast S50000x1 (StableHlo.after (hostOps0 (F := Ideal)) Vv (Proc.devRef .tc main_call0_v15)) shapeCasts_S50000_S50000x1 := by
  after_results_simp
  try simp only [Cert.TypedRef.ofBuf_toBuf]
  rfl
theorem h0_v25_of_v24 : StableHlo.after (hostOps0 (F := Ideal)) Vv (Proc.devRef .tc main_call0_v25)
    = shapeCast S50000x1 (StableHlo.after (hostOps0 (F := Ideal)) Vv (Proc.devRef .tc main_call0_v24)) shapeCasts_S50000_S50000x1 := by
  after_results_simp
  try simp only [Cert.TypedRef.ofBuf_toBuf]
  rfl

theorem invDeg_eq (ci : IVec S1600000x1 32) : shapeCast S50000x1 (invVec ci) shapeCasts_S50000_S50000x1 = invDeg ci := rfl

theorem h0_v16 : StableHlo.after (hostOps0 (F := Ideal)) Vv (Proc.devRef .tc main_call0_v16) = invDeg (tgt (Vv (Proc.devRef .tc main_arg3))) := by
  rw [h0_v16_of_v15, h0_v15, invDeg_eq]
theorem h0_v25 : StableHlo.after (hostOps0 (F := Ideal)) Vv (Proc.devRef .tc main_call0_v25) = invDeg (tgt (Vv (Proc.devRef .tc main_arg2))) := by
  rw [h0_v25_of_v24, h0_v24, invDeg_eq]

/-! ## The second stretch -/

theorem h1_v47 : StableHlo.after (hostOps1 (F := Ideal)) Vv (Proc.devRef .tc main_call0_v47)
    = agg128 (Vv (Proc.devRef .tc main_arg0)) (srcCol (Vv (Proc.devRef .tc main_call0_v5))) (tgtCol (Vv (Proc.devRef .tc main_call0_v7))) := by
  after_results_simp
  try simp only [Cert.TypedRef.ofBuf_toBuf]
  rfl
theorem h1_v48 : StableHlo.after (hostOps1 (F := Ideal)) Vv (Proc.devRef .tc main_call0_v48)
    = biasRow shapeCasts_S128_S1x128 (Vv (Proc.devRef .tc main_arg9)) := by
  after_results_simp
  try simp only [Cert.TypedRef.ofBuf_toBuf]
  rfl

/-! ## The third stretch -/

theorem h3_v60 : StableHlo.after (hostOps3 (F := Ideal)) Vv (Proc.devRef .tc main_call0_v60)
    = agg64 (Vv (Proc.devRef .tc main_call0_v50)) (srcCol (Vv (Proc.devRef .tc main_call0_v1))) (tgtCol (Vv (Proc.devRef .tc main_call0_v3))) := by
  after_results_simp
  try simp only [Cert.TypedRef.ofBuf_toBuf]
  rfl
theorem h3_v61 : StableHlo.after (hostOps3 (F := Ideal)) Vv (Proc.devRef .tc main_call0_v61)
    = biasRow shapeCasts_S64_S1x64 (Vv (Proc.devRef .tc main_arg12)) := by
  after_results_simp
  try simp only [Cert.TypedRef.ofBuf_toBuf]
  rfl

/-! ## The fourth stretch -/

theorem h5_v73 : StableHlo.after (hostOps5 (F := Ideal)) Vv (Proc.devRef .tc main_call0_v73)
    = agg64 (Vv (Proc.devRef .tc main_call0_v63)) (srcCol (Vv (Proc.devRef .tc main_call0_v5))) (tgtCol (Vv (Proc.devRef .tc main_call0_v7))) := by
  after_results_simp
  try simp only [Cert.TypedRef.ofBuf_toBuf]
  rfl
theorem h5_v74 : StableHlo.after (hostOps5 (F := Ideal)) Vv (Proc.devRef .tc main_call0_v74)
    = biasRow shapeCasts_S64_S1x64 (Vv (Proc.devRef .tc main_arg15)) := by
  after_results_simp
  try simp only [Cert.TypedRef.ofBuf_toBuf]
  rfl

end Cert.KernelIdeal.Fold

end
-- ==== Proof.KernelPasses.lean ====
/-
  Buffers the later segments leave alone: the contents of a buffer at one segment boundary of the kernel's program are
  its contents at an earlier boundary, when no host operation in between writes it and every region in between either
  does not touch it or only reads it through an input window.
-/
import proofs.«117899_j51677046505876_2_alg».proof.Proof.Gen.KernelIdeal.Frame
import Idealize.ShloMosaic.PureOps.Ideal

set_option maxRecDepth 16384

noncomputable section

namespace Cert.KernelIdeal.Fold

open Cert.KernelIdeal Cert.KernelIdeal.Gen
open Idealize.ShloMosaic Idealize.ShloMosaic.TcCoe Idealize.ShloMosaic.Tactic Idealize.SL.Sem

variable (m : (ℓ : Loc nD τ sig) → Buf (Elt Ideal) ℓ) (ρ : Dev nD → PrngReg) (c : Dev nD)

theorem pass_arg0_1_0 : W1 m ρ c (Proc.devRef .tc main_arg0) = W0 m ρ c (Proc.devRef .tc main_arg0) :=
  (StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg0) = W0 m ρ c (Proc.devRef .tc main_arg0))

theorem pass_arg4_1_0 : W1 m ρ c (Proc.devRef .tc main_arg4) = W0 m ρ c (Proc.devRef .tc main_arg4) :=
  (StableHlo.after_of_forall_not_mem (b := Proc.devRef .tc main_arg4) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg4) = W0 m ρ c (Proc.devRef .tc main_arg4))

theorem pass_arg5_1_0 : W1 m ρ c (Proc.devRef .tc main_arg5) = W0 m ρ c (Proc.devRef .tc main_arg5) :=
  (StableHlo.after_of_forall_not_mem (b := Proc.devRef .tc main_arg5) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg5) = W0 m ρ c (Proc.devRef .tc main_arg5))

theorem pass_v25_3_1 : W3 m ρ c (Proc.devRef .tc main_call0_v25) = W1 m ρ c (Proc.devRef .tc main_call0_v25) :=
  ((StableHlo.after_of_forall_not_mem (b := Proc.devRef .tc main_call0_v25) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W3 m ρ c (Proc.devRef .tc main_call0_v25) = W2 m ρ c (Proc.devRef .tc main_call0_v25))).trans
    ((W2_of_ne m ρ c main_call0_v25 (by decide) : W2 m ρ c (Proc.devRef .tc main_call0_v25) = W1 m ρ c (Proc.devRef .tc main_call0_v25)))

theorem pass_arg1_3_0 : W3 m ρ c (Proc.devRef .tc main_arg1) = W0 m ρ c (Proc.devRef .tc main_arg1) :=
  ((StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W3 m ρ c (Proc.devRef .tc main_arg1) = W2 m ρ c (Proc.devRef .tc main_arg1))).trans
    (((W2_of_ne m ρ c main_arg1 (by decide) : W2 m ρ c (Proc.devRef .tc main_arg1) = W1 m ρ c (Proc.devRef .tc main_arg1))).trans
    ((StableHlo.after_of_forall_not_mem (b := Proc.devRef .tc main_arg1) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg1) = W0 m ρ c (Proc.devRef .tc main_arg1))))

theorem pass_arg7_3_0 : W3 m ρ c (Proc.devRef .tc main_arg7) = W0 m ρ c (Proc.devRef .tc main_arg7) :=
  ((StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W3 m ρ c (Proc.devRef .tc main_arg7) = W2 m ρ c (Proc.devRef .tc main_arg7))).trans
    (((W2_of_ne m ρ c main_arg7 (by decide) : W2 m ρ c (Proc.devRef .tc main_arg7) = W1 m ρ c (Proc.devRef .tc main_arg7))).trans
    ((StableHlo.after_of_forall_not_mem (b := Proc.devRef .tc main_arg7) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg7) = W0 m ρ c (Proc.devRef .tc main_arg7))))

theorem pass_arg8_3_0 : W3 m ρ c (Proc.devRef .tc main_arg8) = W0 m ρ c (Proc.devRef .tc main_arg8) :=
  ((StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W3 m ρ c (Proc.devRef .tc main_arg8) = W2 m ρ c (Proc.devRef .tc main_arg8))).trans
    (((W2_of_ne m ρ c main_arg8 (by decide) : W2 m ρ c (Proc.devRef .tc main_arg8) = W1 m ρ c (Proc.devRef .tc main_arg8))).trans
    ((StableHlo.after_of_forall_not_mem (b := Proc.devRef .tc main_arg8) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg8) = W0 m ρ c (Proc.devRef .tc main_arg8))))

theorem pass_arg0_2_0 : W2 m ρ c (Proc.devRef .tc main_arg0) = W0 m ρ c (Proc.devRef .tc main_arg0) :=
  (((W2_arr m ρ c 2).trans (((dat0 (V1 m ρ) c).arrAt_in 2 rfl _).trans (A_eq0 (V1 m ρ) c 2)) : W2 m ρ c (Proc.devRef .tc main_arg0) = W1 m ρ c (Proc.devRef .tc main_arg0))).trans
    ((StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg0) = W0 m ρ c (Proc.devRef .tc main_arg0)))

theorem pass_v5_2_1 : W2 m ρ c (Proc.devRef .tc main_call0_v5) = W1 m ρ c (Proc.devRef .tc main_call0_v5) :=
  (W2_of_ne m ρ c main_call0_v5 (by decide) : W2 m ρ c (Proc.devRef .tc main_call0_v5) = W1 m ρ c (Proc.devRef .tc main_call0_v5))

theorem pass_v7_2_1 : W2 m ρ c (Proc.devRef .tc main_call0_v7) = W1 m ρ c (Proc.devRef .tc main_call0_v7) :=
  (W2_of_ne m ρ c main_call0_v7 (by decide) : W2 m ρ c (Proc.devRef .tc main_call0_v7) = W1 m ρ c (Proc.devRef .tc main_call0_v7))

theorem pass_arg9_2_0 : W2 m ρ c (Proc.devRef .tc main_arg9) = W0 m ρ c (Proc.devRef .tc main_arg9) :=
  ((W2_of_ne m ρ c main_arg9 (by decide) : W2 m ρ c (Proc.devRef .tc main_arg9) = W1 m ρ c (Proc.devRef .tc main_arg9))).trans
    ((StableHlo.after_of_forall_not_mem (b := Proc.devRef .tc main_arg9) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg9) = W0 m ρ c (Proc.devRef .tc main_arg9)))

theorem pass_arg10_4_0 : W4 m ρ c (Proc.devRef .tc main_arg10) = W0 m ρ c (Proc.devRef .tc main_arg10) :=
  ((W4_of_ne m ρ c main_arg10 (by decide) : W4 m ρ c (Proc.devRef .tc main_arg10) = W3 m ρ c (Proc.devRef .tc main_arg10))).trans
    (((StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W3 m ρ c (Proc.devRef .tc main_arg10) = W2 m ρ c (Proc.devRef .tc main_arg10))).trans
    (((W2_of_ne m ρ c main_arg10 (by decide) : W2 m ρ c (Proc.devRef .tc main_arg10) = W1 m ρ c (Proc.devRef .tc main_arg10))).trans
    ((StableHlo.after_of_forall_not_mem (b := Proc.devRef .tc main_arg10) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg10) = W0 m ρ c (Proc.devRef .tc main_arg10)))))

theorem pass_v16_6_1 : W6 m ρ c (Proc.devRef .tc main_call0_v16) = W1 m ρ c (Proc.devRef .tc main_call0_v16) :=
  ((StableHlo.after_of_forall_not_mem (b := Proc.devRef .tc main_call0_v16) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W6 m ρ c (Proc.devRef .tc main_call0_v16) = W5 m ρ c (Proc.devRef .tc main_call0_v16))).trans
    (((W5_of_ne m ρ c main_call0_v16 (by decide) : W5 m ρ c (Proc.devRef .tc main_call0_v16) = W4 m ρ c (Proc.devRef .tc main_call0_v16))).trans
    (((W4_of_ne m ρ c main_call0_v16 (by decide) : W4 m ρ c (Proc.devRef .tc main_call0_v16) = W3 m ρ c (Proc.devRef .tc main_call0_v16))).trans
    (((StableHlo.after_of_forall_not_mem (b := Proc.devRef .tc main_call0_v16) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W3 m ρ c (Proc.devRef .tc main_call0_v16) = W2 m ρ c (Proc.devRef .tc main_call0_v16))).trans
    (((W2_arr m ρ c 1).trans (((dat0 (V1 m ρ) c).arrAt_in 1 rfl _).trans (A_eq0 (V1 m ρ) c 1)) : W2 m ρ c (Proc.devRef .tc main_call0_v16) = W1 m ρ c (Proc.devRef .tc main_call0_v16))))))

theorem pass_v37_6_2 : W6 m ρ c (Proc.devRef .tc main_call0_v37) = W2 m ρ c (Proc.devRef .tc main_call0_v37) :=
  ((StableHlo.after_of_forall_not_mem (b := Proc.devRef .tc main_call0_v37) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W6 m ρ c (Proc.devRef .tc main_call0_v37) = W5 m ρ c (Proc.devRef .tc main_call0_v37))).trans
    (((W5_of_ne m ρ c main_call0_v37 (by decide) : W5 m ρ c (Proc.devRef .tc main_call0_v37) = W4 m ρ c (Proc.devRef .tc main_call0_v37))).trans
    (((W4_of_ne m ρ c main_call0_v37 (by decide) : W4 m ρ c (Proc.devRef .tc main_call0_v37) = W3 m ρ c (Proc.devRef .tc main_call0_v37))).trans
    ((StableHlo.after_of_forall_not_mem (b := Proc.devRef .tc main_call0_v37) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W3 m ρ c (Proc.devRef .tc main_call0_v37) = W2 m ρ c (Proc.devRef .tc main_call0_v37)))))

theorem pass_arg11_6_0 : W6 m ρ c (Proc.devRef .tc main_arg11) = W0 m ρ c (Proc.devRef .tc main_arg11) :=
  ((StableHlo.after_of_forall_not_mem (b := Proc.devRef .tc main_arg11) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W6 m ρ c (Proc.devRef .tc main_arg11) = W5 m ρ c (Proc.devRef .tc main_arg11))).trans
    (((W5_of_ne m ρ c main_arg11 (by decide) : W5 m ρ c (Proc.devRef .tc main_arg11) = W4 m ρ c (Proc.devRef .tc main_arg11))).trans
    (((W4_of_ne m ρ c main_arg11 (by decide) : W4 m ρ c (Proc.devRef .tc main_arg11) = W3 m ρ c (Proc.devRef .tc main_arg11))).trans
    (((StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W3 m ρ c (Proc.devRef .tc main_arg11) = W2 m ρ c (Proc.devRef .tc main_arg11))).trans
    (((W2_of_ne m ρ c main_arg11 (by decide) : W2 m ρ c (Proc.devRef .tc main_arg11) = W1 m ρ c (Proc.devRef .tc main_arg11))).trans
    ((StableHlo.after_of_forall_not_mem (b := Proc.devRef .tc main_arg11) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg11) = W0 m ρ c (Proc.devRef .tc main_arg11)))))))

theorem pass_v1_5_1 : W5 m ρ c (Proc.devRef .tc main_call0_v1) = W1 m ρ c (Proc.devRef .tc main_call0_v1) :=
  ((W5_of_ne m ρ c main_call0_v1 (by decide) : W5 m ρ c (Proc.devRef .tc main_call0_v1) = W4 m ρ c (Proc.devRef .tc main_call0_v1))).trans
    (((W4_of_ne m ρ c main_call0_v1 (by decide) : W4 m ρ c (Proc.devRef .tc main_call0_v1) = W3 m ρ c (Proc.devRef .tc main_call0_v1))).trans
    (((StableHlo.after_of_forall_not_mem (b := Proc.devRef .tc main_call0_v1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W3 m ρ c (Proc.devRef .tc main_call0_v1) = W2 m ρ c (Proc.devRef .tc main_call0_v1))).trans
    ((W2_of_ne m ρ c main_call0_v1 (by decide) : W2 m ρ c (Proc.devRef .tc main_call0_v1) = W1 m ρ c (Proc.devRef .tc main_call0_v1)))))

theorem pass_v3_5_1 : W5 m ρ c (Proc.devRef .tc main_call0_v3) = W1 m ρ c (Proc.devRef .tc main_call0_v3) :=
  ((W5_of_ne m ρ c main_call0_v3 (by decide) : W5 m ρ c (Proc.devRef .tc main_call0_v3) = W4 m ρ c (Proc.devRef .tc main_call0_v3))).trans
    (((W4_of_ne m ρ c main_call0_v3 (by decide) : W4 m ρ c (Proc.devRef .tc main_call0_v3) = W3 m ρ c (Proc.devRef .tc main_call0_v3))).trans
    (((StableHlo.after_of_forall_not_mem (b := Proc.devRef .tc main_call0_v3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W3 m ρ c (Proc.devRef .tc main_call0_v3) = W2 m ρ c (Proc.devRef .tc main_call0_v3))).trans
    ((W2_of_ne m ρ c main_call0_v3 (by decide) : W2 m ρ c (Proc.devRef .tc main_call0_v3) = W1 m ρ c (Proc.devRef .tc main_call0_v3)))))

theorem pass_arg12_5_0 : W5 m ρ c (Proc.devRef .tc main_arg12) = W0 m ρ c (Proc.devRef .tc main_arg12) :=
  ((W5_of_ne m ρ c main_arg12 (by decide) : W5 m ρ c (Proc.devRef .tc main_arg12) = W4 m ρ c (Proc.devRef .tc main_arg12))).trans
    (((W4_of_ne m ρ c main_arg12 (by decide) : W4 m ρ c (Proc.devRef .tc main_arg12) = W3 m ρ c (Proc.devRef .tc main_arg12))).trans
    (((StableHlo.after_of_forall_not_mem (b := Proc.devRef .tc main_arg12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W3 m ρ c (Proc.devRef .tc main_arg12) = W2 m ρ c (Proc.devRef .tc main_arg12))).trans
    (((W2_of_ne m ρ c main_arg12 (by decide) : W2 m ρ c (Proc.devRef .tc main_arg12) = W1 m ρ c (Proc.devRef .tc main_arg12))).trans
    ((StableHlo.after_of_forall_not_mem (b := Proc.devRef .tc main_arg12) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg12) = W0 m ρ c (Proc.devRef .tc main_arg12))))))

theorem pass_v37_7_2 : W7 m ρ c (Proc.devRef .tc main_call0_v37) = W2 m ρ c (Proc.devRef .tc main_call0_v37) :=
  (((W7_arr m ρ c 2).trans (((dat3 (V6 m ρ) c).arrAt_in 2 rfl _).trans (A_eq3 (V6 m ρ) c 2)) : W7 m ρ c (Proc.devRef .tc main_call0_v37) = W6 m ρ c (Proc.devRef .tc main_call0_v37))).trans
    (((StableHlo.after_of_forall_not_mem (b := Proc.devRef .tc main_call0_v37) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W6 m ρ c (Proc.devRef .tc main_call0_v37) = W5 m ρ c (Proc.devRef .tc main_call0_v37))).trans
    (((W5_of_ne m ρ c main_call0_v37 (by decide) : W5 m ρ c (Proc.devRef .tc main_call0_v37) = W4 m ρ c (Proc.devRef .tc main_call0_v37))).trans
    (((W4_of_ne m ρ c main_call0_v37 (by decide) : W4 m ρ c (Proc.devRef .tc main_call0_v37) = W3 m ρ c (Proc.devRef .tc main_call0_v37))).trans
    ((StableHlo.after_of_forall_not_mem (b := Proc.devRef .tc main_call0_v37) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W3 m ρ c (Proc.devRef .tc main_call0_v37) = W2 m ρ c (Proc.devRef .tc main_call0_v37))))))

theorem pass_arg13_7_0 : W7 m ρ c (Proc.devRef .tc main_arg13) = W0 m ρ c (Proc.devRef .tc main_arg13) :=
  ((W7_of_ne m ρ c main_arg13 (by decide) : W7 m ρ c (Proc.devRef .tc main_arg13) = W6 m ρ c (Proc.devRef .tc main_arg13))).trans
    (((StableHlo.after_of_forall_not_mem (b := Proc.devRef .tc main_arg13) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W6 m ρ c (Proc.devRef .tc main_arg13) = W5 m ρ c (Proc.devRef .tc main_arg13))).trans
    (((W5_of_ne m ρ c main_arg13 (by decide) : W5 m ρ c (Proc.devRef .tc main_arg13) = W4 m ρ c (Proc.devRef .tc main_arg13))).trans
    (((W4_of_ne m ρ c main_arg13 (by decide) : W4 m ρ c (Proc.devRef .tc main_arg13) = W3 m ρ c (Proc.devRef .tc main_arg13))).trans
    (((StableHlo.after_of_forall_not_mem (b := Proc.devRef .tc main_arg13) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W3 m ρ c (Proc.devRef .tc main_arg13) = W2 m ρ c (Proc.devRef .tc main_arg13))).trans
    (((W2_of_ne m ρ c main_arg13 (by decide) : W2 m ρ c (Proc.devRef .tc main_arg13) = W1 m ρ c (Proc.devRef .tc main_arg13))).trans
    ((StableHlo.after_of_forall_not_mem (b := Proc.devRef .tc main_arg13) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg13) = W0 m ρ c (Proc.devRef .tc main_arg13))))))))

theorem pass_v25_9_1 : W9 m ρ c (Proc.devRef .tc main_call0_v25) = W1 m ρ c (Proc.devRef .tc main_call0_v25) :=
  ((StableHlo.after_of_forall_not_mem (b := Proc.devRef .tc main_call0_v25) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W9 m ρ c (Proc.devRef .tc main_call0_v25) = W8 m ρ c (Proc.devRef .tc main_call0_v25))).trans
    (((W8_of_ne m ρ c main_call0_v25 (by decide) : W8 m ρ c (Proc.devRef .tc main_call0_v25) = W7 m ρ c (Proc.devRef .tc main_call0_v25))).trans
    (((W7_of_ne m ρ c main_call0_v25 (by decide) : W7 m ρ c (Proc.devRef .tc main_call0_v25) = W6 m ρ c (Proc.devRef .tc main_call0_v25))).trans
    (((StableHlo.after_of_forall_not_mem (b := Proc.devRef .tc main_call0_v25) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W6 m ρ c (Proc.devRef .tc main_call0_v25) = W5 m ρ c (Proc.devRef .tc main_call0_v25))).trans
    (((W5_of_ne m ρ c main_call0_v25 (by decide) : W5 m ρ c (Proc.devRef .tc main_call0_v25) = W4 m ρ c (Proc.devRef .tc main_call0_v25))).trans
    ((((W4_arr m ρ c 1).trans (((dat1 (V3 m ρ) c).arrAt_in 1 rfl _).trans (A_eq1 (V3 m ρ) c 1)) : W4 m ρ c (Proc.devRef .tc main_call0_v25) = W3 m ρ c (Proc.devRef .tc main_call0_v25))).trans
    (((StableHlo.after_of_forall_not_mem (b := Proc.devRef .tc main_call0_v25) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W3 m ρ c (Proc.devRef .tc main_call0_v25) = W2 m ρ c (Proc.devRef .tc main_call0_v25))).trans
    ((W2_of_ne m ρ c main_call0_v25 (by decide) : W2 m ρ c (Proc.devRef .tc main_call0_v25) = W1 m ρ c (Proc.devRef .tc main_call0_v25)))))))))

theorem pass_v49_9_4 : W9 m ρ c (Proc.devRef .tc main_call0_v49) = W4 m ρ c (Proc.devRef .tc main_call0_v49) :=
  ((StableHlo.after_of_forall_not_mem (b := Proc.devRef .tc main_call0_v49) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W9 m ρ c (Proc.devRef .tc main_call0_v49) = W8 m ρ c (Proc.devRef .tc main_call0_v49))).trans
    (((W8_of_ne m ρ c main_call0_v49 (by decide) : W8 m ρ c (Proc.devRef .tc main_call0_v49) = W7 m ρ c (Proc.devRef .tc main_call0_v49))).trans
    (((W7_of_ne m ρ c main_call0_v49 (by decide) : W7 m ρ c (Proc.devRef .tc main_call0_v49) = W6 m ρ c (Proc.devRef .tc main_call0_v49))).trans
    (((StableHlo.after_of_forall_not_mem (b := Proc.devRef .tc main_call0_v49) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W6 m ρ c (Proc.devRef .tc main_call0_v49) = W5 m ρ c (Proc.devRef .tc main_call0_v49))).trans
    (((W5_arr m ρ c 0).trans (((dat2 (V4 m ρ) c).arrAt_in 0 rfl _).trans (A_eq2 (V4 m ρ) c 0)) : W5 m ρ c (Proc.devRef .tc main_call0_v49) = W4 m ρ c (Proc.devRef .tc main_call0_v49))))))

theorem pass_arg14_9_0 : W9 m ρ c (Proc.devRef .tc main_arg14) = W0 m ρ c (Proc.devRef .tc main_arg14) :=
  ((StableHlo.after_of_forall_not_mem (b := Proc.devRef .tc main_arg14) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W9 m ρ c (Proc.devRef .tc main_arg14) = W8 m ρ c (Proc.devRef .tc main_arg14))).trans
    (((W8_of_ne m ρ c main_arg14 (by decide) : W8 m ρ c (Proc.devRef .tc main_arg14) = W7 m ρ c (Proc.devRef .tc main_arg14))).trans
    (((W7_of_ne m ρ c main_arg14 (by decide) : W7 m ρ c (Proc.devRef .tc main_arg14) = W6 m ρ c (Proc.devRef .tc main_arg14))).trans
    (((StableHlo.after_of_forall_not_mem (b := Proc.devRef .tc main_arg14) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W6 m ρ c (Proc.devRef .tc main_arg14) = W5 m ρ c (Proc.devRef .tc main_arg14))).trans
    (((W5_of_ne m ρ c main_arg14 (by decide) : W5 m ρ c (Proc.devRef .tc main_arg14) = W4 m ρ c (Proc.devRef .tc main_arg14))).trans
    (((W4_of_ne m ρ c main_arg14 (by decide) : W4 m ρ c (Proc.devRef .tc main_arg14) = W3 m ρ c (Proc.devRef .tc main_arg14))).trans
    (((StableHlo.after_of_forall_not_mem (b := Proc.devRef .tc main_arg14) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W3 m ρ c (Proc.devRef .tc main_arg14) = W2 m ρ c (Proc.devRef .tc main_arg14))).trans
    (((W2_of_ne m ρ c main_arg14 (by decide) : W2 m ρ c (Proc.devRef .tc main_arg14) = W1 m ρ c (Proc.devRef .tc main_arg14))).trans
    ((StableHlo.after_of_forall_not_mem (b := Proc.devRef .tc main_arg14) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg14) = W0 m ρ c (Proc.devRef .tc main_arg14))))))))))

theorem pass_v5_8_1 : W8 m ρ c (Proc.devRef .tc main_call0_v5) = W1 m ρ c (Proc.devRef .tc main_call0_v5) :=
  ((W8_of_ne m ρ c main_call0_v5 (by decide) : W8 m ρ c (Proc.devRef .tc main_call0_v5) = W7 m ρ c (Proc.devRef .tc main_call0_v5))).trans
    (((W7_of_ne m ρ c main_call0_v5 (by decide) : W7 m ρ c (Proc.devRef .tc main_call0_v5) = W6 m ρ c (Proc.devRef .tc main_call0_v5))).trans
    (((StableHlo.after_of_forall_not_mem (b := Proc.devRef .tc main_call0_v5) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W6 m ρ c (Proc.devRef .tc main_call0_v5) = W5 m ρ c (Proc.devRef .tc main_call0_v5))).trans
    (((W5_of_ne m ρ c main_call0_v5 (by decide) : W5 m ρ c (Proc.devRef .tc main_call0_v5) = W4 m ρ c (Proc.devRef .tc main_call0_v5))).trans
    (((W4_of_ne m ρ c main_call0_v5 (by decide) : W4 m ρ c (Proc.devRef .tc main_call0_v5) = W3 m ρ c (Proc.devRef .tc main_call0_v5))).trans
    (((StableHlo.after_of_forall_not_mem (b := Proc.devRef .tc main_call0_v5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W3 m ρ c (Proc.devRef .tc main_call0_v5) = W2 m ρ c (Proc.devRef .tc main_call0_v5))).trans
    ((W2_of_ne m ρ c main_call0_v5 (by decide) : W2 m ρ c (Proc.devRef .tc main_call0_v5) = W1 m ρ c (Proc.devRef .tc main_call0_v5))))))))

theorem pass_v7_8_1 : W8 m ρ c (Proc.devRef .tc main_call0_v7) = W1 m ρ c (Proc.devRef .tc main_call0_v7) :=
  ((W8_of_ne m ρ c main_call0_v7 (by decide) : W8 m ρ c (Proc.devRef .tc main_call0_v7) = W7 m ρ c (Proc.devRef .tc main_call0_v7))).trans
    (((W7_of_ne m ρ c main_call0_v7 (by decide) : W7 m ρ c (Proc.devRef .tc main_call0_v7) = W6 m ρ c (Proc.devRef .tc main_call0_v7))).trans
    (((StableHlo.after_of_forall_not_mem (b := Proc.devRef .tc main_call0_v7) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W6 m ρ c (Proc.devRef .tc main_call0_v7) = W5 m ρ c (Proc.devRef .tc main_call0_v7))).trans
    (((W5_of_ne m ρ c main_call0_v7 (by decide) : W5 m ρ c (Proc.devRef .tc main_call0_v7) = W4 m ρ c (Proc.devRef .tc main_call0_v7))).trans
    (((W4_of_ne m ρ c main_call0_v7 (by decide) : W4 m ρ c (Proc.devRef .tc main_call0_v7) = W3 m ρ c (Proc.devRef .tc main_call0_v7))).trans
    (((StableHlo.after_of_forall_not_mem (b := Proc.devRef .tc main_call0_v7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W3 m ρ c (Proc.devRef .tc main_call0_v7) = W2 m ρ c (Proc.devRef .tc main_call0_v7))).trans
    ((W2_of_ne m ρ c main_call0_v7 (by decide) : W2 m ρ c (Proc.devRef .tc main_call0_v7) = W1 m ρ c (Proc.devRef .tc main_call0_v7))))))))

theorem pass_arg15_8_0 : W8 m ρ c (Proc.devRef .tc main_arg15) = W0 m ρ c (Proc.devRef .tc main_arg15) :=
  ((W8_of_ne m ρ c main_arg15 (by decide) : W8 m ρ c (Proc.devRef .tc main_arg15) = W7 m ρ c (Proc.devRef .tc main_arg15))).trans
    (((W7_of_ne m ρ c main_arg15 (by decide) : W7 m ρ c (Proc.devRef .tc main_arg15) = W6 m ρ c (Proc.devRef .tc main_arg15))).trans
    (((StableHlo.after_of_forall_not_mem (b := Proc.devRef .tc main_arg15) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W6 m ρ c (Proc.devRef .tc main_arg15) = W5 m ρ c (Proc.devRef .tc main_arg15))).trans
    (((W5_of_ne m ρ c main_arg15 (by decide) : W5 m ρ c (Proc.devRef .tc main_arg15) = W4 m ρ c (Proc.devRef .tc main_arg15))).trans
    (((W4_of_ne m ρ c main_arg15 (by decide) : W4 m ρ c (Proc.devRef .tc main_arg15) = W3 m ρ c (Proc.devRef .tc main_arg15))).trans
    (((StableHlo.after_of_forall_not_mem (b := Proc.devRef .tc main_arg15) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W3 m ρ c (Proc.devRef .tc main_arg15) = W2 m ρ c (Proc.devRef .tc main_arg15))).trans
    (((W2_of_ne m ρ c main_arg15 (by decide) : W2 m ρ c (Proc.devRef .tc main_arg15) = W1 m ρ c (Proc.devRef .tc main_arg15))).trans
    ((StableHlo.after_of_forall_not_mem (b := Proc.devRef .tc main_arg15) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg15) = W0 m ρ c (Proc.devRef .tc main_arg15)))))))))

theorem pass_v0_0_10_7 : W10 m ρ c (Proc.devRef .tc main_v0_0) = W7 m ρ c (Proc.devRef .tc main_v0_0) :=
  ((W10_of_ne m ρ c main_v0_0 (by decide) : W10 m ρ c (Proc.devRef .tc main_v0_0) = W9 m ρ c (Proc.devRef .tc main_v0_0))).trans
    (((StableHlo.after_of_forall_not_mem (b := Proc.devRef .tc main_v0_0) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W9 m ρ c (Proc.devRef .tc main_v0_0) = W8 m ρ c (Proc.devRef .tc main_v0_0))).trans
    ((W8_of_ne m ρ c main_v0_0 (by decide) : W8 m ρ c (Proc.devRef .tc main_v0_0) = W7 m ρ c (Proc.devRef .tc main_v0_0))))

end Cert.KernelIdeal.Fold

end
-- ==== Proof.LibMatProd.lean ====
/-
  The plain matrix product `[M, K] × [K, N] → [M, N]` (contract the left operand's last axis with the right
  operand's first, no batch axis), read at an index over the extended reals: entry `(i, j)` is
  `∑ k, l (i, k) * r (k, j)`, both for the host's `dot_general` and for a kernel's matrix product into a zero
  accumulator. A change of float format is the identity over the extended reals.
-/
import Idealize.ShloMosaic.PureOps.Ideal
import Idealize.ShloMosaic.PureOps.Ideal.Laws
import Idealize.ShloMosaic.Lib.ValueIdx

noncomputable section

open scoped BigOperators

namespace Cert.MatProd

open Idealize.ShloMosaic Idealize.ShloMosaic.ValueIdx

variable {M K N : Nat}

/-- The contraction index of a plain product is its one coordinate `k : Fin K`. -/
abbrev kEquiv (M K N : Nat) : (DotDims.plain M K N).contr.Idx ≃ Fin K := contrEquiv1 (DotDims.plain M K N) K rfl rfl

/-- On the row axis the left operand's index is the output's row. -/
theorem plain_lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- On the column axis the right operand's index is the output's column. -/
theorem plain_rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index for output `(i, j)` and contraction coordinate `k` is `(i, k)`. -/
theorem plain_lhsIdx (i : Fin M) (j : Fin N) (k : Fin K) :
    (DotDims.plain M K N).lhsIdx (ix2 i j) ((kEquiv M K N).symm k) = ix2 i k := by
  funext a; refine Fin.ext ?_
  match a with
  | ⟨0, _⟩ => exact plain_lhs_row _ _
  | ⟨1, _⟩ =>
    exact ((DotDims.plain M K N).lhsIdx_val_of_single (cl := (1 : Fin 2)) rfl _ _).trans
      (contrEquiv1_symm_val (DotDims.plain M K N) K rfl rfl k)

/-- The right operand's index for output `(i, j)` and contraction coordinate `k` is `(k, j)`. -/
theorem plain_rhsIdx (i : Fin M) (j : Fin N) (k : Fin K) :
    (DotDims.plain M K N).rhsIdx (ix2 i j) ((kEquiv M K N).symm k) = ix2 k j := by
  funext a; refine Fin.ext ?_
  match a with
  | ⟨0, _⟩ =>
    exact ((DotDims.plain M K N).rhsIdx_val_of_single (cr := (0 : Fin 2)) rfl _ _).trans
      (contrEquiv1_symm_val (DotDims.plain M K N) K rfl rfl k)
  | ⟨1, _⟩ => exact plain_rhs_col _ _

/-- THE HOST PRODUCT AT `(i, j)`. -/
theorem dotGeneral_plain_apply {φ₁ φ₂ : FTy} (prec : Option ContractPrecision) (sched : HostSchedule)
    (l : FVec Ideal ⟨2, ![M, K]⟩ φ₁) (r : FVec Ideal ⟨2, ![K, N]⟩ φ₂) (i : Fin M) (j : Fin N) :
    FloatOps.dotGeneral (DotDims.plain M K N) prec sched l r (ix2 i j) = ∑ k : Fin K, l (ix2 i k) * r (ix2 k j) := by
  rw [Ideal.dotGeneral_apply, ← Equiv.sum_comp (kEquiv M K N).symm]
  refine Finset.sum_congr rfl fun k _ => ?_
  rw [plain_lhsIdx, plain_rhsIdx]

/-- THE KERNEL PRODUCT INTO A ZERO ACCUMULATOR AT `(i, j)`. -/
theorem matmul_plain_zero_apply {φ₁ φ₂ : FTy} (prec : Option ContractPrecision)
    (l : FVec Ideal ⟨2, ![M, K]⟩ φ₁) (r : FVec Ideal ⟨2, ![K, N]⟩ φ₂) (i : Fin M) (j : Fin N) :
    FloatOps.matmul (DotDims.plain M K N) prec l r (constant ⟨2, ![M, N]⟩ .f32 0x00000000#32) (ix2 i j)
      = ∑ k : Fin K, l (ix2 i k) * r (ix2 k j) := by
  rw [Ideal.matmul_constant_zero_apply, ← Equiv.sum_comp (kEquiv M K N).symm]
  refine Finset.sum_congr rfl fun k _ => ?_
  rw [plain_lhsIdx, plain_rhsIdx]

/-- The product as one whole-array function of the two operands. -/
def prod (A : (⟨2, ![M, K]⟩ : Shape).Idx → EReal) (B : (⟨2, ![K, N]⟩ : Shape).Idx → EReal) :
    (⟨2, ![M, N]⟩ : Shape).Idx → EReal :=
  fun i => ∑ k : Fin K, A (ix2 (i 0) k) * B (ix2 k (i 1))

theorem prod_apply (A : (⟨2, ![M, K]⟩ : Shape).Idx → EReal) (B : (⟨2, ![K, N]⟩ : Shape).Idx → EReal) (i : Fin M) (j : Fin N) :
    prod A B (ix2 i j) = ∑ k : Fin K, A (ix2 i k) * B (ix2 k j) := rfl

/-- Entry `(p, q)` of a product of BLOCKS is entry `i` of the product of the whole arrays, when row `p` of the left
    block is row `i 0` of the left array and column `q` of the right block is column `i 1` of the right array. -/
theorem prod_block_eq {M' N' : Nat} (A : (⟨2, ![M, K]⟩ : Shape).Idx → EReal) (B : (⟨2, ![K, N]⟩ : Shape).Idx → EReal)
    (A' : (⟨2, ![M', K]⟩ : Shape).Idx → EReal) (B' : (⟨2, ![K, N']⟩ : Shape).Idx → EReal)
    (p : Fin M') (q : Fin N') (i : (⟨2, ![M, N]⟩ : Shape).Idx)
    (h0 : ∀ k : Fin K, A' (ix2 p k) = A (ix2 (i 0) k)) (h1 : ∀ k : Fin K, B' (ix2 k q) = B (ix2 k (i 1))) :
    prod A' B' (ix2 p q) = prod A B i := by
  show ∑ k : Fin K, A' (ix2 p k) * B' (ix2 k q) = ∑ k : Fin K, A (ix2 (i 0) k) * B (ix2 k (i 1))
  exact Finset.sum_congr rfl fun k _ => by rw [h0 k, h1 k]

/-- The host product IS that function. -/
theorem dotGeneral_plain_eq {φ₁ φ₂ : FTy} (prec : Option ContractPrecision) (sched : HostSchedule)
    (l : FVec Ideal ⟨2, ![M, K]⟩ φ₁) (r : FVec Ideal ⟨2, ![K, N]⟩ φ₂) :
    FloatOps.dotGeneral (DotDims.plain M K N) prec sched l r = prod l r := by
  funext i
  obtain ⟨p, q, rfl⟩ : ∃ (p : Fin M) (q : Fin N), i = ix2 p q := ⟨i 0, i 1, eq_ix2 i⟩
  exact dotGeneral_plain_apply prec sched l r p q

/-- The kernel product into a zero accumulator IS that function. -/
theorem matmul_plain_zero_eq {φ₁ φ₂ : FTy} (prec : Option ContractPrecision)
    (l : FVec Ideal ⟨2, ![M, K]⟩ φ₁) (r : FVec Ideal ⟨2, ![K, N]⟩ φ₂) :
    FloatOps.matmul (DotDims.plain M K N) prec l r (constant ⟨2, ![M, N]⟩ .f32 0x00000000#32) = prod l r := by
  funext i
  obtain ⟨p, q, rfl⟩ : ∃ (p : Fin M) (q : Fin N), i = ix2 p q := ⟨i 0, i 1, eq_ix2 i⟩
  exact matmul_plain_zero_apply prec l r p q

/-- A dense layer: the product with a weight matrix, plus a bias row, clamped below at zero (the clamp is the
    zero word read as an extended real). -/
def denseRelu (A : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  fun i => max (prod A W i + B (ix2 0 (i 1))) (Ideal.ofBits .f32 0x00000000#32)

/-- Entry `(p, q)` of the dense layer of a BLOCK of rows is entry `i` of the dense layer of the whole array, when row
    `p` of the block is row `i 0` of the array and the weight and bias blocks are read at column `i 1`. -/
theorem denseRelu_block_eq {M' N' : Nat} (A : (⟨2, ![M, K]⟩ : Shape).Idx → EReal) (W : (⟨2, ![K, N]⟩ : Shape).Idx → EReal)
    (B : (⟨2, ![1, N]⟩ : Shape).Idx → EReal)
    (A' : (⟨2, ![M', K]⟩ : Shape).Idx → EReal) (W' : (⟨2, ![K, N']⟩ : Shape).Idx → EReal) (B' : (⟨2, ![1, N']⟩ : Shape).Idx → EReal)
    (p : Fin M') (q : Fin N') (i : (⟨2, ![M, N]⟩ : Shape).Idx)
    (h0 : ∀ k : Fin K, A' (ix2 p k) = A (ix2 (i 0) k)) (h1 : ∀ k : Fin K, W' (ix2 k q) = W (ix2 k (i 1)))
    (h2 : B' (ix2 0 q) = B (ix2 0 (i 1))) :
    denseRelu A' W' B' (ix2 p q) = denseRelu A W B i := by
  show max (prod A' W' (ix2 p q) + B' (ix2 0 q)) _ = max (prod A W i + B (ix2 0 (i 1))) _
  rw [prod_block_eq A W A' W' p q i h0 h1, h2]

/-- A two-layer head: a dense layer, then a product with a one-column matrix, plus a scalar bias. -/
def mlpHead {G H : Nat} (P : (⟨2, ![G, H]⟩ : Shape).Idx → EReal) (W1 : (⟨2, ![H, H]⟩ : Shape).Idx → EReal)
    (B1 : (⟨2, ![1, H]⟩ : Shape).Idx → EReal) (W2 : (⟨2, ![H, 1]⟩ : Shape).Idx → EReal)
    (B2 : (⟨2, ![1, 1]⟩ : Shape).Idx → EReal) : (⟨2, ![G, 1]⟩ : Shape).Idx → EReal :=
  fun i => prod (denseRelu P W1 B1) W2 i + B2 (ix2 0 0)

end Cert.MatProd

end
-- ==== Proof.LibBroadcastTo.lean ====
/-
  A vector broadcast of a row or of a column to a matrix, read at an entry. General in the extents.

  * a row `[1, n]` broadcast down `m` rows: entry `(p, k)` is the row's entry `(0, k)`;
  * a column `[m, 1]` broadcast across `n` columns: entry `(p, k)` is the column's entry `(p, 0)`.
-/
import Idealize.ShloMosaic.Lib.Pipeline.Value
import Idealize.ShloMosaic.Lib.ValueIdx

noncomputable section

namespace Cert.BroadcastTo

open Idealize.ShloMosaic Idealize.ShloMosaic.ValueIdx

variable {α : Type} {m n : Nat}

/-- A row broadcast down the rows keeps the column coordinate. -/
theorem row_apply (x : (⟨2, ![1, n]⟩ : Shape).Idx → α) (h : (⟨2, ![1, n]⟩ : Shape).Broadcasts ⟨2, ![m, n]⟩)
    (p : Fin m) (k : Fin n) : broadcastTo ⟨2, ![m, n]⟩ x h (ix2 p k) = x (ix2 0 k) :=
  broadcastTo_apply x h (ix2 p k) (ix2 0 k) (fun a => match a with
    | ⟨0, _⟩ => by show (0 : ℕ) = if (1 : ℕ) = 1 then 0 else _; rw [if_pos rfl]
    | ⟨1, _⟩ => by
      show k.val = if n = 1 then 0 else k.val
      split
      · have := k.isLt; omega
      · rfl)

/-- A column broadcast across the columns keeps the row coordinate. -/
theorem col_apply (x : (⟨2, ![m, 1]⟩ : Shape).Idx → α) (h : (⟨2, ![m, 1]⟩ : Shape).Broadcasts ⟨2, ![m, n]⟩)
    (p : Fin m) (k : Fin n) : broadcastTo ⟨2, ![m, n]⟩ x h (ix2 p k) = x (ix2 p 0) :=
  broadcastTo_apply x h (ix2 p k) (ix2 p 0) (fun a => match a with
    | ⟨0, _⟩ => by
      show p.val = if m = 1 then 0 else p.val
      split
      · have := p.isLt; omega
      · rfl
    | ⟨1, _⟩ => by show (0 : ℕ) = if (1 : ℕ) = 1 then 0 else _; rw [if_pos rfl])

end Cert.BroadcastTo

end
-- ==== Proof.MatrixViews.lean ====
/-
  A rank-2 array of extended reals read by its two coordinates: as a matrix, as a column (second extent one),
  as a row (first extent one).
-/
import Idealize.ShloMosaic.Lib.ValueIdx
import Mathlib.Data.EReal.Basic

noncomputable section

namespace Cert.MatrixViews

open Idealize.ShloMosaic Idealize.ShloMosaic.ValueIdx

/-- Entry `(r, k)` of an `R × C` array. -/
abbrev mat {R C : ℕ} (X : (⟨2, ![R, C]⟩ : Shape).Idx → EReal) : Fin R → Fin C → EReal := fun r k => X (ix2 r k)

/-- Entry `r` of an `R × 1` column. -/
abbrev colv {R : ℕ} (X : (⟨2, ![R, 1]⟩ : Shape).Idx → EReal) : Fin R → EReal := fun r => X (ix2 r (0 : Fin 1))

/-- Entry `j` of a `1 × C` row. -/
abbrev rowv {C : ℕ} (X : (⟨2, ![1, C]⟩ : Shape).Idx → EReal) : Fin C → EReal := fun j => X (ix2 (0 : Fin 1) j)

end Cert.MatrixViews

end
-- ==== Proof.RegionPayloads.lean ====
/-
  The six kernel bodies read at one entry of their output block, over the extended reals.

  A body multiplies whole blocks (a change of float format is the identity over the extended reals and a product into
  a zero accumulator is the plain sum over the contracted axis), scales rows by a column, adds a bias row. Read at
  entry `(p, q)` each is one of three closed forms: the product of two matrices, or one of the two combining layers.
  Then: each closed form at an entry depends only on row `p` of the row-wise operands and column `q` of the
  column-wise ones, which is what carries a block's entry to the whole array's.
-/
import proofs.«117899_j51677046505876_2_alg».proof.Proof.Gen.KernelIdeal.Skeleton
import proofs.«117899_j51677046505876_2_alg».proof.Proof.SageLayers
import proofs.«117899_j51677046505876_2_alg».proof.Proof.LibMatProd
import proofs.«117899_j51677046505876_2_alg».proof.Proof.LibBroadcastTo
import proofs.«117899_j51677046505876_2_alg».proof.Proof.MatrixViews
import Idealize.ShloMosaic.Lib.Pipeline.Value

noncomputable section

open scoped BigOperators

namespace Cert.KernelIdeal.RegionForms

open Idealize.ShloMosaic Idealize.ShloMosaic.ValueIdx Cert.KernelIdeal Cert.MatrixViews

/-- The dimension numbers of the 128-column products are the plain ones: contract the left operand's columns with
    the right operand's rows. -/
theorem dims_full : dot_S5000x128_S128x128_S5000x128_1_0_0_1_n_n = DotDims.plain 5000 128 128 := rfl

/-- The same for the 64-column products. -/
theorem dims_proj : dot_S5000x128_S128x64_S5000x64_1_0_0_1_n_n = DotDims.plain 5000 128 64 := rfl

/-- The zero offsets of a whole-block load or store, as a function. -/
theorem zero_offsets : (![0, 0] : Fin 2 → Nat) = fun _ => 0 := funext fun a => by fin_cases a <;> rfl

/-! ## The bodies at an entry -/

/-- The combining body of region 0 at entry `(p, q)` of its block: the scaled neighbour rows times the first weight
    matrix, plus the own rows times the second, plus the bias row. -/
theorem combineFull_block0 (x0 : Vec Ideal S5000x128 .f32) (x1 : Vec Ideal S5000x1 .f32) (x2 : Vec Ideal S5000x128 .f32)
    (x3 x4 : Vec Ideal S128x128 .f32) (x5 : Vec Ideal S1x128 .f32) (p : Fin 5000) (q : Fin 128) :
    Gen.k0_pay1 x0 x1 x2 x3 x4 x5 (ix2 p q)
      = SageLayers.combineFull (mat x0) (colv x1) (mat x2) (mat x3) (mat x4) (rowv x5) p q := by
  unfold Gen.k0_pay1
  simp only [matmul]
  rw [addf_apply, addf_apply, dims_full, Cert.MatProd.matmul_plain_zero_apply, Cert.MatProd.matmul_plain_zero_apply,
    Cert.BroadcastTo.row_apply]
  simp only [truncf_apply, mulf_apply, shapeCast_self, Cert.BroadcastTo.col_apply]
  rfl

/-- The combining body of region 1 at entry `(p, q)` of its block: the scaled neighbour rows times the first weight
    matrix, plus the own rows times the second, plus the bias row. -/
theorem combineFull_block1 (x0 : Vec Ideal S5000x128 .f32) (x1 : Vec Ideal S5000x1 .f32) (x2 : Vec Ideal S5000x128 .f32)
    (x3 x4 : Vec Ideal S128x128 .f32) (x5 : Vec Ideal S1x128 .f32) (p : Fin 5000) (q : Fin 128) :
    Gen.k1_pay1 x0 x1 x2 x3 x4 x5 (ix2 p q)
      = SageLayers.combineFull (mat x0) (colv x1) (mat x2) (mat x3) (mat x4) (rowv x5) p q := by
  unfold Gen.k1_pay1
  simp only [matmul]
  rw [addf_apply, addf_apply, dims_full, Cert.MatProd.matmul_plain_zero_apply, Cert.MatProd.matmul_plain_zero_apply,
    Cert.BroadcastTo.row_apply]
  simp only [truncf_apply, mulf_apply, shapeCast_self, Cert.BroadcastTo.col_apply]
  rfl

/-- The projecting body of region 2 at entry `(p, q)` of its block: the rows times the weight matrix. -/
theorem project_block2 (x0 : Vec Ideal S5000x128 .f32) (x1 : Vec Ideal S128x64 .f32) (p : Fin 5000) (q : Fin 64) :
    Gen.k2_pay1 x0 x1 (ix2 p q) = Sage.lin (mat x0) (mat x1) p q := by
  unfold Gen.k2_pay1
  simp only [matmul]
  rw [dims_proj, Cert.MatProd.matmul_plain_zero_apply]
  simp only [truncf_apply, shapeCast_self]
  rfl

/-- The second combining body, of region 3, at entry `(p, q)` of its block: the own rows times the weight matrix, plus
    the projected neighbour rows scaled by the inverse degree, plus the bias row. -/
theorem combineProj_block3 (x0 : Vec Ideal S5000x64 .f32) (x1 : Vec Ideal S5000x1 .f32) (x2 : Vec Ideal S5000x128 .f32)
    (x3 : Vec Ideal S128x64 .f32) (x4 : Vec Ideal S1x64 .f32) (p : Fin 5000) (q : Fin 64) :
    Gen.k3_pay1 x0 x1 x2 x3 x4 (ix2 p q)
      = SageLayers.combineProj (mat x0) (colv x1) (mat x2) (mat x3) (rowv x4) p q := by
  unfold Gen.k3_pay1
  simp only [matmul]
  rw [addf_apply, addf_apply, dims_proj, Cert.MatProd.matmul_plain_zero_apply, mulf_apply, Cert.BroadcastTo.row_apply,
    Cert.BroadcastTo.col_apply]
  simp only [truncf_apply, shapeCast_self]
  rfl

/-- The projecting body of region 4 at entry `(p, q)` of its block: the rows times the weight matrix. -/
theorem project_block4 (x0 : Vec Ideal S5000x128 .f32) (x1 : Vec Ideal S128x64 .f32) (p : Fin 5000) (q : Fin 64) :
    Gen.k4_pay1 x0 x1 (ix2 p q) = Sage.lin (mat x0) (mat x1) p q := by
  unfold Gen.k4_pay1
  simp only [matmul]
  rw [dims_proj, Cert.MatProd.matmul_plain_zero_apply]
  simp only [truncf_apply, shapeCast_self]
  rfl

/-- The second combining body, of region 5, at entry `(p, q)` of its block: the own rows times the weight matrix, plus
    the projected neighbour rows scaled by the inverse degree, plus the bias row. -/
theorem combineProj_block5 (x0 : Vec Ideal S5000x64 .f32) (x1 : Vec Ideal S5000x1 .f32) (x2 : Vec Ideal S5000x128 .f32)
    (x3 : Vec Ideal S128x64 .f32) (x4 : Vec Ideal S1x64 .f32) (p : Fin 5000) (q : Fin 64) :
    Gen.k5_pay1 x0 x1 x2 x3 x4 (ix2 p q)
      = SageLayers.combineProj (mat x0) (colv x1) (mat x2) (mat x3) (rowv x4) p q := by
  unfold Gen.k5_pay1
  simp only [matmul]
  rw [addf_apply, addf_apply, dims_proj, Cert.MatProd.matmul_plain_zero_apply, mulf_apply, Cert.BroadcastTo.row_apply,
    Cert.BroadcastTo.col_apply]
  simp only [truncf_apply, shapeCast_self]
  rfl

/-! ## An entry depends only on its row and its column -/

section Congr
variable {N N' D C C' : ℕ}

/-- A product's entry `(i, j)` reads row `i` of the left factor and column `j` of the right one. -/
theorem lin_congr (h : Fin N → Fin D → EReal) (h' : Fin N' → Fin D → EReal) (W : Fin D → Fin C → EReal)
    (W' : Fin D → Fin C' → EReal) (i : Fin N) (i' : Fin N') (j : Fin C) (j' : Fin C')
    (hh : ∀ k, h i k = h' i' k) (hW : ∀ k, W k j = W' k j') : Sage.lin h W i j = Sage.lin h' W' i' j' := by
  unfold Sage.lin
  exact Finset.sum_congr rfl fun k _ => by rw [hh k, hW k]

/-- The first combining layer's entry `(i, j)` reads row `i` of the row-wise operands and column `j` of the weights
    and of the bias. -/
theorem combineFull_congr (a : Fin N → Fin D → EReal) (a' : Fin N' → Fin D → EReal) (inv : Fin N → EReal)
    (inv' : Fin N' → EReal) (h : Fin N → Fin D → EReal) (h' : Fin N' → Fin D → EReal) (Wl Wr : Fin D → Fin C → EReal)
    (Wl' Wr' : Fin D → Fin C' → EReal) (b : Fin C → EReal) (b' : Fin C' → EReal) (i : Fin N) (i' : Fin N') (j : Fin C)
    (j' : Fin C') (ha : ∀ k, a i k = a' i' k) (hinv : inv i = inv' i') (hh : ∀ k, h i k = h' i' k)
    (hWl : ∀ k, Wl k j = Wl' k j') (hWr : ∀ k, Wr k j = Wr' k j') (hb : b j = b' j') :
    SageLayers.combineFull a inv h Wl Wr b i j = SageLayers.combineFull a' inv' h' Wl' Wr' b' i' j' := by
  unfold SageLayers.combineFull
  rw [lin_congr (fun n k => a n k * inv n) (fun n k => a' n k * inv' n) Wl Wl' i i' j j'
      (fun k => by show a i k * inv i = a' i' k * inv' i'; rw [ha k, hinv]) hWl,
    lin_congr h h' Wr Wr' i i' j j' hh hWr, hb]

/-- The second combining layer's entry `(i, j)` likewise. -/
theorem combineProj_congr (p : Fin N → Fin C → EReal) (p' : Fin N' → Fin C' → EReal) (inv : Fin N → EReal)
    (inv' : Fin N' → EReal) (h : Fin N → Fin D → EReal) (h' : Fin N' → Fin D → EReal) (Wr : Fin D → Fin C → EReal)
    (Wr' : Fin D → Fin C' → EReal) (b : Fin C → EReal) (b' : Fin C' → EReal) (i : Fin N) (i' : Fin N') (j : Fin C)
    (j' : Fin C') (hp : p i j = p' i' j') (hinv : inv i = inv' i') (hh : ∀ k, h i k = h' i' k)
    (hWr : ∀ k, Wr k j = Wr' k j') (hb : b j = b' j') :
    SageLayers.combineProj p inv h Wr b i j = SageLayers.combineProj p' inv' h' Wr' b' i' j' := by
  unfold SageLayers.combineProj
  rw [lin_congr h h' Wr Wr' i i' j j' hh hWr, hp, hinv, hb]

end Congr

end Cert.KernelIdeal.RegionForms

end
-- ==== Proof.RegionCombine.lean ====
/-
  The two first-layer combining regions (regions 0 and 1), entry by entry: after the region the output array is
  (scaled neighbour rows × first weights + own rows × second weights) + bias, as one function of the six input arrays
  as the region finds them, whatever they are.

  Road, the same for every region. The body's result at entry `(p, q)` of a block is a closed form of row `p` and
  column `q` of the operand blocks. A row window's block at grid point `t` holds rows `5000 t … 5000 t + 4999` of its
  array and a weight or bias window's block is its whole array (the windows' index maps, decided over the ten grid
  points), so what point `t` writes back is block `t` of ONE function of the whole input arrays. The ten blocks cover
  the 50000 rows (row `r` is in block `r / 5000`), so the array after the region is that function.
-/
import proofs.«117899_j51677046505876_2_alg».proof.Proof.Gen.KernelIdeal.Frame
import proofs.«117899_j51677046505876_2_alg».proof.Proof.RegionPayloads
import Idealize.ShloMosaic.Lib.Pipeline.Value

noncomputable section

open scoped BigOperators

namespace Cert.KernelIdeal.RegionForms

open Cert.KernelIdeal Cert.KernelIdeal.Gen Idealize.ShloMosaic Idealize.ShloMosaic.TcCoe Idealize.SL.Sem
open Idealize.ShloMosaic.Pipeline (Dat)
open Idealize.ShloMosaic.ValueIdx Cert.MatrixViews

-- the buffer contents when a region is entered: every statement below holds for any of them
variable (V : (c : Dev nD) → (b : Ref sig .tc) → Buf (Elt Ideal) ((c : Thread nD τ).loc b))

/-! # Region 0 -/

/-- Region 0's output array as one function of its input arrays, entry by entry. -/
def full0 (c : Dev nD) : S50000x128.Idx → EReal := fun i =>
  SageLayers.combineFull (mat (V c (Pipeline.arrRef spec0 0))) (colv (V c (Pipeline.arrRef spec0 1)))
    (mat (V c (Pipeline.arrRef spec0 2))) (mat (V c (Pipeline.arrRef spec0 3))) (mat (V c (Pipeline.arrRef spec0 4)))
    (rowv (V c (Pipeline.arrRef spec0 5))) (i 0) (i 1)

/-! ## Where each window's block sits in its array -/

/-- Window 0 moves with the grid point along the rows. -/
theorem index0_0 : ∀ t : Fin cfg0.N, win0_0.index t (0 : Fin 2) = t.val ∧ win0_0.index t (1 : Fin 2) = 0 :=
  (by decide +kernel : ∀ t : Fin grid0.N, _)

/-- Window 1 moves with the grid point along the rows. -/
theorem index0_1 : ∀ t : Fin cfg0.N, win0_1.index t (0 : Fin 2) = t.val ∧ win0_1.index t (1 : Fin 2) = 0 :=
  (by decide +kernel : ∀ t : Fin grid0.N, _)

/-- Window 2 moves with the grid point along the rows. -/
theorem index0_2 : ∀ t : Fin cfg0.N, win0_2.index t (0 : Fin 2) = t.val ∧ win0_2.index t (1 : Fin 2) = 0 :=
  (by decide +kernel : ∀ t : Fin grid0.N, _)

/-- Window 3 stays at the origin: the whole array at every grid point. -/
theorem index0_3 : ∀ t : Fin cfg0.N, win0_3.index t (0 : Fin 2) = 0 ∧ win0_3.index t (1 : Fin 2) = 0 :=
  (by decide +kernel : ∀ t : Fin grid0.N, _)

/-- Window 4 stays at the origin: the whole array at every grid point. -/
theorem index0_4 : ∀ t : Fin cfg0.N, win0_4.index t (0 : Fin 2) = 0 ∧ win0_4.index t (1 : Fin 2) = 0 :=
  (by decide +kernel : ∀ t : Fin grid0.N, _)

/-- Window 5 stays at the origin: the whole array at every grid point. -/
theorem index0_5 : ∀ t : Fin cfg0.N, win0_5.index t (0 : Fin 2) = 0 ∧ win0_5.index t (1 : Fin 2) = 0 :=
  (by decide +kernel : ∀ t : Fin grid0.N, _)

/-- Window 6 moves with the grid point along the rows. -/
theorem index0_6 : ∀ t : Fin cfg0.N, win0_6.index t (0 : Fin 2) = t.val ∧ win0_6.index t (1 : Fin 2) = 0 :=
  (by decide +kernel : ∀ t : Fin grid0.N, _)

/-- Row `p` of window 0's block at grid point `t` is row `5000 t + p` of its array. -/
theorem blk0_0 (c : Dev nD) (t : Fin cfg0.N) (p : Fin 5000) (k : Fin 128) (r : Fin 50000) (hr : r.val = 5000 * t.val + p.val) :
    (iblk0 V c 0 t : Vec Ideal S5000x128 .f32) (ix2 p k) = (V c (Pipeline.arrRef spec0 0) : S50000x128.Idx → EReal) (ix2 r k) := by
  obtain ⟨e0, e1⟩ := index0_0 t
  unfold iblk0
  rw [View.read_apply]
  show V c (Pipeline.arrRef spec0 0) _ = V c (Pipeline.arrRef spec0 0) _
  congr 1
  funext d
  apply Fin.ext
  match d with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- Entry `p` of window 1's column block at grid point `t` is entry `5000 t + p` of its column. -/
theorem blk0_1 (c : Dev nD) (t : Fin cfg0.N) (p : Fin 5000) (r : Fin 50000) (hr : r.val = 5000 * t.val + p.val) :
    (iblk0 V c 1 t : Vec Ideal S5000x1 .f32) (ix2 p (0 : Fin 1)) = (V c (Pipeline.arrRef spec0 1) : S50000x1.Idx → EReal) (ix2 r (0 : Fin 1)) := by
  obtain ⟨e0, e1⟩ := index0_1 t
  unfold iblk0
  rw [View.read_apply]
  show V c (Pipeline.arrRef spec0 1) _ = V c (Pipeline.arrRef spec0 1) _
  congr 1
  funext d
  apply Fin.ext
  match d with
  | ⟨0, _⟩ => show win0_1.index t (0 : Fin 2) * 5000 + 1 * p.val = r.val; rw [e0, hr]; omega
  | ⟨1, _⟩ => show win0_1.index t (1 : Fin 2) * 1 + 1 * (0 : Fin 1).val = (0 : Fin 1).val; rw [e1]; omega

/-- Row `p` of window 2's block at grid point `t` is row `5000 t + p` of its array. -/
theorem blk0_2 (c : Dev nD) (t : Fin cfg0.N) (p : Fin 5000) (k : Fin 128) (r : Fin 50000) (hr : r.val = 5000 * t.val + p.val) :
    (iblk0 V c 2 t : Vec Ideal S5000x128 .f32) (ix2 p k) = (V c (Pipeline.arrRef spec0 2) : S50000x128.Idx → EReal) (ix2 r k) := by
  obtain ⟨e0, e1⟩ := index0_2 t
  unfold iblk0
  rw [View.read_apply]
  show V c (Pipeline.arrRef spec0 2) _ = V c (Pipeline.arrRef spec0 2) _
  congr 1
  funext d
  apply Fin.ext
  match d with
  | ⟨0, _⟩ => show win0_2.index t (0 : Fin 2) * 5000 + 1 * p.val = r.val; rw [e0, hr]; omega
  | ⟨1, _⟩ => show win0_2.index t (1 : Fin 2) * 128 + 1 * k.val = k.val; rw [e1]; omega

/-- Window 3's block at any grid point is its whole array. -/
theorem blk0_3 (c : Dev nD) (t : Fin cfg0.N) (a : Fin 128) (b : Fin 128) :
    (iblk0 V c 3 t : Vec Ideal S128x128 .f32) (ix2 a b) = (V c (Pipeline.arrRef spec0 3) : S128x128.Idx → EReal) (ix2 a b) := by
  obtain ⟨e0, e1⟩ := index0_3 t
  unfold iblk0
  rw [View.read_apply]
  show V c (Pipeline.arrRef spec0 3) _ = V c (Pipeline.arrRef spec0 3) _
  congr 1
  funext d
  apply Fin.ext
  match d with
  | ⟨0, _⟩ => show win0_3.index t (0 : Fin 2) * 128 + 1 * a.val = a.val; rw [e0]; omega
  | ⟨1, _⟩ => show win0_3.index t (1 : Fin 2) * 128 + 1 * b.val = b.val; rw [e1]; omega

/-- Window 4's block at any grid point is its whole array. -/
theorem blk0_4 (c : Dev nD) (t : Fin cfg0.N) (a : Fin 128) (b : Fin 128) :
    (iblk0 V c 4 t : Vec Ideal S128x128 .f32) (ix2 a b) = (V c (Pipeline.arrRef spec0 4) : S128x128.Idx → EReal) (ix2 a b) := by
  obtain ⟨e0, e1⟩ := index0_4 t
  unfold iblk0
  rw [View.read_apply]
  show V c (Pipeline.arrRef spec0 4) _ = V c (Pipeline.arrRef spec0 4) _
  congr 1
  funext d
  apply Fin.ext
  match d with
  | ⟨0, _⟩ => show win0_4.index t (0 : Fin 2) * 128 + 1 * a.val = a.val; rw [e0]; omega
  | ⟨1, _⟩ => show win0_4.index t (1 : Fin 2) * 128 + 1 * b.val = b.val; rw [e1]; omega

/-- Window 5's block at any grid point is its whole array. -/
theorem blk0_5 (c : Dev nD) (t : Fin cfg0.N) (a : Fin 1) (b : Fin 128) :
    (iblk0 V c 5 t : Vec Ideal S1x128 .f32) (ix2 a b) = (V c (Pipeline.arrRef spec0 5) : S1x128.Idx → EReal) (ix2 a b) := by
  obtain ⟨e0, e1⟩ := index0_5 t
  unfold iblk0
  rw [View.read_apply]
  show V c (Pipeline.arrRef spec0 5) _ = V c (Pipeline.arrRef spec0 5) _
  congr 1
  funext d
  apply Fin.ext
  match d with
  | ⟨0, _⟩ => show win0_5.index t (0 : Fin 2) * 1 + 1 * a.val = a.val; rw [e0]; omega
  | ⟨1, _⟩ => show win0_5.index t (1 : Fin 2) * 128 + 1 * b.val = b.val; rw [e1]; omega

/-! ## What a grid point writes back, and the array after the region -/

/-- What grid point `t` writes back is block `t` of the closed form: entry `(p, q)` of the body's result is the closed
    form at row `5000 t + p` and column `q`, because each operand's block holds exactly the rows and columns read there. -/
theorem flushed0 (c : Dev nD) (t : Fin cfg0.N) :
    (dat0 (F := Ideal) V c).flushed 6 t = ((cfg0.win 6).blk t).view.read (Elt Ideal) (full0 V c) := by
  obtain ⟨e0, e1⟩ := index0_6 t
  have ht : t.val < 10 := lt_of_lt_of_eq t.isLt N_0
  show (cfg0.win 6).cut (grid0.coords t) ((dat0 V c).after 6 t) = _
  rw [after0_6]
  unfold out0_6
  rw [View.canon_unit_zero zero_offsets]
  simp only [View.ld_unit_zero (S := S5000x128) zero_offsets, View.ld_unit_zero (S := S5000x1) zero_offsets, View.ld_unit_zero (S := S128x128) zero_offsets, View.ld_unit_zero (S := S1x128) zero_offsets]
  funext j
  obtain ⟨p, q, rfl⟩ : ∃ (p : Fin 5000) (q : Fin 128), j = ix2 p q := ⟨j 0, j 1, eq_ix2 j⟩
  obtain ⟨r, hr⟩ : ∃ r : Fin 50000, r.val = 5000 * t.val + p.val := ⟨⟨5000 * t.val + p.val, by omega⟩, rfl⟩
  have hemb : ((cfg0.win 6).blk t).view.emb (ix2 p q) = (ix2 r q : S50000x128.Idx) := by
    funext d
    apply Fin.ext
    match d with
    | ⟨0, _⟩ => show win0_6.index t (0 : Fin 2) * 5000 + 1 * p.val = r.val; rw [e0, hr]; omega
    | ⟨1, _⟩ => show win0_6.index t (1 : Fin 2) * 128 + 1 * q.val = q.val; rw [e1]; omega
  show k0_pay1 (iblk0 V c 0 t) (iblk0 V c 1 t) (iblk0 V c 2 t) (iblk0 V c 3 t) (iblk0 V c 4 t) (iblk0 V c 5 t) (ix2 p q) = full0 V c (((cfg0.win 6).blk t).view.emb (ix2 p q))
  rw [hemb, combineFull_block0 (iblk0 V c 0 t) (iblk0 V c 1 t) (iblk0 V c 2 t) (iblk0 V c 3 t) (iblk0 V c 4 t) (iblk0 V c 5 t) p q]
  show _ = SageLayers.combineFull (mat (V c (Pipeline.arrRef spec0 0))) (colv (V c (Pipeline.arrRef spec0 1)))
    (mat (V c (Pipeline.arrRef spec0 2))) (mat (V c (Pipeline.arrRef spec0 3))) (mat (V c (Pipeline.arrRef spec0 4)))
    (rowv (V c (Pipeline.arrRef spec0 5))) r q
  exact combineFull_congr _ _ _ _ _ _ _ _ _ _ _ _ p r q q (fun k => blk0_0 V c t p k r hr) (blk0_1 V c t p r hr)
    (fun k => blk0_2 V c t p k r hr) (fun k => blk0_3 V c t k q) (fun k => blk0_4 V c t k q) (blk0_5 V c t 0 q)

/-- An entry of the output array lies in grid point `t`'s block iff each coordinate lies in the block's range. -/
theorem mem_blk0 (t : Fin cfg0.N) (i : S50000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_call0_v37).slice (win0_6.rect t)).set ↔ _
  rw [View.set_slice_whole, Rect.mem_set_unit]
  exact Iff.rfl

/-- The blocks cover the array: row `r` lies in the block of grid point `r / 5000`. -/
theorem cover0 (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  obtain ⟨t, ht⟩ : ∃ t : Fin cfg0.N, t.val = (i 0).val / 5000 :=
    ⟨⟨(i 0).val / 5000, by rw [show cfg0.N = 10 from N_0]; omega⟩, rfl⟩
  obtain ⟨e0, e1⟩ := index0_6 t
  refine ⟨t, flush0_6 t, ?_⟩
  rw [mem_blk0]
  intro a
  match a with
  | ⟨0, _⟩ =>
    show win0_6.index t (0 : Fin 2) * 5000 ≤ (i 0).val ∧ (i 0).val < win0_6.index t (0 : Fin 2) * 5000 + 5000
    rw [e0, ht]; omega
  | ⟨1, _⟩ =>
    show win0_6.index t (1 : Fin 2) * 128 ≤ (i 1).val ∧ (i 1).val < win0_6.index t (1 : Fin 2) * 128 + 128
    rw [e1]; omega

/-- The output array after region 0 is the closed form of the input arrays as the region finds them. -/
theorem final0 (c : Dev nD) : (dat0 (F := Ideal) V c).arrAt 6 cfg0.N = full0 V c :=
  (dat0 V c).arrAt_eq_of_cover 6 (full0 V c) (fun t _ => flushed0 V c t) cover0

/-- REGION 0, entry by entry. -/
theorem region0 (c : Dev nD) (r : Fin 50000) (j : Fin 128) :
    (dat0 (F := Ideal) V c).arrAt 6 cfg0.N (ix2 r j)
      = SageLayers.combineFull (mat (V c (Pipeline.arrRef spec0 0))) (colv (V c (Pipeline.arrRef spec0 1)))
    (mat (V c (Pipeline.arrRef spec0 2))) (mat (V c (Pipeline.arrRef spec0 3))) (mat (V c (Pipeline.arrRef spec0 4)))
    (rowv (V c (Pipeline.arrRef spec0 5))) r j :=
  congrFun (final0 V c) (ix2 r j)

/-! # Region 1 -/

/-- Region 1's output array as one function of its input arrays, entry by entry. -/
def full1 (c : Dev nD) : S50000x128.Idx → EReal := fun i =>
  SageLayers.combineFull (mat (V c (Pipeline.arrRef spec1 0))) (colv (V c (Pipeline.arrRef spec1 1)))
    (mat (V c (Pipeline.arrRef spec1 2))) (mat (V c (Pipeline.arrRef spec1 3))) (mat (V c (Pipeline.arrRef spec1 4)))
    (rowv (V c (Pipeline.arrRef spec1 5))) (i 0) (i 1)

/-! ## Where each window's block sits in its array -/

/-- Window 0 moves with the grid point along the rows. -/
theorem index1_0 : ∀ t : Fin cfg1.N, win1_0.index t (0 : Fin 2) = t.val ∧ win1_0.index t (1 : Fin 2) = 0 :=
  (by decide +kernel : ∀ t : Fin grid1.N, _)

/-- Window 1 moves with the grid point along the rows. -/
theorem index1_1 : ∀ t : Fin cfg1.N, win1_1.index t (0 : Fin 2) = t.val ∧ win1_1.index t (1 : Fin 2) = 0 :=
  (by decide +kernel : ∀ t : Fin grid1.N, _)

/-- Window 2 moves with the grid point along the rows. -/
theorem index1_2 : ∀ t : Fin cfg1.N, win1_2.index t (0 : Fin 2) = t.val ∧ win1_2.index t (1 : Fin 2) = 0 :=
  (by decide +kernel : ∀ t : Fin grid1.N, _)

/-- Window 3 stays at the origin: the whole array at every grid point. -/
theorem index1_3 : ∀ t : Fin cfg1.N, win1_3.index t (0 : Fin 2) = 0 ∧ win1_3.index t (1 : Fin 2) = 0 :=
  (by decide +kernel : ∀ t : Fin grid1.N, _)

/-- Window 4 stays at the origin: the whole array at every grid point. -/
theorem index1_4 : ∀ t : Fin cfg1.N, win1_4.index t (0 : Fin 2) = 0 ∧ win1_4.index t (1 : Fin 2) = 0 :=
  (by decide +kernel : ∀ t : Fin grid1.N, _)

/-- Window 5 stays at the origin: the whole array at every grid point. -/
theorem index1_5 : ∀ t : Fin cfg1.N, win1_5.index t (0 : Fin 2) = 0 ∧ win1_5.index t (1 : Fin 2) = 0 :=
  (by decide +kernel : ∀ t : Fin grid1.N, _)

/-- Window 6 moves with the grid point along the rows. -/
theorem index1_6 : ∀ t : Fin cfg1.N, win1_6.index t (0 : Fin 2) = t.val ∧ win1_6.index t (1 : Fin 2) = 0 :=
  (by decide +kernel : ∀ t : Fin grid1.N, _)

/-- Row `p` of window 0's block at grid point `t` is row `5000 t + p` of its array. -/
theorem blk1_0 (c : Dev nD) (t : Fin cfg1.N) (p : Fin 5000) (k : Fin 128) (r : Fin 50000) (hr : r.val = 5000 * t.val + p.val) :
    (iblk1 V c 0 t : Vec Ideal S5000x128 .f32) (ix2 p k) = (V c (Pipeline.arrRef spec1 0) : S50000x128.Idx → EReal) (ix2 r k) := by
  obtain ⟨e0, e1⟩ := index1_0 t
  unfold iblk1
  rw [View.read_apply]
  show V c (Pipeline.arrRef spec1 0) _ = V c (Pipeline.arrRef spec1 0) _
  congr 1
  funext d
  apply Fin.ext
  match d with
  | ⟨0, _⟩ => show win1_0.index t (0 : Fin 2) * 5000 + 1 * p.val = r.val; rw [e0, hr]; omega
  | ⟨1, _⟩ => show win1_0.index t (1 : Fin 2) * 128 + 1 * k.val = k.val; rw [e1]; omega

/-- Entry `p` of window 1's column block at grid point `t` is entry `5000 t + p` of its column. -/
theorem blk1_1 (c : Dev nD) (t : Fin cfg1.N) (p : Fin 5000) (r : Fin 50000) (hr : r.val = 5000 * t.val + p.val) :
    (iblk1 V c 1 t : Vec Ideal S5000x1 .f32) (ix2 p (0 : Fin 1)) = (V c (Pipeline.arrRef spec1 1) : S50000x1.Idx → EReal) (ix2 r (0 : Fin 1)) := by
  obtain ⟨e0, e1⟩ := index1_1 t
  unfold iblk1
  rw [View.read_apply]
  show V c (Pipeline.arrRef spec1 1) _ = V c (Pipeline.arrRef spec1 1) _
  congr 1
  funext d
  apply Fin.ext
  match d with
  | ⟨0, _⟩ => show win1_1.index t (0 : Fin 2) * 5000 + 1 * p.val = r.val; rw [e0, hr]; omega
  | ⟨1, _⟩ => show win1_1.index t (1 : Fin 2) * 1 + 1 * (0 : Fin 1).val = (0 : Fin 1).val; rw [e1]; omega

/-- Row `p` of window 2's block at grid point `t` is row `5000 t + p` of its array. -/
theorem blk1_2 (c : Dev nD) (t : Fin cfg1.N) (p : Fin 5000) (k : Fin 128) (r : Fin 50000) (hr : r.val = 5000 * t.val + p.val) :
    (iblk1 V c 2 t : Vec Ideal S5000x128 .f32) (ix2 p k) = (V c (Pipeline.arrRef spec1 2) : S50000x128.Idx → EReal) (ix2 r k) := by
  obtain ⟨e0, e1⟩ := index1_2 t
  unfold iblk1
  rw [View.read_apply]
  show V c (Pipeline.arrRef spec1 2) _ = V c (Pipeline.arrRef spec1 2) _
  congr 1
  funext d
  apply Fin.ext
  match d with
  | ⟨0, _⟩ => show win1_2.index t (0 : Fin 2) * 5000 + 1 * p.val = r.val; rw [e0, hr]; omega
  | ⟨1, _⟩ => show win1_2.index t (1 : Fin 2) * 128 + 1 * k.val = k.val; rw [e1]; omega

/-- Window 3's block at any grid point is its whole array. -/
theorem blk1_3 (c : Dev nD) (t : Fin cfg1.N) (a : Fin 128) (b : Fin 128) :
    (iblk1 V c 3 t : Vec Ideal S128x128 .f32) (ix2 a b) = (V c (Pipeline.arrRef spec1 3) : S128x128.Idx → EReal) (ix2 a b) := by
  obtain ⟨e0, e1⟩ := index1_3 t
  unfold iblk1
  rw [View.read_apply]
  show V c (Pipeline.arrRef spec1 3) _ = V c (Pipeline.arrRef spec1 3) _
  congr 1
  funext d
  apply Fin.ext
  match d with
  | ⟨0, _⟩ => show win1_3.index t (0 : Fin 2) * 128 + 1 * a.val = a.val; rw [e0]; omega
  | ⟨1, _⟩ => show win1_3.index t (1 : Fin 2) * 128 + 1 * b.val = b.val; rw [e1]; omega

/-- Window 4's block at any grid point is its whole array. -/
theorem blk1_4 (c : Dev nD) (t : Fin cfg1.N) (a : Fin 128) (b : Fin 128) :
    (iblk1 V c 4 t : Vec Ideal S128x128 .f32) (ix2 a b) = (V c (Pipeline.arrRef spec1 4) : S128x128.Idx → EReal) (ix2 a b) := by
  obtain ⟨e0, e1⟩ := index1_4 t
  unfold iblk1
  rw [View.read_apply]
  show V c (Pipeline.arrRef spec1 4) _ = V c (Pipeline.arrRef spec1 4) _
  congr 1
  funext d
  apply Fin.ext
  match d with
  | ⟨0, _⟩ => show win1_4.index t (0 : Fin 2) * 128 + 1 * a.val = a.val; rw [e0]; omega
  | ⟨1, _⟩ => show win1_4.index t (1 : Fin 2) * 128 + 1 * b.val = b.val; rw [e1]; omega

/-- Window 5's block at any grid point is its whole array. -/
theorem blk1_5 (c : Dev nD) (t : Fin cfg1.N) (a : Fin 1) (b : Fin 128) :
    (iblk1 V c 5 t : Vec Ideal S1x128 .f32) (ix2 a b) = (V c (Pipeline.arrRef spec1 5) : S1x128.Idx → EReal) (ix2 a b) := by
  obtain ⟨e0, e1⟩ := index1_5 t
  unfold iblk1
  rw [View.read_apply]
  show V c (Pipeline.arrRef spec1 5) _ = V c (Pipeline.arrRef spec1 5) _
  congr 1
  funext d
  apply Fin.ext
  match d with
  | ⟨0, _⟩ => show win1_5.index t (0 : Fin 2) * 1 + 1 * a.val = a.val; rw [e0]; omega
  | ⟨1, _⟩ => show win1_5.index t (1 : Fin 2) * 128 + 1 * b.val = b.val; rw [e1]; omega

/-! ## What a grid point writes back, and the array after the region -/

/-- What grid point `t` writes back is block `t` of the closed form: entry `(p, q)` of the body's result is the closed
    form at row `5000 t + p` and column `q`, because each operand's block holds exactly the rows and columns read there. -/
theorem flushed1 (c : Dev nD) (t : Fin cfg1.N) :
    (dat1 (F := Ideal) V c).flushed 6 t = ((cfg1.win 6).blk t).view.read (Elt Ideal) (full1 V c) := by
  obtain ⟨e0, e1⟩ := index1_6 t
  have ht : t.val < 10 := lt_of_lt_of_eq t.isLt N_1
  show (cfg1.win 6).cut (grid1.coords t) ((dat1 V c).after 6 t) = _
  rw [after1_6]
  unfold out1_6
  rw [View.canon_unit_zero zero_offsets]
  simp only [View.ld_unit_zero (S := S5000x128) zero_offsets, View.ld_unit_zero (S := S5000x1) zero_offsets, View.ld_unit_zero (S := S128x128) zero_offsets, View.ld_unit_zero (S := S1x128) zero_offsets]
  funext j
  obtain ⟨p, q, rfl⟩ : ∃ (p : Fin 5000) (q : Fin 128), j = ix2 p q := ⟨j 0, j 1, eq_ix2 j⟩
  obtain ⟨r, hr⟩ : ∃ r : Fin 50000, r.val = 5000 * t.val + p.val := ⟨⟨5000 * t.val + p.val, by omega⟩, rfl⟩
  have hemb : ((cfg1.win 6).blk t).view.emb (ix2 p q) = (ix2 r q : S50000x128.Idx) := by
    funext d
    apply Fin.ext
    match d with
    | ⟨0, _⟩ => show win1_6.index t (0 : Fin 2) * 5000 + 1 * p.val = r.val; rw [e0, hr]; omega
    | ⟨1, _⟩ => show win1_6.index t (1 : Fin 2) * 128 + 1 * q.val = q.val; rw [e1]; omega
  show k1_pay1 (iblk1 V c 0 t) (iblk1 V c 1 t) (iblk1 V c 2 t) (iblk1 V c 3 t) (iblk1 V c 4 t) (iblk1 V c 5 t) (ix2 p q) = full1 V c (((cfg1.win 6).blk t).view.emb (ix2 p q))
  rw [hemb, combineFull_block1 (iblk1 V c 0 t) (iblk1 V c 1 t) (iblk1 V c 2 t) (iblk1 V c 3 t) (iblk1 V c 4 t) (iblk1 V c 5 t) p q]
  show _ = SageLayers.combineFull (mat (V c (Pipeline.arrRef spec1 0))) (colv (V c (Pipeline.arrRef spec1 1)))
    (mat (V c (Pipeline.arrRef spec1 2))) (mat (V c (Pipeline.arrRef spec1 3))) (mat (V c (Pipeline.arrRef spec1 4)))
    (rowv (V c (Pipeline.arrRef spec1 5))) r q
  exact combineFull_congr _ _ _ _ _ _ _ _ _ _ _ _ p r q q (fun k => blk1_0 V c t p k r hr) (blk1_1 V c t p r hr)
    (fun k => blk1_2 V c t p k r hr) (fun k => blk1_3 V c t k q) (fun k => blk1_4 V c t k q) (blk1_5 V c t 0 q)

/-- An entry of the output array lies in grid point `t`'s block iff each coordinate lies in the block's range. -/
theorem mem_blk1 (t : Fin cfg1.N) (i : S50000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_call0_v49).slice (win1_6.rect t)).set ↔ _
  rw [View.set_slice_whole, Rect.mem_set_unit]
  exact Iff.rfl

/-- The blocks cover the array: row `r` lies in the block of grid point `r / 5000`. -/
theorem cover1 (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  obtain ⟨t, ht⟩ : ∃ t : Fin cfg1.N, t.val = (i 0).val / 5000 :=
    ⟨⟨(i 0).val / 5000, by rw [show cfg1.N = 10 from N_1]; omega⟩, rfl⟩
  obtain ⟨e0, e1⟩ := index1_6 t
  refine ⟨t, flush1_6 t, ?_⟩
  rw [mem_blk1]
  intro a
  match a with
  | ⟨0, _⟩ =>
    show win1_6.index t (0 : Fin 2) * 5000 ≤ (i 0).val ∧ (i 0).val < win1_6.index t (0 : Fin 2) * 5000 + 5000
    rw [e0, ht]; omega
  | ⟨1, _⟩ =>
    show win1_6.index t (1 : Fin 2) * 128 ≤ (i 1).val ∧ (i 1).val < win1_6.index t (1 : Fin 2) * 128 + 128
    rw [e1]; omega

/-- The output array after region 1 is the closed form of the input arrays as the region finds them. -/
theorem final1 (c : Dev nD) : (dat1 (F := Ideal) V c).arrAt 6 cfg1.N = full1 V c :=
  (dat1 V c).arrAt_eq_of_cover 6 (full1 V c) (fun t _ => flushed1 V c t) cover1

/-- REGION 1, entry by entry. -/
theorem region1 (c : Dev nD) (r : Fin 50000) (j : Fin 128) :
    (dat1 (F := Ideal) V c).arrAt 6 cfg1.N (ix2 r j)
      = SageLayers.combineFull (mat (V c (Pipeline.arrRef spec1 0))) (colv (V c (Pipeline.arrRef spec1 1)))
    (mat (V c (Pipeline.arrRef spec1 2))) (mat (V c (Pipeline.arrRef spec1 3))) (mat (V c (Pipeline.arrRef spec1 4)))
    (rowv (V c (Pipeline.arrRef spec1 5))) r j :=
  congrFun (final1 V c) (ix2 r j)

end Cert.KernelIdeal.RegionForms

end
-- ==== Proof.RegionProject.lean ====
/-
  The two projecting regions (regions 2 and 4), entry by entry: after the region the output array is the product of
  the input rows with the weight matrix, as one function of the two input arrays as the region finds them.

  Road, the same for every region. The body's result at entry `(p, q)` of a block is a closed form of row `p` and
  column `q` of the operand blocks. A row window's block at grid point `t` holds rows `5000 t … 5000 t + 4999` of its
  array and a weight or bias window's block is its whole array (the windows' index maps, decided over the ten grid
  points), so what point `t` writes back is block `t` of ONE function of the whole input arrays. The ten blocks cover
  the 50000 rows (row `r` is in block `r / 5000`), so the array after the region is that function.
-/
import proofs.«117899_j51677046505876_2_alg».proof.Proof.Gen.KernelIdeal.Frame
import proofs.«117899_j51677046505876_2_alg».proof.Proof.RegionPayloads
import Idealize.ShloMosaic.Lib.Pipeline.Value

noncomputable section

open scoped BigOperators

namespace Cert.KernelIdeal.RegionForms

open Cert.KernelIdeal Cert.KernelIdeal.Gen Idealize.ShloMosaic Idealize.ShloMosaic.TcCoe Idealize.SL.Sem
open Idealize.ShloMosaic.Pipeline (Dat)
open Idealize.ShloMosaic.ValueIdx Cert.MatrixViews

-- the buffer contents when a region is entered: every statement below holds for any of them
variable (V : (c : Dev nD) → (b : Ref sig .tc) → Buf (Elt Ideal) ((c : Thread nD τ).loc b))

/-! # Region 2 -/

/-- Region 2's output array as one function of its input arrays, entry by entry. -/
def proj2 (c : Dev nD) : S50000x64.Idx → EReal := fun i =>
  Sage.lin (mat (V c (Pipeline.arrRef spec2 0))) (mat (V c (Pipeline.arrRef spec2 1))) (i 0) (i 1)

/-! ## Where each window's block sits in its array -/

/-- Window 0 moves with the grid point along the rows. -/
theorem index2_0 : ∀ t : Fin cfg2.N, win2_0.index t (0 : Fin 2) = t.val ∧ win2_0.index t (1 : Fin 2) = 0 :=
  (by decide +kernel : ∀ t : Fin grid2.N, _)

/-- Window 1 stays at the origin: the whole array at every grid point. -/
theorem index2_1 : ∀ t : Fin cfg2.N, win2_1.index t (0 : Fin 2) = 0 ∧ win2_1.index t (1 : Fin 2) = 0 :=
  (by decide +kernel : ∀ t : Fin grid2.N, _)

/-- Window 2 moves with the grid point along the rows. -/
theorem index2_2 : ∀ t : Fin cfg2.N, win2_2.index t (0 : Fin 2) = t.val ∧ win2_2.index t (1 : Fin 2) = 0 :=
  (by decide +kernel : ∀ t : Fin grid2.N, _)

/-- Row `p` of window 0's block at grid point `t` is row `5000 t + p` of its array. -/
theorem blk2_0 (c : Dev nD) (t : Fin cfg2.N) (p : Fin 5000) (k : Fin 128) (r : Fin 50000) (hr : r.val = 5000 * t.val + p.val) :
    (iblk2 V c 0 t : Vec Ideal S5000x128 .f32) (ix2 p k) = (V c (Pipeline.arrRef spec2 0) : S50000x128.Idx → EReal) (ix2 r k) := by
  obtain ⟨e0, e1⟩ := index2_0 t
  unfold iblk2
  rw [View.read_apply]
  show V c (Pipeline.arrRef spec2 0) _ = V c (Pipeline.arrRef spec2 0) _
  congr 1
  funext d
  apply Fin.ext
  match d with
  | ⟨0, _⟩ => show win2_0.index t (0 : Fin 2) * 5000 + 1 * p.val = r.val; rw [e0, hr]; omega
  | ⟨1, _⟩ => show win2_0.index t (1 : Fin 2) * 128 + 1 * k.val = k.val; rw [e1]; omega

/-- Window 1's block at any grid point is its whole array. -/
theorem blk2_1 (c : Dev nD) (t : Fin cfg2.N) (a : Fin 128) (b : Fin 64) :
    (iblk2 V c 1 t : Vec Ideal S128x64 .f32) (ix2 a b) = (V c (Pipeline.arrRef spec2 1) : S128x64.Idx → EReal) (ix2 a b) := by
  obtain ⟨e0, e1⟩ := index2_1 t
  unfold iblk2
  rw [View.read_apply]
  show V c (Pipeline.arrRef spec2 1) _ = V c (Pipeline.arrRef spec2 1) _
  congr 1
  funext d
  apply Fin.ext
  match d with
  | ⟨0, _⟩ => show win2_1.index t (0 : Fin 2) * 128 + 1 * a.val = a.val; rw [e0]; omega
  | ⟨1, _⟩ => show win2_1.index t (1 : Fin 2) * 64 + 1 * b.val = b.val; rw [e1]; omega

/-! ## What a grid point writes back, and the array after the region -/

/-- What grid point `t` writes back is block `t` of the closed form: entry `(p, q)` of the body's result is the closed
    form at row `5000 t + p` and column `q`, because each operand's block holds exactly the rows and columns read there. -/
theorem flushed2 (c : Dev nD) (t : Fin cfg2.N) :
    (dat2 (F := Ideal) V c).flushed 2 t = ((cfg2.win 2).blk t).view.read (Elt Ideal) (proj2 V c) := by
  obtain ⟨e0, e1⟩ := index2_2 t
  have ht : t.val < 10 := lt_of_lt_of_eq t.isLt N_2
  show (cfg2.win 2).cut (grid2.coords t) ((dat2 V c).after 2 t) = _
  rw [after2_2]
  unfold out2_2
  rw [View.canon_unit_zero zero_offsets]
  simp only [View.ld_unit_zero (S := S5000x128) zero_offsets, View.ld_unit_zero (S := S128x64) zero_offsets]
  funext j
  obtain ⟨p, q, rfl⟩ : ∃ (p : Fin 5000) (q : Fin 64), j = ix2 p q := ⟨j 0, j 1, eq_ix2 j⟩
  obtain ⟨r, hr⟩ : ∃ r : Fin 50000, r.val = 5000 * t.val + p.val := ⟨⟨5000 * t.val + p.val, by omega⟩, rfl⟩
  have hemb : ((cfg2.win 2).blk t).view.emb (ix2 p q) = (ix2 r q : S50000x64.Idx) := by
    funext d
    apply Fin.ext
    match d with
    | ⟨0, _⟩ => show win2_2.index t (0 : Fin 2) * 5000 + 1 * p.val = r.val; rw [e0, hr]; omega
    | ⟨1, _⟩ => show win2_2.index t (1 : Fin 2) * 64 + 1 * q.val = q.val; rw [e1]; omega
  show k2_pay1 (iblk2 V c 0 t) (iblk2 V c 1 t) (ix2 p q) = proj2 V c (((cfg2.win 2).blk t).view.emb (ix2 p q))
  rw [hemb, project_block2 (iblk2 V c 0 t) (iblk2 V c 1 t) p q]
  show _ = Sage.lin (mat (V c (Pipeline.arrRef spec2 0))) (mat (V c (Pipeline.arrRef spec2 1))) r q
  exact lin_congr _ _ _ _ p r q q (fun k => blk2_0 V c t p k r hr) (fun k => blk2_1 V c t k q)

/-- An entry of the output array lies in grid point `t`'s block iff each coordinate lies in the block's range. -/
theorem mem_blk2 (t : Fin cfg2.N) (i : S50000x64.Idx) :
    i ∈ ((cfg2.win 2).blk t).view.set ↔ ∀ a : Fin 2, win2_2.index t a * S5000x64.size a ≤ (i a).val
      ∧ (i a).val < win2_2.index t a * S5000x64.size a + S5000x64.size a := by
  show i ∈ ((View.whole main_call0_v50).slice (win2_2.rect t)).set ↔ _
  rw [View.set_slice_whole, Rect.mem_set_unit]
  exact Iff.rfl

/-- The blocks cover the array: row `r` lies in the block of grid point `r / 5000`. -/
theorem cover2 (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  obtain ⟨t, ht⟩ : ∃ t : Fin cfg2.N, t.val = (i 0).val / 5000 :=
    ⟨⟨(i 0).val / 5000, by rw [show cfg2.N = 10 from N_2]; omega⟩, rfl⟩
  obtain ⟨e0, e1⟩ := index2_2 t
  refine ⟨t, flush2_2 t, ?_⟩
  rw [mem_blk2]
  intro a
  match a with
  | ⟨0, _⟩ =>
    show win2_2.index t (0 : Fin 2) * 5000 ≤ (i 0).val ∧ (i 0).val < win2_2.index t (0 : Fin 2) * 5000 + 5000
    rw [e0, ht]; omega
  | ⟨1, _⟩ =>
    show win2_2.index t (1 : Fin 2) * 64 ≤ (i 1).val ∧ (i 1).val < win2_2.index t (1 : Fin 2) * 64 + 64
    rw [e1]; omega

/-- The output array after region 2 is the closed form of the input arrays as the region finds them. -/
theorem final2 (c : Dev nD) : (dat2 (F := Ideal) V c).arrAt 2 cfg2.N = proj2 V c :=
  (dat2 V c).arrAt_eq_of_cover 2 (proj2 V c) (fun t _ => flushed2 V c t) cover2

/-- REGION 2, entry by entry. -/
theorem region2 (c : Dev nD) (r : Fin 50000) (j : Fin 64) :
    (dat2 (F := Ideal) V c).arrAt 2 cfg2.N (ix2 r j)
      = Sage.lin (mat (V c (Pipeline.arrRef spec2 0))) (mat (V c (Pipeline.arrRef spec2 1))) r j :=
  congrFun (final2 V c) (ix2 r j)

/-! # Region 4 -/

/-- Region 4's output array as one function of its input arrays, entry by entry. -/
def proj4 (c : Dev nD) : S50000x64.Idx → EReal := fun i =>
  Sage.lin (mat (V c (Pipeline.arrRef spec4 0))) (mat (V c (Pipeline.arrRef spec4 1))) (i 0) (i 1)

/-! ## Where each window's block sits in its array -/

/-- Window 0 moves with the grid point along the rows. -/
theorem index4_0 : ∀ t : Fin cfg4.N, win4_0.index t (0 : Fin 2) = t.val ∧ win4_0.index t (1 : Fin 2) = 0 :=
  (by decide +kernel : ∀ t : Fin grid4.N, _)

/-- Window 1 stays at the origin: the whole array at every grid point. -/
theorem index4_1 : ∀ t : Fin cfg4.N, win4_1.index t (0 : Fin 2) = 0 ∧ win4_1.index t (1 : Fin 2) = 0 :=
  (by decide +kernel : ∀ t : Fin grid4.N, _)

/-- Window 2 moves with the grid point along the rows. -/
theorem index4_2 : ∀ t : Fin cfg4.N, win4_2.index t (0 : Fin 2) = t.val ∧ win4_2.index t (1 : Fin 2) = 0 :=
  (by decide +kernel : ∀ t : Fin grid4.N, _)

/-- Row `p` of window 0's block at grid point `t` is row `5000 t + p` of its array. -/
theorem blk4_0 (c : Dev nD) (t : Fin cfg4.N) (p : Fin 5000) (k : Fin 128) (r : Fin 50000) (hr : r.val = 5000 * t.val + p.val) :
    (iblk4 V c 0 t : Vec Ideal S5000x128 .f32) (ix2 p k) = (V c (Pipeline.arrRef spec4 0) : S50000x128.Idx → EReal) (ix2 r k) := by
  obtain ⟨e0, e1⟩ := index4_0 t
  unfold iblk4
  rw [View.read_apply]
  show V c (Pipeline.arrRef spec4 0) _ = V c (Pipeline.arrRef spec4 0) _
  congr 1
  funext d
  apply Fin.ext
  match d with
  | ⟨0, _⟩ => show win4_0.index t (0 : Fin 2) * 5000 + 1 * p.val = r.val; rw [e0, hr]; omega
  | ⟨1, _⟩ => show win4_0.index t (1 : Fin 2) * 128 + 1 * k.val = k.val; rw [e1]; omega

/-- Window 1's block at any grid point is its whole array. -/
theorem blk4_1 (c : Dev nD) (t : Fin cfg4.N) (a : Fin 128) (b : Fin 64) :
    (iblk4 V c 1 t : Vec Ideal S128x64 .f32) (ix2 a b) = (V c (Pipeline.arrRef spec4 1) : S128x64.Idx → EReal) (ix2 a b) := by
  obtain ⟨e0, e1⟩ := index4_1 t
  unfold iblk4
  rw [View.read_apply]
  show V c (Pipeline.arrRef spec4 1) _ = V c (Pipeline.arrRef spec4 1) _
  congr 1
  funext d
  apply Fin.ext
  match d with
  | ⟨0, _⟩ => show win4_1.index t (0 : Fin 2) * 128 + 1 * a.val = a.val; rw [e0]; omega
  | ⟨1, _⟩ => show win4_1.index t (1 : Fin 2) * 64 + 1 * b.val = b.val; rw [e1]; omega

/-! ## What a grid point writes back, and the array after the region -/

/-- What grid point `t` writes back is block `t` of the closed form: entry `(p, q)` of the body's result is the closed
    form at row `5000 t + p` and column `q`, because each operand's block holds exactly the rows and columns read there. -/
theorem flushed4 (c : Dev nD) (t : Fin cfg4.N) :
    (dat4 (F := Ideal) V c).flushed 2 t = ((cfg4.win 2).blk t).view.read (Elt Ideal) (proj4 V c) := by
  obtain ⟨e0, e1⟩ := index4_2 t
  have ht : t.val < 10 := lt_of_lt_of_eq t.isLt N_4
  show (cfg4.win 2).cut (grid4.coords t) ((dat4 V c).after 2 t) = _
  rw [after4_2]
  unfold out4_2
  rw [View.canon_unit_zero zero_offsets]
  simp only [View.ld_unit_zero (S := S5000x128) zero_offsets, View.ld_unit_zero (S := S128x64) zero_offsets]
  funext j
  obtain ⟨p, q, rfl⟩ : ∃ (p : Fin 5000) (q : Fin 64), j = ix2 p q := ⟨j 0, j 1, eq_ix2 j⟩
  obtain ⟨r, hr⟩ : ∃ r : Fin 50000, r.val = 5000 * t.val + p.val := ⟨⟨5000 * t.val + p.val, by omega⟩, rfl⟩
  have hemb : ((cfg4.win 2).blk t).view.emb (ix2 p q) = (ix2 r q : S50000x64.Idx) := by
    funext d
    apply Fin.ext
    match d with
    | ⟨0, _⟩ => show win4_2.index t (0 : Fin 2) * 5000 + 1 * p.val = r.val; rw [e0, hr]; omega
    | ⟨1, _⟩ => show win4_2.index t (1 : Fin 2) * 64 + 1 * q.val = q.val; rw [e1]; omega
  show k4_pay1 (iblk4 V c 0 t) (iblk4 V c 1 t) (ix2 p q) = proj4 V c (((cfg4.win 2).blk t).view.emb (ix2 p q))
  rw [hemb, project_block4 (iblk4 V c 0 t) (iblk4 V c 1 t) p q]
  show _ = Sage.lin (mat (V c (Pipeline.arrRef spec4 0))) (mat (V c (Pipeline.arrRef spec4 1))) r q
  exact lin_congr _ _ _ _ p r q q (fun k => blk4_0 V c t p k r hr) (fun k => blk4_1 V c t k q)

/-- An entry of the output array lies in grid point `t`'s block iff each coordinate lies in the block's range. -/
theorem mem_blk4 (t : Fin cfg4.N) (i : S50000x64.Idx) :
    i ∈ ((cfg4.win 2).blk t).view.set ↔ ∀ a : Fin 2, win4_2.index t a * S5000x64.size a ≤ (i a).val
      ∧ (i a).val < win4_2.index t a * S5000x64.size a + S5000x64.size a := by
  show i ∈ ((View.whole main_call0_v63).slice (win4_2.rect t)).set ↔ _
  rw [View.set_slice_whole, Rect.mem_set_unit]
  exact Iff.rfl

/-- The blocks cover the array: row `r` lies in the block of grid point `r / 5000`. -/
theorem cover4 (i : S50000x64.Idx) :
    ∃ t : Fin cfg4.N, (cfg4.win 2).flush t = true ∧ i ∈ ((cfg4.win 2).blk t).view.set := by
  have hi0 : (i 0).val < 50000 := (i 0).isLt
  have hi1 : (i 1).val < 64 := (i 1).isLt
  obtain ⟨t, ht⟩ : ∃ t : Fin cfg4.N, t.val = (i 0).val / 5000 :=
    ⟨⟨(i 0).val / 5000, by rw [show cfg4.N = 10 from N_4]; omega⟩, rfl⟩
  obtain ⟨e0, e1⟩ := index4_2 t
  refine ⟨t, flush4_2 t, ?_⟩
  rw [mem_blk4]
  intro a
  match a with
  | ⟨0, _⟩ =>
    show win4_2.index t (0 : Fin 2) * 5000 ≤ (i 0).val ∧ (i 0).val < win4_2.index t (0 : Fin 2) * 5000 + 5000
    rw [e0, ht]; omega
  | ⟨1, _⟩ =>
    show win4_2.index t (1 : Fin 2) * 64 ≤ (i 1).val ∧ (i 1).val < win4_2.index t (1 : Fin 2) * 64 + 64
    rw [e1]; omega

/-- The output array after region 4 is the closed form of the input arrays as the region finds them. -/
theorem final4 (c : Dev nD) : (dat4 (F := Ideal) V c).arrAt 2 cfg4.N = proj4 V c :=
  (dat4 V c).arrAt_eq_of_cover 2 (proj4 V c) (fun t _ => flushed4 V c t) cover4

/-- REGION 4, entry by entry. -/
theorem region4 (c : Dev nD) (r : Fin 50000) (j : Fin 64) :
    (dat4 (F := Ideal) V c).arrAt 2 cfg4.N (ix2 r j)
      = Sage.lin (mat (V c (Pipeline.arrRef spec4 0))) (mat (V c (Pipeline.arrRef spec4 1))) r j :=
  congrFun (final4 V c) (ix2 r j)

end Cert.KernelIdeal.RegionForms

end
-- ==== Proof.RegionCombineProjected.lean ====
/-
  The two second-layer combining regions (regions 3 and 5), entry by entry: after the region the output array is
  (own rows × weights + projected neighbour rows scaled by the inverse degree) + bias, as one function of the five
  input arrays as the region finds them.

  Road, the same for every region. The body's result at entry `(p, q)` of a block is a closed form of row `p` and
  column `q` of the operand blocks. A row window's block at grid point `t` holds rows `5000 t … 5000 t + 4999` of its
  array and a weight or bias window's block is its whole array (the windows' index maps, decided over the ten grid
  points), so what point `t` writes back is block `t` of ONE function of the whole input arrays. The ten blocks cover
  the 50000 rows (row `r` is in block `r / 5000`), so the array after the region is that function.
-/
import proofs.«117899_j51677046505876_2_alg».proof.Proof.Gen.KernelIdeal.Frame
import proofs.«117899_j51677046505876_2_alg».proof.Proof.RegionPayloads
import Idealize.ShloMosaic.Lib.Pipeline.Value

noncomputable section

open scoped BigOperators

namespace Cert.KernelIdeal.RegionForms

open Cert.KernelIdeal Cert.KernelIdeal.Gen Idealize.ShloMosaic Idealize.ShloMosaic.TcCoe Idealize.SL.Sem
open Idealize.ShloMosaic.Pipeline (Dat)
open Idealize.ShloMosaic.ValueIdx Cert.MatrixViews

-- the buffer contents when a region is entered: every statement below holds for any of them
variable (V : (c : Dev nD) → (b : Ref sig .tc) → Buf (Elt Ideal) ((c : Thread nD τ).loc b))

/-! # Region 3 -/

/-- Region 3's output array as one function of its input arrays, entry by entry. -/
def comb3 (c : Dev nD) : S50000x64.Idx → EReal := fun i =>
  SageLayers.combineProj (mat (V c (Pipeline.arrRef spec3 0))) (colv (V c (Pipeline.arrRef spec3 1)))
    (mat (V c (Pipeline.arrRef spec3 2))) (mat (V c (Pipeline.arrRef spec3 3))) (rowv (V c (Pipeline.arrRef spec3 4))) (i 0) (i 1)

/-! ## Where each window's block sits in its array -/

/-- Window 0 moves with the grid point along the rows. -/
theorem index3_0 : ∀ t : Fin cfg3.N, win3_0.index t (0 : Fin 2) = t.val ∧ win3_0.index t (1 : Fin 2) = 0 :=
  (by decide +kernel : ∀ t : Fin grid3.N, _)

/-- Window 1 moves with the grid point along the rows. -/
theorem index3_1 : ∀ t : Fin cfg3.N, win3_1.index t (0 : Fin 2) = t.val ∧ win3_1.index t (1 : Fin 2) = 0 :=
  (by decide +kernel : ∀ t : Fin grid3.N, _)

/-- Window 2 moves with the grid point along the rows. -/
theorem index3_2 : ∀ t : Fin cfg3.N, win3_2.index t (0 : Fin 2) = t.val ∧ win3_2.index t (1 : Fin 2) = 0 :=
  (by decide +kernel : ∀ t : Fin grid3.N, _)

/-- Window 3 stays at the origin: the whole array at every grid point. -/
theorem index3_3 : ∀ t : Fin cfg3.N, win3_3.index t (0 : Fin 2) = 0 ∧ win3_3.index t (1 : Fin 2) = 0 :=
  (by decide +kernel : ∀ t : Fin grid3.N, _)

/-- Window 4 stays at the origin: the whole array at every grid point. -/
theorem index3_4 : ∀ t : Fin cfg3.N, win3_4.index t (0 : Fin 2) = 0 ∧ win3_4.index t (1 : Fin 2) = 0 :=
  (by decide +kernel : ∀ t : Fin grid3.N, _)

/-- Window 5 moves with the grid point along the rows. -/
theorem index3_5 : ∀ t : Fin cfg3.N, win3_5.index t (0 : Fin 2) = t.val ∧ win3_5.index t (1 : Fin 2) = 0 :=
  (by decide +kernel : ∀ t : Fin grid3.N, _)

/-- Row `p` of window 0's block at grid point `t` is row `5000 t + p` of its array. -/
theorem blk3_0 (c : Dev nD) (t : Fin cfg3.N) (p : Fin 5000) (k : Fin 64) (r : Fin 50000) (hr : r.val = 5000 * t.val + p.val) :
    (iblk3 V c 0 t : Vec Ideal S5000x64 .f32) (ix2 p k) = (V c (Pipeline.arrRef spec3 0) : S50000x64.Idx → EReal) (ix2 r k) := by
  obtain ⟨e0, e1⟩ := index3_0 t
  unfold iblk3
  rw [View.read_apply]
  show V c (Pipeline.arrRef spec3 0) _ = V c (Pipeline.arrRef spec3 0) _
  congr 1
  funext d
  apply Fin.ext
  match d with
  | ⟨0, _⟩ => show win3_0.index t (0 : Fin 2) * 5000 + 1 * p.val = r.val; rw [e0, hr]; omega
  | ⟨1, _⟩ => show win3_0.index t (1 : Fin 2) * 64 + 1 * k.val = k.val; rw [e1]; omega

/-- Entry `p` of window 1's column block at grid point `t` is entry `5000 t + p` of its column. -/
theorem blk3_1 (c : Dev nD) (t : Fin cfg3.N) (p : Fin 5000) (r : Fin 50000) (hr : r.val = 5000 * t.val + p.val) :
    (iblk3 V c 1 t : Vec Ideal S5000x1 .f32) (ix2 p (0 : Fin 1)) = (V c (Pipeline.arrRef spec3 1) : S50000x1.Idx → EReal) (ix2 r (0 : Fin 1)) := by
  obtain ⟨e0, e1⟩ := index3_1 t
  unfold iblk3
  rw [View.read_apply]
  show V c (Pipeline.arrRef spec3 1) _ = V c (Pipeline.arrRef spec3 1) _
  congr 1
  funext d
  apply Fin.ext
  match d with
  | ⟨0, _⟩ => show win3_1.index t (0 : Fin 2) * 5000 + 1 * p.val = r.val; rw [e0, hr]; omega
  | ⟨1, _⟩ => show win3_1.index t (1 : Fin 2) * 1 + 1 * (0 : Fin 1).val = (0 : Fin 1).val; rw [e1]; omega

/-- Row `p` of window 2's block at grid point `t` is row `5000 t + p` of its array. -/
theorem blk3_2 (c : Dev nD) (t : Fin cfg3.N) (p : Fin 5000) (k : Fin 128) (r : Fin 50000) (hr : r.val = 5000 * t.val + p.val) :
    (iblk3 V c 2 t : Vec Ideal S5000x128 .f32) (ix2 p k) = (V c (Pipeline.arrRef spec3 2) : S50000x128.Idx → EReal) (ix2 r k) := by
  obtain ⟨e0, e1⟩ := index3_2 t
  unfold iblk3
  rw [View.read_apply]
  show V c (Pipeline.arrRef spec3 2) _ = V c (Pipeline.arrRef spec3 2) _
  congr 1
  funext d
  apply Fin.ext
  match d with
  | ⟨0, _⟩ => show win3_2.index t (0 : Fin 2) * 5000 + 1 * p.val = r.val; rw [e0, hr]; omega
  | ⟨1, _⟩ => show win3_2.index t (1 : Fin 2) * 128 + 1 * k.val = k.val; rw [e1]; omega

/-- Window 3's block at any grid point is its whole array. -/
theorem blk3_3 (c : Dev nD) (t : Fin cfg3.N) (a : Fin 128) (b : Fin 64) :
    (iblk3 V c 3 t : Vec Ideal S128x64 .f32) (ix2 a b) = (V c (Pipeline.arrRef spec3 3) : S128x64.Idx → EReal) (ix2 a b) := by
  obtain ⟨e0, e1⟩ := index3_3 t
  unfold iblk3
  rw [View.read_apply]
  show V c (Pipeline.arrRef spec3 3) _ = V c (Pipeline.arrRef spec3 3) _
  congr 1
  funext d
  apply Fin.ext
  match d with
  | ⟨0, _⟩ => show win3_3.index t (0 : Fin 2) * 128 + 1 * a.val = a.val; rw [e0]; omega
  | ⟨1, _⟩ => show win3_3.index t (1 : Fin 2) * 64 + 1 * b.val = b.val; rw [e1]; omega

/-- Window 4's block at any grid point is its whole array. -/
theorem blk3_4 (c : Dev nD) (t : Fin cfg3.N) (a : Fin 1) (b : Fin 64) :
    (iblk3 V c 4 t : Vec Ideal S1x64 .f32) (ix2 a b) = (V c (Pipeline.arrRef spec3 4) : S1x64.Idx → EReal) (ix2 a b) := by
  obtain ⟨e0, e1⟩ := index3_4 t
  unfold iblk3
  rw [View.read_apply]
  show V c (Pipeline.arrRef spec3 4) _ = V c (Pipeline.arrRef spec3 4) _
  congr 1
  funext d
  apply Fin.ext
  match d with
  | ⟨0, _⟩ => show win3_4.index t (0 : Fin 2) * 1 + 1 * a.val = a.val; rw [e0]; omega
  | ⟨1, _⟩ => show win3_4.index t (1 : Fin 2) * 64 + 1 * b.val = b.val; rw [e1]; omega

/-! ## What a grid point writes back, and the array after the region -/

/-- What grid point `t` writes back is block `t` of the closed form: entry `(p, q)` of the body's result is the closed
    form at row `5000 t + p` and column `q`, because each operand's block holds exactly the rows and columns read there. -/
theorem flushed3 (c : Dev nD) (t : Fin cfg3.N) :
    (dat3 (F := Ideal) V c).flushed 5 t = ((cfg3.win 5).blk t).view.read (Elt Ideal) (comb3 V c) := by
  obtain ⟨e0, e1⟩ := index3_5 t
  have ht : t.val < 10 := lt_of_lt_of_eq t.isLt N_3
  show (cfg3.win 5).cut (grid3.coords t) ((dat3 V c).after 5 t) = _
  rw [after3_5]
  unfold out3_5
  rw [View.canon_unit_zero zero_offsets]
  simp only [View.ld_unit_zero (S := S5000x64) zero_offsets, View.ld_unit_zero (S := S5000x1) zero_offsets, View.ld_unit_zero (S := S5000x128) zero_offsets, View.ld_unit_zero (S := S128x64) zero_offsets, View.ld_unit_zero (S := S1x64) zero_offsets]
  funext j
  obtain ⟨p, q, rfl⟩ : ∃ (p : Fin 5000) (q : Fin 64), j = ix2 p q := ⟨j 0, j 1, eq_ix2 j⟩
  obtain ⟨r, hr⟩ : ∃ r : Fin 50000, r.val = 5000 * t.val + p.val := ⟨⟨5000 * t.val + p.val, by omega⟩, rfl⟩
  have hemb : ((cfg3.win 5).blk t).view.emb (ix2 p q) = (ix2 r q : S50000x64.Idx) := by
    funext d
    apply Fin.ext
    match d with
    | ⟨0, _⟩ => show win3_5.index t (0 : Fin 2) * 5000 + 1 * p.val = r.val; rw [e0, hr]; omega
    | ⟨1, _⟩ => show win3_5.index t (1 : Fin 2) * 64 + 1 * q.val = q.val; rw [e1]; omega
  show k3_pay1 (iblk3 V c 0 t) (iblk3 V c 1 t) (iblk3 V c 2 t) (iblk3 V c 3 t) (iblk3 V c 4 t) (ix2 p q) = comb3 V c (((cfg3.win 5).blk t).view.emb (ix2 p q))
  rw [hemb, combineProj_block3 (iblk3 V c 0 t) (iblk3 V c 1 t) (iblk3 V c 2 t) (iblk3 V c 3 t) (iblk3 V c 4 t) p q]
  show _ = SageLayers.combineProj (mat (V c (Pipeline.arrRef spec3 0))) (colv (V c (Pipeline.arrRef spec3 1)))
    (mat (V c (Pipeline.arrRef spec3 2))) (mat (V c (Pipeline.arrRef spec3 3))) (rowv (V c (Pipeline.arrRef spec3 4))) r q
  exact combineProj_congr _ _ _ _ _ _ _ _ _ _ p r q q (blk3_0 V c t p q r hr) (blk3_1 V c t p r hr)
    (fun k => blk3_2 V c t p k r hr) (fun k => blk3_3 V c t k q) (blk3_4 V c t 0 q)

/-- An entry of the output array lies in grid point `t`'s block iff each coordinate lies in the block's range. -/
theorem mem_blk3 (t : Fin cfg3.N) (i : S50000x64.Idx) :
    i ∈ ((cfg3.win 5).blk t).view.set ↔ ∀ a : Fin 2, win3_5.index t a * S5000x64.size a ≤ (i a).val
      ∧ (i a).val < win3_5.index t a * S5000x64.size a + S5000x64.size a := by
  show i ∈ ((View.whole main_v0_0).slice (win3_5.rect t)).set ↔ _
  rw [View.set_slice_whole, Rect.mem_set_unit]
  exact Iff.rfl

/-- The blocks cover the array: row `r` lies in the block of grid point `r / 5000`. -/
theorem cover3 (i : S50000x64.Idx) :
    ∃ t : Fin cfg3.N, (cfg3.win 5).flush t = true ∧ i ∈ ((cfg3.win 5).blk t).view.set := by
  have hi0 : (i 0).val < 50000 := (i 0).isLt
  have hi1 : (i 1).val < 64 := (i 1).isLt
  obtain ⟨t, ht⟩ : ∃ t : Fin cfg3.N, t.val = (i 0).val / 5000 :=
    ⟨⟨(i 0).val / 5000, by rw [show cfg3.N = 10 from N_3]; omega⟩, rfl⟩
  obtain ⟨e0, e1⟩ := index3_5 t
  refine ⟨t, flush3_5 t, ?_⟩
  rw [mem_blk3]
  intro a
  match a with
  | ⟨0, _⟩ =>
    show win3_5.index t (0 : Fin 2) * 5000 ≤ (i 0).val ∧ (i 0).val < win3_5.index t (0 : Fin 2) * 5000 + 5000
    rw [e0, ht]; omega
  | ⟨1, _⟩ =>
    show win3_5.index t (1 : Fin 2) * 64 ≤ (i 1).val ∧ (i 1).val < win3_5.index t (1 : Fin 2) * 64 + 64
    rw [e1]; omega

/-- The output array after region 3 is the closed form of the input arrays as the region finds them. -/
theorem final3 (c : Dev nD) : (dat3 (F := Ideal) V c).arrAt 5 cfg3.N = comb3 V c :=
  (dat3 V c).arrAt_eq_of_cover 5 (comb3 V c) (fun t _ => flushed3 V c t) cover3

/-- REGION 3, entry by entry. -/
theorem region3 (c : Dev nD) (r : Fin 50000) (j : Fin 64) :
    (dat3 (F := Ideal) V c).arrAt 5 cfg3.N (ix2 r j)
      = SageLayers.combineProj (mat (V c (Pipeline.arrRef spec3 0))) (colv (V c (Pipeline.arrRef spec3 1)))
    (mat (V c (Pipeline.arrRef spec3 2))) (mat (V c (Pipeline.arrRef spec3 3))) (rowv (V c (Pipeline.arrRef spec3 4))) r j :=
  congrFun (final3 V c) (ix2 r j)

/-! # Region 5 -/

/-- Region 5's output array as one function of its input arrays, entry by entry. -/
def comb5 (c : Dev nD) : S50000x64.Idx → EReal := fun i =>
  SageLayers.combineProj (mat (V c (Pipeline.arrRef spec5 0))) (colv (V c (Pipeline.arrRef spec5 1)))
    (mat (V c (Pipeline.arrRef spec5 2))) (mat (V c (Pipeline.arrRef spec5 3))) (rowv (V c (Pipeline.arrRef spec5 4))) (i 0) (i 1)

/-! ## Where each window's block sits in its array -/

/-- Window 0 moves with the grid point along the rows. -/
theorem index5_0 : ∀ t : Fin cfg5.N, win5_0.index t (0 : Fin 2) = t.val ∧ win5_0.index t (1 : Fin 2) = 0 :=
  (by decide +kernel : ∀ t : Fin grid5.N, _)

/-- Window 1 moves with the grid point along the rows. -/
theorem index5_1 : ∀ t : Fin cfg5.N, win5_1.index t (0 : Fin 2) = t.val ∧ win5_1.index t (1 : Fin 2) = 0 :=
  (by decide +kernel : ∀ t : Fin grid5.N, _)

/-- Window 2 moves with the grid point along the rows. -/
theorem index5_2 : ∀ t : Fin cfg5.N, win5_2.index t (0 : Fin 2) = t.val ∧ win5_2.index t (1 : Fin 2) = 0 :=
  (by decide +kernel : ∀ t : Fin grid5.N, _)

/-- Window 3 stays at the origin: the whole array at every grid point. -/
theorem index5_3 : ∀ t : Fin cfg5.N, win5_3.index t (0 : Fin 2) = 0 ∧ win5_3.index t (1 : Fin 2) = 0 :=
  (by decide +kernel : ∀ t : Fin grid5.N, _)

/-- Window 4 stays at the origin: the whole array at every grid point. -/
theorem index5_4 : ∀ t : Fin cfg5.N, win5_4.index t (0 : Fin 2) = 0 ∧ win5_4.index t (1 : Fin 2) = 0 :=
  (by decide +kernel : ∀ t : Fin grid5.N, _)

/-- Window 5 moves with the grid point along the rows. -/
theorem index5_5 : ∀ t : Fin cfg5.N, win5_5.index t (0 : Fin 2) = t.val ∧ win5_5.index t (1 : Fin 2) = 0 :=
  (by decide +kernel : ∀ t : Fin grid5.N, _)

/-- Row `p` of window 0's block at grid point `t` is row `5000 t + p` of its array. -/
theorem blk5_0 (c : Dev nD) (t : Fin cfg5.N) (p : Fin 5000) (k : Fin 64) (r : Fin 50000) (hr : r.val = 5000 * t.val + p.val) :
    (iblk5 V c 0 t : Vec Ideal S5000x64 .f32) (ix2 p k) = (V c (Pipeline.arrRef spec5 0) : S50000x64.Idx → EReal) (ix2 r k) := by
  obtain ⟨e0, e1⟩ := index5_0 t
  unfold iblk5
  rw [View.read_apply]
  show V c (Pipeline.arrRef spec5 0) _ = V c (Pipeline.arrRef spec5 0) _
  congr 1
  funext d
  apply Fin.ext
  match d with
  | ⟨0, _⟩ => show win5_0.index t (0 : Fin 2) * 5000 + 1 * p.val = r.val; rw [e0, hr]; omega
  | ⟨1, _⟩ => show win5_0.index t (1 : Fin 2) * 64 + 1 * k.val = k.val; rw [e1]; omega

/-- Entry `p` of window 1's column block at grid point `t` is entry `5000 t + p` of its column. -/
theorem blk5_1 (c : Dev nD) (t : Fin cfg5.N) (p : Fin 5000) (r : Fin 50000) (hr : r.val = 5000 * t.val + p.val) :
    (iblk5 V c 1 t : Vec Ideal S5000x1 .f32) (ix2 p (0 : Fin 1)) = (V c (Pipeline.arrRef spec5 1) : S50000x1.Idx → EReal) (ix2 r (0 : Fin 1)) := by
  obtain ⟨e0, e1⟩ := index5_1 t
  unfold iblk5
  rw [View.read_apply]
  show V c (Pipeline.arrRef spec5 1) _ = V c (Pipeline.arrRef spec5 1) _
  congr 1
  funext d
  apply Fin.ext
  match d with
  | ⟨0, _⟩ => show win5_1.index t (0 : Fin 2) * 5000 + 1 * p.val = r.val; rw [e0, hr]; omega
  | ⟨1, _⟩ => show win5_1.index t (1 : Fin 2) * 1 + 1 * (0 : Fin 1).val = (0 : Fin 1).val; rw [e1]; omega

/-- Row `p` of window 2's block at grid point `t` is row `5000 t + p` of its array. -/
theorem blk5_2 (c : Dev nD) (t : Fin cfg5.N) (p : Fin 5000) (k : Fin 128) (r : Fin 50000) (hr : r.val = 5000 * t.val + p.val) :
    (iblk5 V c 2 t : Vec Ideal S5000x128 .f32) (ix2 p k) = (V c (Pipeline.arrRef spec5 2) : S50000x128.Idx → EReal) (ix2 r k) := by
  obtain ⟨e0, e1⟩ := index5_2 t
  unfold iblk5
  rw [View.read_apply]
  show V c (Pipeline.arrRef spec5 2) _ = V c (Pipeline.arrRef spec5 2) _
  congr 1
  funext d
  apply Fin.ext
  match d with
  | ⟨0, _⟩ => show win5_2.index t (0 : Fin 2) * 5000 + 1 * p.val = r.val; rw [e0, hr]; omega
  | ⟨1, _⟩ => show win5_2.index t (1 : Fin 2) * 128 + 1 * k.val = k.val; rw [e1]; omega

/-- Window 3's block at any grid point is its whole array. -/
theorem blk5_3 (c : Dev nD) (t : Fin cfg5.N) (a : Fin 128) (b : Fin 64) :
    (iblk5 V c 3 t : Vec Ideal S128x64 .f32) (ix2 a b) = (V c (Pipeline.arrRef spec5 3) : S128x64.Idx → EReal) (ix2 a b) := by
  obtain ⟨e0, e1⟩ := index5_3 t
  unfold iblk5
  rw [View.read_apply]
  show V c (Pipeline.arrRef spec5 3) _ = V c (Pipeline.arrRef spec5 3) _
  congr 1
  funext d
  apply Fin.ext
  match d with
  | ⟨0, _⟩ => show win5_3.index t (0 : Fin 2) * 128 + 1 * a.val = a.val; rw [e0]; omega
  | ⟨1, _⟩ => show win5_3.index t (1 : Fin 2) * 64 + 1 * b.val = b.val; rw [e1]; omega

/-- Window 4's block at any grid point is its whole array. -/
theorem blk5_4 (c : Dev nD) (t : Fin cfg5.N) (a : Fin 1) (b : Fin 64) :
    (iblk5 V c 4 t : Vec Ideal S1x64 .f32) (ix2 a b) = (V c (Pipeline.arrRef spec5 4) : S1x64.Idx → EReal) (ix2 a b) := by
  obtain ⟨e0, e1⟩ := index5_4 t
  unfold iblk5
  rw [View.read_apply]
  show V c (Pipeline.arrRef spec5 4) _ = V c (Pipeline.arrRef spec5 4) _
  congr 1
  funext d
  apply Fin.ext
  match d with
  | ⟨0, _⟩ => show win5_4.index t (0 : Fin 2) * 1 + 1 * a.val = a.val; rw [e0]; omega
  | ⟨1, _⟩ => show win5_4.index t (1 : Fin 2) * 64 + 1 * b.val = b.val; rw [e1]; omega

/-! ## What a grid point writes back, and the array after the region -/

/-- What grid point `t` writes back is block `t` of the closed form: entry `(p, q)` of the body's result is the closed
    form at row `5000 t + p` and column `q`, because each operand's block holds exactly the rows and columns read there. -/
theorem flushed5 (c : Dev nD) (t : Fin cfg5.N) :
    (dat5 (F := Ideal) V c).flushed 5 t = ((cfg5.win 5).blk t).view.read (Elt Ideal) (comb5 V c) := by
  obtain ⟨e0, e1⟩ := index5_5 t
  have ht : t.val < 10 := lt_of_lt_of_eq t.isLt N_5
  show (cfg5.win 5).cut (grid5.coords t) ((dat5 V c).after 5 t) = _
  rw [after5_5]
  unfold out5_5
  rw [View.canon_unit_zero zero_offsets]
  simp only [View.ld_unit_zero (S := S5000x64) zero_offsets, View.ld_unit_zero (S := S5000x1) zero_offsets, View.ld_unit_zero (S := S5000x128) zero_offsets, View.ld_unit_zero (S := S128x64) zero_offsets, View.ld_unit_zero (S := S1x64) zero_offsets]
  funext j
  obtain ⟨p, q, rfl⟩ : ∃ (p : Fin 5000) (q : Fin 64), j = ix2 p q := ⟨j 0, j 1, eq_ix2 j⟩
  obtain ⟨r, hr⟩ : ∃ r : Fin 50000, r.val = 5000 * t.val + p.val := ⟨⟨5000 * t.val + p.val, by omega⟩, rfl⟩
  have hemb : ((cfg5.win 5).blk t).view.emb (ix2 p q) = (ix2 r q : S50000x64.Idx) := by
    funext d
    apply Fin.ext
    match d with
    | ⟨0, _⟩ => show win5_5.index t (0 : Fin 2) * 5000 + 1 * p.val = r.val; rw [e0, hr]; omega
    | ⟨1, _⟩ => show win5_5.index t (1 : Fin 2) * 64 + 1 * q.val = q.val; rw [e1]; omega
  show k5_pay1 (iblk5 V c 0 t) (iblk5 V c 1 t) (iblk5 V c 2 t) (iblk5 V c 3 t) (iblk5 V c 4 t) (ix2 p q) = comb5 V c (((cfg5.win 5).blk t).view.emb (ix2 p q))
  rw [hemb, combineProj_block5 (iblk5 V c 0 t) (iblk5 V c 1 t) (iblk5 V c 2 t) (iblk5 V c 3 t) (iblk5 V c 4 t) p q]
  show _ = SageLayers.combineProj (mat (V c (Pipeline.arrRef spec5 0))) (colv (V c (Pipeline.arrRef spec5 1)))
    (mat (V c (Pipeline.arrRef spec5 2))) (mat (V c (Pipeline.arrRef spec5 3))) (rowv (V c (Pipeline.arrRef spec5 4))) r q
  exact combineProj_congr _ _ _ _ _ _ _ _ _ _ p r q q (blk5_0 V c t p q r hr) (blk5_1 V c t p r hr)
    (fun k => blk5_2 V c t p k r hr) (fun k => blk5_3 V c t k q) (blk5_4 V c t 0 q)

/-- An entry of the output array lies in grid point `t`'s block iff each coordinate lies in the block's range. -/
theorem mem_blk5 (t : Fin cfg5.N) (i : S50000x64.Idx) :
    i ∈ ((cfg5.win 5).blk t).view.set ↔ ∀ a : Fin 2, win5_5.index t a * S5000x64.size a ≤ (i a).val
      ∧ (i a).val < win5_5.index t a * S5000x64.size a + S5000x64.size a := by
  show i ∈ ((View.whole main_v0_1).slice (win5_5.rect t)).set ↔ _
  rw [View.set_slice_whole, Rect.mem_set_unit]
  exact Iff.rfl

/-- The blocks cover the array: row `r` lies in the block of grid point `r / 5000`. -/
theorem cover5 (i : S50000x64.Idx) :
    ∃ t : Fin cfg5.N, (cfg5.win 5).flush t = true ∧ i ∈ ((cfg5.win 5).blk t).view.set := by
  have hi0 : (i 0).val < 50000 := (i 0).isLt
  have hi1 : (i 1).val < 64 := (i 1).isLt
  obtain ⟨t, ht⟩ : ∃ t : Fin cfg5.N, t.val = (i 0).val / 5000 :=
    ⟨⟨(i 0).val / 5000, by rw [show cfg5.N = 10 from N_5]; omega⟩, rfl⟩
  obtain ⟨e0, e1⟩ := index5_5 t
  refine ⟨t, flush5_5 t, ?_⟩
  rw [mem_blk5]
  intro a
  match a with
  | ⟨0, _⟩ =>
    show win5_5.index t (0 : Fin 2) * 5000 ≤ (i 0).val ∧ (i 0).val < win5_5.index t (0 : Fin 2) * 5000 + 5000
    rw [e0, ht]; omega
  | ⟨1, _⟩ =>
    show win5_5.index t (1 : Fin 2) * 64 ≤ (i 1).val ∧ (i 1).val < win5_5.index t (1 : Fin 2) * 64 + 64
    rw [e1]; omega

/-- The output array after region 5 is the closed form of the input arrays as the region finds them. -/
theorem final5 (c : Dev nD) : (dat5 (F := Ideal) V c).arrAt 5 cfg5.N = comb5 V c :=
  (dat5 V c).arrAt_eq_of_cover 5 (comb5 V c) (fun t _ => flushed5 V c t) cover5

/-- REGION 5, entry by entry. -/
theorem region5 (c : Dev nD) (r : Fin 50000) (j : Fin 64) :
    (dat5 (F := Ideal) V c).arrAt 5 cfg5.N (ix2 r j)
      = SageLayers.combineProj (mat (V c (Pipeline.arrRef spec5 0))) (colv (V c (Pipeline.arrRef spec5 1)))
    (mat (V c (Pipeline.arrRef spec5 2))) (mat (V c (Pipeline.arrRef spec5 3))) (rowv (V c (Pipeline.arrRef spec5 4))) r j :=
  congrFun (final5 V c) (ix2 r j)

end Cert.KernelIdeal.RegionForms

end
-- ==== Proof.SageNetwork.lean ====
/-
  The two-layer, two-sided network, entry by entry, in its two arrangements, and their equality for real inputs.

  Side s receives edges whose sources are rows of side t, and side t receives edges whose sources are rows of side s.
  Layer 1 makes new rows for both sides from the old rows of both; layer 2 makes the results from the new rows.
  In the first arrangement every layer divides the neighbour sums by the clamped edge count and then applies the
  neighbour weights; in the second, layer 1 scales by the inverse count and layer 2 applies the neighbour weights to
  every row before summing over the edges.  Layer 1 agrees on all extended reals; layer 2 agrees because layer 1's
  rows of real inputs are real.
-/
import proofs.«117899_j51677046505876_2_alg».proof.Proof.SageLayers

noncomputable section

namespace SageNetwork

open Sage SageLayers

variable {N Eg D C : ℕ}

section
variable (aimS aimT : Fin Eg → Fin N → Prop) [∀ e n, Decidable (aimS e n)] [∀ e n, Decidable (aimT e n)]
  (srcS srcT : Fin Eg → Fin N) (xs xt : Fin N → Fin D → EReal)
  (W1sl W1sr W1tl W1tr : Fin D → Fin D → EReal) (b1s b1t : Fin D → EReal)
  (W2sl W2sr W2tl W2tr : Fin D → Fin C → EReal) (b2s b2t : Fin C → EReal)

/-- Layer 1, side s, dividing by the clamped count. -/
def meanH1s : Fin N → Fin D → EReal := meanConv (nsum aimS srcS xt) (deg aimS) xs W1sl W1sr b1s
/-- Layer 1, side t, dividing by the clamped count. -/
def meanH1t : Fin N → Fin D → EReal := meanConv (nsum aimT srcT xs) (deg aimT) xt W1tl W1tr b1t
/-- Layer 2, side s, dividing by the clamped count. -/
def meanZs : Fin N → Fin C → EReal :=
  meanConv (nsum aimS srcS (meanH1t aimT srcT xs xt W1tl W1tr b1t)) (deg aimS)
    (meanH1s aimS srcS xs xt W1sl W1sr b1s) W2sl W2sr b2s
/-- Layer 2, side t, dividing by the clamped count. -/
def meanZt : Fin N → Fin C → EReal :=
  meanConv (nsum aimT srcT (meanH1s aimS srcS xs xt W1sl W1sr b1s)) (deg aimT)
    (meanH1t aimT srcT xs xt W1tl W1tr b1t) W2tl W2tr b2t

/-- Layer 1, side s, scaling by the inverse count. -/
def scaledH1s : Fin N → Fin D → EReal := combineFull (nsum aimS srcS xt) (invdeg aimS) xs W1sl W1sr b1s
/-- Layer 1, side t, scaling by the inverse count. -/
def scaledH1t : Fin N → Fin D → EReal := combineFull (nsum aimT srcT xs) (invdeg aimT) xt W1tl W1tr b1t
/-- Layer 2, side s, neighbour weights applied before the edge sum. -/
def projectedZs : Fin N → Fin C → EReal :=
  combineProj (nsum aimS srcS (lin (scaledH1t aimT srcT xs xt W1tl W1tr b1t) W2sl)) (invdeg aimS)
    (scaledH1s aimS srcS xs xt W1sl W1sr b1s) W2sr b2s
/-- Layer 2, side t, neighbour weights applied before the edge sum. -/
def projectedZt : Fin N → Fin C → EReal :=
  combineProj (nsum aimT srcT (lin (scaledH1s aimS srcS xs xt W1sl W1sr b1s) W2tl)) (invdeg aimT)
    (scaledH1t aimT srcT xs xt W1tl W1tr b1t) W2tr b2t

theorem meanH1s_eq : meanH1s aimS srcS xs xt W1sl W1sr b1s = scaledH1s aimS srcS xs xt W1sl W1sr b1s := by
  funext i j; exact meanConv_eq_combineFull aimS _ _ _ _ _ i j

theorem meanH1t_eq : meanH1t aimT srcT xs xt W1tl W1tr b1t = scaledH1t aimT srcT xs xt W1tl W1tr b1t := by
  funext i j; exact meanConv_eq_combineFull aimT _ _ _ _ _ i j

variable (hxs : ∀ n d, IsReal (xs n d)) (hxt : ∀ n d, IsReal (xt n d))
  (hW1sl : ∀ k j, IsReal (W1sl k j)) (hW1sr : ∀ k j, IsReal (W1sr k j))
  (hW1tl : ∀ k j, IsReal (W1tl k j)) (hW1tr : ∀ k j, IsReal (W1tr k j))
  (hb1s : ∀ j, IsReal (b1s j)) (hb1t : ∀ j, IsReal (b1t j))
  (hW2sl : ∀ k j, IsReal (W2sl k j)) (hW2tl : ∀ k j, IsReal (W2tl k j))

include hxs hxt hW1sl hW1sr hb1s in
/-- Layer 1's rows of side s are real for real inputs. -/
theorem isReal_scaledH1s (i : Fin N) (k : Fin D) : IsReal (scaledH1s aimS srcS xs xt W1sl W1sr b1s i k) :=
  isReal_combineFull _ _ _ _ _ _ (isReal_nsum aimS srcS xt hxt) (isReal_invdeg aimS) hxs hW1sl hW1sr hb1s i k

include hxs hxt hW1tl hW1tr hb1t in
/-- Layer 1's rows of side t are real for real inputs. -/
theorem isReal_scaledH1t (i : Fin N) (k : Fin D) : IsReal (scaledH1t aimT srcT xs xt W1tl W1tr b1t i k) :=
  isReal_combineFull _ _ _ _ _ _ (isReal_nsum aimT srcT xs hxs) (isReal_invdeg aimT) hxt hW1tl hW1tr hb1t i k

include hxs hxt hW1tl hW1tr hb1t hW2sl in
/-- Side s: the two arrangements of the whole network agree. -/
theorem meanZs_eq (i : Fin N) (j : Fin C) :
    meanZs aimS aimT srcS srcT xs xt W1sl W1sr W1tl W1tr b1s b1t W2sl W2sr b2s i j
      = projectedZs aimS aimT srcS srcT xs xt W1sl W1sr W1tl W1tr b1s b1t W2sl W2sr b2s i j := by
  unfold meanZs projectedZs
  rw [meanH1s_eq, meanH1t_eq]
  exact meanConv_eq_combineProj aimS srcS _ _ W2sl W2sr b2s
    (isReal_scaledH1t aimT srcT xs xt W1tl W1tr b1t hxs hxt hW1tl hW1tr hb1t) hW2sl i j

include hxs hxt hW1sl hW1sr hb1s hW2tl in
/-- Side t: the two arrangements of the whole network agree. -/
theorem meanZt_eq (i : Fin N) (j : Fin C) :
    meanZt aimS aimT srcS srcT xs xt W1sl W1sr W1tl W1tr b1s b1t W2tl W2tr b2t i j
      = projectedZt aimS aimT srcS srcT xs xt W1sl W1sr W1tl W1tr b1s b1t W2tl W2tr b2t i j := by
  unfold meanZt projectedZt
  rw [meanH1s_eq, meanH1t_eq]
  exact meanConv_eq_combineProj aimT srcT _ _ W2tl W2tr b2t
    (isReal_scaledH1s aimS srcS xs xt W1sl W1sr b1s hxs hxt hW1sl hW1sr hb1s) hW2tl i j

end

end SageNetwork

end
-- ==== Proof.KernelFold.lean ====
/-
  The kernel's fold composed: its two results, entry by entry, as the two-layer network in its second arrangement.

  The kernel's program alternates stretches of whole-array stages with six tiled regions.  A buffer's contents at a
  boundary of the program are followed back one step at a time: a stretch that does not write the buffer, a region
  none of whose arrays it is, and a region that only reads it all leave it as it was; a stretch that writes it leaves
  the named stage of the contents before; a region whose output it is leaves the region's closed form of its inputs.
  Followed back to the launch, side s's new rows are the first layer scaled by the inverse degree, side t's likewise,
  each projection is a side's new rows times the neighbour weights of the other side's second layer, the second
  gather-and-add sums the projected rows over the edges, and the last two combining regions add the own rows times the
  own weights and the bias: the two results are the second arrangement of the network on the launch arrays.
-/
import proofs.«117899_j51677046505876_2_alg».proof.Proof.KernelStages
import proofs.«117899_j51677046505876_2_alg».proof.Proof.KernelPasses
import proofs.«117899_j51677046505876_2_alg».proof.Proof.RegionCombine
import proofs.«117899_j51677046505876_2_alg».proof.Proof.RegionProject
import proofs.«117899_j51677046505876_2_alg».proof.Proof.RegionCombineProjected
import proofs.«117899_j51677046505876_2_alg».proof.Proof.Gen.KernelIdeal.Frame
import proofs.«117899_j51677046505876_2_alg».proof.Proof.HostStages
import proofs.«117899_j51677046505876_2_alg».proof.Proof.SageNetwork
import proofs.«117899_j51677046505876_2_alg».proof.Proof.MatrixViews

set_option maxRecDepth 16384

noncomputable section

namespace Cert.KernelIdeal.Fold

open Cert.KernelIdeal Cert.KernelIdeal.Gen Cert.KernelIdeal.RegionForms
open Idealize.ShloMosaic Idealize.ShloMosaic.TcCoe Idealize.ShloMosaic.Tactic Idealize.SL.Sem
open Idealize.ShloMosaic.ValueIdx Cert.MatrixViews
open HostStages EdgeStage Sage SageLayers SageNetwork

variable (m : (ℓ : Loc nD τ sig) → Buf (Elt Ideal) ℓ) (ρ : Dev nD → PrngReg) (c : Dev nD)

-- a buffer of the TensorCore as a device buffer
local notation "⟪" b "⟫" => Proc.devRef Proc.tc b

-- the launch contents of a buffer
set_option quotPrecheck false in
local notation "𝐚[" b "]" => m ((c : Thread nD τ).loc b)

-- side s's new rows and side t's new rows, as functions of the launch arrays: the first layer scaled by the
-- inverse degree (side s is aimed at by the edges of main_arg3, whose sources are rows of side t; side t by
-- those of main_arg2, whose sources are rows of side s)
set_option quotPrecheck false in
local notation "𝐇𝐬" => scaledH1s (aims (tgt 𝐚[main_arg3])) (src nodes_pos (sco 𝐚[main_arg3])) (mat 𝐚[main_arg0])
  (mat 𝐚[main_arg1]) (mat 𝐚[main_arg4]) (mat 𝐚[main_arg5]) (vec 𝐚[main_arg6])
set_option quotPrecheck false in
local notation "𝐇𝐭" => scaledH1t (aims (tgt 𝐚[main_arg2])) (src nodes_pos (sco 𝐚[main_arg2])) (mat 𝐚[main_arg0])
  (mat 𝐚[main_arg1]) (mat 𝐚[main_arg7]) (mat 𝐚[main_arg8]) (vec 𝐚[main_arg9])

/-! ## After the first stretch: the edge lists taken apart, the inverse degrees, side t's rows summed, the bias row -/

theorem arg0_1 : W1 m ρ c ⟪main_arg0⟫ = 𝐚[main_arg0] := pass_arg0_1_0 m ρ c
theorem arg4_1 : W1 m ρ c ⟪main_arg4⟫ = 𝐚[main_arg4] := pass_arg4_1_0 m ρ c
theorem arg5_1 : W1 m ρ c ⟪main_arg5⟫ = 𝐚[main_arg5] := pass_arg5_1_0 m ρ c

/-- Side s's edge list, source words. -/
theorem v1_1 : W1 m ρ c ⟪main_call0_v1⟫ = row0 𝐚[main_arg3] := h0_v1 (W0 m ρ c)
/-- Side s's edge list, target words. -/
theorem v3_1 : W1 m ρ c ⟪main_call0_v3⟫ = row1 𝐚[main_arg3] := h0_v3 (W0 m ρ c)
/-- Side t's edge list, source words. -/
theorem v5_1 : W1 m ρ c ⟪main_call0_v5⟫ = row0 𝐚[main_arg2] := h0_v5 (W0 m ρ c)
/-- Side t's edge list, target words. -/
theorem v7_1 : W1 m ρ c ⟪main_call0_v7⟫ = row1 𝐚[main_arg2] := h0_v7 (W0 m ρ c)
/-- Side s's inverse clamped degrees. -/
theorem v16_1 : W1 m ρ c ⟪main_call0_v16⟫ = invDeg (tgt 𝐚[main_arg3]) := h0_v16 (W0 m ρ c)
/-- Side t's inverse clamped degrees. -/
theorem v25_1 : W1 m ρ c ⟪main_call0_v25⟫ = invDeg (tgt 𝐚[main_arg2]) := h0_v25 (W0 m ρ c)
/-- Side t's rows summed over side s's incoming edges. -/
theorem v35_1 : W1 m ρ c ⟪main_call0_v35⟫ = agg128 𝐚[main_arg1] (sco 𝐚[main_arg3]) (tgt 𝐚[main_arg3]) :=
  h0_v35 (W0 m ρ c)
/-- Side s's first bias as a row. -/
theorem v36_1 : W1 m ρ c ⟪main_call0_v36⟫ = biasRow shapeCasts_S128_S1x128 𝐚[main_arg6] := h0_v36 (W0 m ρ c)

/-! ## Region 0: side s's new rows -/

/-- Side s's new rows: the first layer scaled by the inverse degree. -/
theorem rows_s (r : Fin 50000) (k : Fin 128) :
    (W2 m ρ c ⟪main_call0_v37⟫ : S50000x128.Idx → EReal) (ix2 r k) = 𝐇𝐬 r k := by
  refine (congrFun (W2_arr m ρ c 6) (ix2 r k)).trans ((region0 (V1 m ρ) c r k).trans ?_)
  have e0 : mat (V1 m ρ c (Pipeline.arrRef spec0 0))
      = nsum (aims (tgt 𝐚[main_arg3])) (src nodes_pos (sco 𝐚[main_arg3])) (mat 𝐚[main_arg1]) :=
    funext fun a => funext fun b =>
      (congrFun (v35_1 m ρ c) (ix2 a b)).trans (aggregate_apply nodes_pos _ _ _ _ _ _ a b)
  have e1 : colv (V1 m ρ c (Pipeline.arrRef spec0 1)) = invdeg (aims (tgt 𝐚[main_arg3])) :=
    funext fun a => (congrFun (v16_1 m ρ c) (ix2 a (0 : Fin 1))).trans (inverseDegree_apply _ _ _ _ _ a)
  have e2 : mat (V1 m ρ c (Pipeline.arrRef spec0 2)) = mat 𝐚[main_arg0] := congrArg mat (arg0_1 m ρ c)
  have e3 : mat (V1 m ρ c (Pipeline.arrRef spec0 3)) = mat 𝐚[main_arg4] := congrArg mat (arg4_1 m ρ c)
  have e4 : mat (V1 m ρ c (Pipeline.arrRef spec0 4)) = mat 𝐚[main_arg5] := congrArg mat (arg5_1 m ρ c)
  have e5 : rowv (V1 m ρ c (Pipeline.arrRef spec0 5)) = vec 𝐚[main_arg6] :=
    funext fun j => (congrFun (v36_1 m ρ c) (ix2 (0 : Fin 1) j)).trans (biasRow_apply _ _ 0 j)
  rw [e0, e1, e2, e3, e4, e5]
  rfl

/-! ## After the second stretch: side s's rows summed, the bias row -/

theorem arg0_2 : W2 m ρ c ⟪main_arg0⟫ = 𝐚[main_arg0] := pass_arg0_2_0 m ρ c
theorem arg9_2 : W2 m ρ c ⟪main_arg9⟫ = 𝐚[main_arg9] := pass_arg9_2_0 m ρ c
theorem v5_2 : W2 m ρ c ⟪main_call0_v5⟫ = row0 𝐚[main_arg2] := (pass_v5_2_1 m ρ c).trans (v5_1 m ρ c)
theorem v7_2 : W2 m ρ c ⟪main_call0_v7⟫ = row1 𝐚[main_arg2] := (pass_v7_2_1 m ρ c).trans (v7_1 m ρ c)

/-- Side s's rows summed over side t's incoming edges. -/
theorem v47_3 : W3 m ρ c ⟪main_call0_v47⟫ = agg128 𝐚[main_arg0] (sco 𝐚[main_arg2]) (tgt 𝐚[main_arg2]) :=
  (h1_v47 (W2 m ρ c)).trans (by rw [arg0_2 m ρ c, v5_2 m ρ c, v7_2 m ρ c])
/-- Side t's first bias as a row. -/
theorem v48_3 : W3 m ρ c ⟪main_call0_v48⟫ = biasRow shapeCasts_S128_S1x128 𝐚[main_arg9] :=
  (h1_v48 (W2 m ρ c)).trans (by rw [arg9_2 m ρ c])

theorem v25_3 : W3 m ρ c ⟪main_call0_v25⟫ = invDeg (tgt 𝐚[main_arg2]) := (pass_v25_3_1 m ρ c).trans (v25_1 m ρ c)
theorem arg1_3 : W3 m ρ c ⟪main_arg1⟫ = 𝐚[main_arg1] := pass_arg1_3_0 m ρ c
theorem arg7_3 : W3 m ρ c ⟪main_arg7⟫ = 𝐚[main_arg7] := pass_arg7_3_0 m ρ c
theorem arg8_3 : W3 m ρ c ⟪main_arg8⟫ = 𝐚[main_arg8] := pass_arg8_3_0 m ρ c

/-! ## Region 1: side t's new rows -/

/-- Side t's new rows: the first layer scaled by the inverse degree. -/
theorem rows_t (r : Fin 50000) (k : Fin 128) :
    (W4 m ρ c ⟪main_call0_v49⟫ : S50000x128.Idx → EReal) (ix2 r k) = 𝐇𝐭 r k := by
  refine (congrFun (W4_arr m ρ c 6) (ix2 r k)).trans ((region1 (V3 m ρ) c r k).trans ?_)
  have e0 : mat (V3 m ρ c (Pipeline.arrRef spec1 0))
      = nsum (aims (tgt 𝐚[main_arg2])) (src nodes_pos (sco 𝐚[main_arg2])) (mat 𝐚[main_arg0]) :=
    funext fun a => funext fun b =>
      (congrFun (v47_3 m ρ c) (ix2 a b)).trans (aggregate_apply nodes_pos _ _ _ _ _ _ a b)
  have e1 : colv (V3 m ρ c (Pipeline.arrRef spec1 1)) = invdeg (aims (tgt 𝐚[main_arg2])) :=
    funext fun a => (congrFun (v25_3 m ρ c) (ix2 a (0 : Fin 1))).trans (inverseDegree_apply _ _ _ _ _ a)
  have e2 : mat (V3 m ρ c (Pipeline.arrRef spec1 2)) = mat 𝐚[main_arg1] := congrArg mat (arg1_3 m ρ c)
  have e3 : mat (V3 m ρ c (Pipeline.arrRef spec1 3)) = mat 𝐚[main_arg7] := congrArg mat (arg7_3 m ρ c)
  have e4 : mat (V3 m ρ c (Pipeline.arrRef spec1 4)) = mat 𝐚[main_arg8] := congrArg mat (arg8_3 m ρ c)
  have e5 : rowv (V3 m ρ c (Pipeline.arrRef spec1 5)) = vec 𝐚[main_arg9] :=
    funext fun j => (congrFun (v48_3 m ρ c) (ix2 (0 : Fin 1) j)).trans (biasRow_apply _ _ 0 j)
  rw [e0, e1, e2, e3, e4, e5]
  rfl

/-! ## Region 2: side t's new rows times side s's second neighbour weights -/

theorem arg10_4 : W4 m ρ c ⟪main_arg10⟫ = 𝐚[main_arg10] := pass_arg10_4_0 m ρ c

/-- Side t's new rows projected. -/
theorem proj_t (r : Fin 50000) (j : Fin 64) :
    (W5 m ρ c ⟪main_call0_v50⟫ : S50000x64.Idx → EReal) (ix2 r j) = lin 𝐇𝐭 (mat 𝐚[main_arg10]) r j := by
  refine (congrFun (W5_arr m ρ c 2) (ix2 r j)).trans ((region2 (V4 m ρ) c r j).trans ?_)
  have e0 : mat (V4 m ρ c (Pipeline.arrRef spec2 0)) = 𝐇𝐭 := funext fun a => funext fun b => rows_t m ρ c a b
  have e1 : mat (V4 m ρ c (Pipeline.arrRef spec2 1)) = mat 𝐚[main_arg10] := congrArg mat (arg10_4 m ρ c)
  rw [e0, e1]

/-! ## After the third stretch: the projected rows summed over side s's incoming edges, the bias row -/

theorem v1_5 : W5 m ρ c ⟪main_call0_v1⟫ = row0 𝐚[main_arg3] := (pass_v1_5_1 m ρ c).trans (v1_1 m ρ c)
theorem v3_5 : W5 m ρ c ⟪main_call0_v3⟫ = row1 𝐚[main_arg3] := (pass_v3_5_1 m ρ c).trans (v3_1 m ρ c)
theorem arg12_5 : W5 m ρ c ⟪main_arg12⟫ = 𝐚[main_arg12] := pass_arg12_5_0 m ρ c

theorem v60_6 : W6 m ρ c ⟪main_call0_v60⟫
    = agg64 (W5 m ρ c ⟪main_call0_v50⟫) (sco 𝐚[main_arg3]) (tgt 𝐚[main_arg3]) :=
  (h3_v60 (W5 m ρ c)).trans (by rw [v1_5 m ρ c, v3_5 m ρ c])
/-- Side s's second bias as a row. -/
theorem v61_6 : W6 m ρ c ⟪main_call0_v61⟫ = biasRow shapeCasts_S64_S1x64 𝐚[main_arg12] :=
  (h3_v61 (W5 m ρ c)).trans (by rw [arg12_5 m ρ c])

/-- Side t's projected new rows summed over side s's incoming edges. -/
theorem summed_s (n : Fin 50000) (j : Fin 64) :
    (W6 m ρ c ⟪main_call0_v60⟫ : S50000x64.Idx → EReal) (ix2 n j)
      = nsum (aims (tgt 𝐚[main_arg3])) (src nodes_pos (sco 𝐚[main_arg3])) (lin 𝐇𝐭 (mat 𝐚[main_arg10])) n j := by
  refine (congrFun (v60_6 m ρ c) (ix2 n j)).trans ((aggregate_apply nodes_pos _ _ _ _ _ _ n j).trans ?_)
  exact congrArg (fun h => nsum (aims (tgt 𝐚[main_arg3])) (src nodes_pos (sco 𝐚[main_arg3])) h n j)
    (funext fun a => funext fun b => proj_t m ρ c a b)

theorem v16_6 : W6 m ρ c ⟪main_call0_v16⟫ = invDeg (tgt 𝐚[main_arg3]) := (pass_v16_6_1 m ρ c).trans (v16_1 m ρ c)
theorem arg11_6 : W6 m ρ c ⟪main_arg11⟫ = 𝐚[main_arg11] := pass_arg11_6_0 m ρ c
theorem v37_6 (r : Fin 50000) (k : Fin 128) :
    (W6 m ρ c ⟪main_call0_v37⟫ : S50000x128.Idx → EReal) (ix2 r k) = 𝐇𝐬 r k :=
  (congrFun (pass_v37_6_2 m ρ c) (ix2 r k)).trans (rows_s m ρ c r k)

/-! ## Region 3: the first result -/

/-- The first result where region 3 leaves it. -/
theorem zs_7 (n : Fin 50000) (j : Fin 64) :
    (W7 m ρ c ⟪main_v0_0⟫ : S50000x64.Idx → EReal) (ix2 n j)
      = projectedZs (aims (tgt 𝐚[main_arg3])) (aims (tgt 𝐚[main_arg2])) (src nodes_pos (sco 𝐚[main_arg3]))
          (src nodes_pos (sco 𝐚[main_arg2])) (mat 𝐚[main_arg0]) (mat 𝐚[main_arg1]) (mat 𝐚[main_arg4]) (mat 𝐚[main_arg5])
          (mat 𝐚[main_arg7]) (mat 𝐚[main_arg8]) (vec 𝐚[main_arg6]) (vec 𝐚[main_arg9]) (mat 𝐚[main_arg10])
          (mat 𝐚[main_arg11]) (vec 𝐚[main_arg12]) n j := by
  refine (congrFun (W7_arr m ρ c 5) (ix2 n j)).trans ((region3 (V6 m ρ) c n j).trans ?_)
  have e0 : mat (V6 m ρ c (Pipeline.arrRef spec3 0))
      = nsum (aims (tgt 𝐚[main_arg3])) (src nodes_pos (sco 𝐚[main_arg3])) (lin 𝐇𝐭 (mat 𝐚[main_arg10])) :=
    funext fun a => funext fun b => summed_s m ρ c a b
  have e1 : colv (V6 m ρ c (Pipeline.arrRef spec3 1)) = invdeg (aims (tgt 𝐚[main_arg3])) :=
    funext fun a => (congrFun (v16_6 m ρ c) (ix2 a (0 : Fin 1))).trans (inverseDegree_apply _ _ _ _ _ a)
  have e2 : mat (V6 m ρ c (Pipeline.arrRef spec3 2)) = 𝐇𝐬 := funext fun a => funext fun b => v37_6 m ρ c a b
  have e3 : mat (V6 m ρ c (Pipeline.arrRef spec3 3)) = mat 𝐚[main_arg11] := congrArg mat (arg11_6 m ρ c)
  have e4 : rowv (V6 m ρ c (Pipeline.arrRef spec3 4)) = vec 𝐚[main_arg12] :=
    funext fun q => (congrFun (v61_6 m ρ c) (ix2 (0 : Fin 1) q)).trans (biasRow_apply _ _ 0 q)
  rw [e0, e1, e2, e3, e4]
  rfl

/-- THE FIRST RESULT, entry by entry: side s of the network's second arrangement on the launch arrays. -/
theorem kernel_zs (n : Fin 50000) (j : Fin 64) :
    (W10 m ρ c ⟪main_v0_0⟫ : S50000x64.Idx → EReal) (ix2 n j)
      = projectedZs (aims (tgt 𝐚[main_arg3])) (aims (tgt 𝐚[main_arg2])) (src nodes_pos (sco 𝐚[main_arg3]))
          (src nodes_pos (sco 𝐚[main_arg2])) (mat 𝐚[main_arg0]) (mat 𝐚[main_arg1]) (mat 𝐚[main_arg4]) (mat 𝐚[main_arg5])
          (mat 𝐚[main_arg7]) (mat 𝐚[main_arg8]) (vec 𝐚[main_arg6]) (vec 𝐚[main_arg9]) (mat 𝐚[main_arg10])
          (mat 𝐚[main_arg11]) (vec 𝐚[main_arg12]) n j :=
  (congrFun (pass_v0_0_10_7 m ρ c) (ix2 n j)).trans (zs_7 m ρ c n j)

/-! ## Region 4: side s's new rows times side t's second neighbour weights -/

theorem arg13_7 : W7 m ρ c ⟪main_arg13⟫ = 𝐚[main_arg13] := pass_arg13_7_0 m ρ c
theorem v37_7 (r : Fin 50000) (k : Fin 128) :
    (W7 m ρ c ⟪main_call0_v37⟫ : S50000x128.Idx → EReal) (ix2 r k) = 𝐇𝐬 r k :=
  (congrFun (pass_v37_7_2 m ρ c) (ix2 r k)).trans (rows_s m ρ c r k)

/-- Side s's new rows projected. -/
theorem proj_s (r : Fin 50000) (j : Fin 64) :
    (W8 m ρ c ⟪main_call0_v63⟫ : S50000x64.Idx → EReal) (ix2 r j) = lin 𝐇𝐬 (mat 𝐚[main_arg13]) r j := by
  refine (congrFun (W8_arr m ρ c 2) (ix2 r j)).trans ((region4 (V7 m ρ) c r j).trans ?_)
  have e0 : mat (V7 m ρ c (Pipeline.arrRef spec4 0)) = 𝐇𝐬 := funext fun a => funext fun b => v37_7 m ρ c a b
  have e1 : mat (V7 m ρ c (Pipeline.arrRef spec4 1)) = mat 𝐚[main_arg13] := congrArg mat (arg13_7 m ρ c)
  rw [e0, e1]

/-! ## After the fourth stretch: the projected rows summed over side t's incoming edges, the bias row -/

theorem v5_8 : W8 m ρ c ⟪main_call0_v5⟫ = row0 𝐚[main_arg2] := (pass_v5_8_1 m ρ c).trans (v5_1 m ρ c)
theorem v7_8 : W8 m ρ c ⟪main_call0_v7⟫ = row1 𝐚[main_arg2] := (pass_v7_8_1 m ρ c).trans (v7_1 m ρ c)
theorem arg15_8 : W8 m ρ c ⟪main_arg15⟫ = 𝐚[main_arg15] := pass_arg15_8_0 m ρ c

theorem v73_9 : W9 m ρ c ⟪main_call0_v73⟫
    = agg64 (W8 m ρ c ⟪main_call0_v63⟫) (sco 𝐚[main_arg2]) (tgt 𝐚[main_arg2]) :=
  (h5_v73 (W8 m ρ c)).trans (by rw [v5_8 m ρ c, v7_8 m ρ c])
/-- Side t's second bias as a row. -/
theorem v74_9 : W9 m ρ c ⟪main_call0_v74⟫ = biasRow shapeCasts_S64_S1x64 𝐚[main_arg15] :=
  (h5_v74 (W8 m ρ c)).trans (by rw [arg15_8 m ρ c])

/-- Side s's projected new rows summed over side t's incoming edges. -/
theorem summed_t (n : Fin 50000) (j : Fin 64) :
    (W9 m ρ c ⟪main_call0_v73⟫ : S50000x64.Idx → EReal) (ix2 n j)
      = nsum (aims (tgt 𝐚[main_arg2])) (src nodes_pos (sco 𝐚[main_arg2])) (lin 𝐇𝐬 (mat 𝐚[main_arg13])) n j := by
  refine (congrFun (v73_9 m ρ c) (ix2 n j)).trans ((aggregate_apply nodes_pos _ _ _ _ _ _ n j).trans ?_)
  exact congrArg (fun h => nsum (aims (tgt 𝐚[main_arg2])) (src nodes_pos (sco 𝐚[main_arg2])) h n j)
    (funext fun a => funext fun b => proj_s m ρ c a b)

theorem v25_9 : W9 m ρ c ⟪main_call0_v25⟫ = invDeg (tgt 𝐚[main_arg2]) := (pass_v25_9_1 m ρ c).trans (v25_1 m ρ c)
theorem arg14_9 : W9 m ρ c ⟪main_arg14⟫ = 𝐚[main_arg14] := pass_arg14_9_0 m ρ c
theorem v49_9 (r : Fin 50000) (k : Fin 128) :
    (W9 m ρ c ⟪main_call0_v49⟫ : S50000x128.Idx → EReal) (ix2 r k) = 𝐇𝐭 r k :=
  (congrFun (pass_v49_9_4 m ρ c) (ix2 r k)).trans (rows_t m ρ c r k)

/-! ## Region 5: the second result -/

/-- THE SECOND RESULT, entry by entry: side t of the network's second arrangement on the launch arrays. -/
theorem kernel_zt (n : Fin 50000) (j : Fin 64) :
    (W10 m ρ c ⟪main_v0_1⟫ : S50000x64.Idx → EReal) (ix2 n j)
      = projectedZt (aims (tgt 𝐚[main_arg3])) (aims (tgt 𝐚[main_arg2])) (src nodes_pos (sco 𝐚[main_arg3]))
          (src nodes_pos (sco 𝐚[main_arg2])) (mat 𝐚[main_arg0]) (mat 𝐚[main_arg1]) (mat 𝐚[main_arg4]) (mat 𝐚[main_arg5])
          (mat 𝐚[main_arg7]) (mat 𝐚[main_arg8]) (vec 𝐚[main_arg6]) (vec 𝐚[main_arg9]) (mat 𝐚[main_arg13])
          (mat 𝐚[main_arg14]) (vec 𝐚[main_arg15]) n j := by
  refine (congrFun (W10_arr m ρ c 5) (ix2 n j)).trans ((region5 (V9 m ρ) c n j).trans ?_)
  have e0 : mat (V9 m ρ c (Pipeline.arrRef spec5 0))
      = nsum (aims (tgt 𝐚[main_arg2])) (src nodes_pos (sco 𝐚[main_arg2])) (lin 𝐇𝐬 (mat 𝐚[main_arg13])) :=
    funext fun a => funext fun b => summed_t m ρ c a b
  have e1 : colv (V9 m ρ c (Pipeline.arrRef spec5 1)) = invdeg (aims (tgt 𝐚[main_arg2])) :=
    funext fun a => (congrFun (v25_9 m ρ c) (ix2 a (0 : Fin 1))).trans (inverseDegree_apply _ _ _ _ _ a)
  have e2 : mat (V9 m ρ c (Pipeline.arrRef spec5 2)) = 𝐇𝐭 := funext fun a => funext fun b => v49_9 m ρ c a b
  have e3 : mat (V9 m ρ c (Pipeline.arrRef spec5 3)) = mat 𝐚[main_arg14] := congrArg mat (arg14_9 m ρ c)
  have e4 : rowv (V9 m ρ c (Pipeline.arrRef spec5 4)) = vec 𝐚[main_arg15] :=
    funext fun q => (congrFun (v74_9 m ρ c) (ix2 (0 : Fin 1) q)).trans (biasRow_apply _ _ 0 q)
  rw [e0, e1, e2, e3, e4]
  rfl

end Cert.KernelIdeal.Fold

end
-- ==== Proof.ReferenceLayers.lean ====
/-
  The reference program's two layers, read entry by entry.

  Every layer of the reference is the same chain of whole-array stages: the source column and the target column of an
  edge list, the source rows of a table gathered and added into zeros at the targets, ones added the same way and
  clamped below at one, the quotient of the two, that quotient times the neighbour weights, a bias row laid over all
  rows, and the layer's own rows times the own weights.  Read at entry (n, k) the chain is the mean-aggregating layer
  of the entrywise description: the neighbour sum of node n divided by its clamped edge count, times the neighbour
  weights, plus the bias, plus the own row times the own weights.  The two first-layer stages are one function of
  their operands with the two sides exchanged, and each second-layer stage is the same chain fed with the first
  layer's two results, so the program's two results are the two sides of the two-layer network.
-/
import proofs.«117899_j51677046505876_2_alg».proof.Proof.Gen.ReferenceIdeal.Read
import proofs.«117899_j51677046505876_2_alg».proof.Proof.HostStages
import proofs.«117899_j51677046505876_2_alg».proof.Proof.SageNetwork
import proofs.«117899_j51677046505876_2_alg».proof.Proof.MatrixViews

noncomputable section

namespace Cert.ReferenceIdeal.Layers

open Cert.ReferenceIdeal Cert.ReferenceIdeal.Gen Cert.ReferenceIdeal.Read Idealize.ShloMosaic Idealize.ShloMosaic.ValueIdx
  Idealize.ShloMosaic.StableHlo Cert.MatrixViews Sage SageLayers SageNetwork EdgeStage

/-- An edge list: a row of source words above a row of target words. -/
abbrev Edges : Type := (⟨S2x1600000, .i32⟩ : BufTy).Contents (Elt Ideal)

/-- An array of extended reals of shape s. -/
abbrev Arr (s : Shape) : Type := (⟨s, .f32⟩ : BufTy).Contents (Elt Ideal)

/-- The target column of an edge list: its second row as a column of start indices. -/
abbrev tgt (x : Edges) : IVec S1600000x1 32 := val_main_v12 (F := Ideal) x

/-- The source column of an edge list: its first row, a negative word raised by the table's height, as a column of
    start indices. -/
abbrev sco (x : Edges) : IVec S1600000x1 32 := val_main_v9 (F := Ideal) x

/-- Entry j of a vector. -/
abbrev vec {C : ℕ} (b : (⟨1, ![C]⟩ : Shape).Idx → EReal) : Fin C → EReal := fun j => b (ix1 j)

/-- There is at least one node. -/
theorem nodes_pos : 0 < 50000 := by norm_num

/-! ### Every target column and every source column of the program is one function of its edge list -/

theorem tgt_v16 (x : Edges) : val_main_v16 (F := Ideal) x = tgt x := rfl
theorem tgt_v41 (x : Edges) : val_main_v41 (F := Ideal) x = tgt x := rfl
theorem tgt_v45 (x : Edges) : val_main_v45 (F := Ideal) x = tgt x := rfl
theorem tgt_v70 (x : Edges) : val_main_v70 (F := Ideal) x = tgt x := rfl
theorem tgt_v74 (x : Edges) : val_main_v74 (F := Ideal) x = tgt x := rfl
theorem tgt_v99 (x : Edges) : val_main_v99 (F := Ideal) x = tgt x := rfl
theorem tgt_v103 (x : Edges) : val_main_v103 (F := Ideal) x = tgt x := rfl
theorem sco_v38 (x : Edges) : val_main_v38 (F := Ideal) x = sco x := rfl
theorem sco_v67 (x : Edges) : val_main_v67 (F := Ideal) x = sco x := rfl
theorem sco_v96 (x : Edges) : val_main_v96 (F := Ideal) x = sco x := rfl

/-! ### Where the layout stages read -/

theorem idx_count_col (n : Fin 50000) (q : Fin 128) : idx_main_v21 (ix2 n q) = ix2 n (0 : Fin 1) := by
  funext a
  match a with
  | ⟨0, _⟩ => rfl
  | ⟨1, _⟩ => rfl

theorem idx_count_vec (n : Fin 50000) : idx_main_v20 (ix2 n (0 : Fin 1)) = ix1 n := by
  funext a
  match a with
  | ⟨0, _⟩ => rfl

theorem idx_bias (n : Fin 50000) (k : Fin 128) : idx_main_v24 (idx_main_v25 (ix2 n k)) = ix1 k := by
  funext a
  match a with
  | ⟨0, _⟩ => rfl

theorem lidx_proj (n : Fin 50000) (k q : Fin 128) : lidx_main_v23 (ix2 n k) q = ix2 n q := by
  funext a
  match a with
  | ⟨0, _⟩ => rfl
  | ⟨1, _⟩ => rfl

theorem ridx_proj (n : Fin 50000) (k q : Fin 128) : ridx_main_v23 (ix2 n k) q = ix2 q k := by
  funext a
  match a with
  | ⟨0, _⟩ => rfl
  | ⟨1, _⟩ => rfl

theorem lidx_own (n : Fin 50000) (k q : Fin 128) : lidx_main_v27 (ix2 n k) q = ix2 n q := by
  funext a
  match a with
  | ⟨0, _⟩ => rfl
  | ⟨1, _⟩ => rfl

theorem ridx_own (n : Fin 50000) (k q : Fin 128) : ridx_main_v27 (ix2 n k) q = ix2 q k := by
  funext a
  match a with
  | ⟨0, _⟩ => rfl
  | ⟨1, _⟩ => rfl

/-! ### The stages of a layer at an entry, for any source table -/

/-- The scatter of gathered rows is the aggregate of the table along the edge list's two columns. -/
theorem agg_eq (T : Arr S50000x128) (x : Edges) :
    val_main_v13 (F := Ideal) T x
      = HostStages.aggregate (N := 50000) (E := 1600000) (C := 128)
          scatter_S50000x128_S1600000x1_S1600000x128_1_0_0_1_wf
          gather_S50000x128_S1600000x1_S1600000x128_1_0_n_n_0_1_1128_wf bcast_S_S50000x128 T (sco x) (tgt x) := rfl

/-- At (n, q): the sum from zero, over the edges aimed at n, of entry q of their source rows. -/
theorem agg_apply (T : Arr S50000x128) (x : Edges) (n : Fin 50000) (q : Fin 128) :
    val_main_v13 (F := Ideal) T x (ix2 n q) = nsum (aims (tgt x)) (src nodes_pos (sco x)) (mat T) n q := by
  rw [agg_eq]
  exact HostStages.aggregate_apply nodes_pos _ _ _ T (sco x) (tgt x) n q

/-- The scatter of ones, clamped, is the clamped degree along the target column. -/
theorem cnt_eq (x : Edges) :
    val_main_v19 (F := Ideal) x
      = HostStages.clampedDegree (N := 50000) (E := 1600000) scatter_S50000_S1600000x1_S1600000_n_0_0_1_wf
          bcast_S_S50000 bcast_S_S1600000 (tgt x) := rfl

/-- At n: the number of edges aimed at n, clamped below at one. -/
theorem cnt_apply (x : Edges) (n : Fin 50000) :
    val_main_v19 (F := Ideal) x (ix1 n) = max (deg (aims (tgt x)) n) 1 := by
  rw [cnt_eq]
  exact HostStages.clampedDegree_apply _ _ _ (tgt x) n

/-- The clamped count laid over the features reads the count of its row. -/
theorem cntcol_apply (x : Edges) (n : Fin 50000) (q : Fin 128) :
    val_main_v21 (F := Ideal) x (ix2 n q) = max (deg (aims (tgt x)) n) 1 := by
  rw [val_main_v21_apply, idx_count_col, val_main_v20_apply, idx_count_vec, cnt_apply]

/-- The mean: the neighbour sum divided by the clamped count. -/
theorem mean_apply (T : Arr S50000x128) (x : Edges) (n : Fin 50000) (q : Fin 128) :
    val_main_v22 (F := Ideal) T x (ix2 n q)
      = Ideal.div (nsum (aims (tgt x)) (src nodes_pos (sco x)) (mat T) n q) (max (deg (aims (tgt x)) n) 1) := by
  rw [val_main_v22_apply, Ideal.hostDivf_def, agg_apply, cntcol_apply]

/-- The mean times the neighbour weights. -/
theorem proj_apply (T : Arr S50000x128) (x : Edges) (W : Arr S128x128) (n : Fin 50000) (k : Fin 128) :
    val_main_v23 (F := Ideal) T x W (ix2 n k)
      = lin (fun a q => Ideal.div (nsum (aims (tgt x)) (src nodes_pos (sco x)) (mat T) a q)
          (max (deg (aims (tgt x)) a) 1)) (mat W) n k := by
  rw [val_main_v23_apply]
  unfold lin
  refine Finset.sum_congr rfl fun q _ => ?_
  rw [lidx_proj, ridx_proj, mean_apply]

/-- Rows times weights. -/
theorem own_apply (X : Arr S50000x128) (W : Arr S128x128) (n : Fin 50000) (k : Fin 128) :
    val_main_v27 (F := Ideal) X W (ix2 n k) = lin (mat X) (mat W) n k := by
  rw [val_main_v27_apply]
  unfold lin
  refine Finset.sum_congr rfl fun q _ => ?_
  rw [lidx_own, ridx_own]

/-- The bias laid over all rows reads the bias of its column. -/
theorem bias_apply (b : Arr S128) (n : Fin 50000) (k : Fin 128) :
    val_main_v25 (F := Ideal) b (ix2 n k) = vec b k := by
  rw [val_main_v25_apply, val_main_v24_apply, idx_bias]

/-- A first-layer stage at (n, k), for any table of own rows Td and any table of source rows T. -/
theorem layer1_apply (Td T : Arr S50000x128) (x : Edges) (Wl Wr : Arr S128x128) (b : Arr S128)
    (n : Fin 50000) (k : Fin 128) :
    val_main_v28 (F := Ideal) Td T x Wl Wr b (ix2 n k)
      = meanConv (nsum (aims (tgt x)) (src nodes_pos (sco x)) (mat T)) (deg (aims (tgt x))) (mat Td) (mat Wl) (mat Wr)
          (vec b) n k := by
  rw [val_main_v28_apply, val_main_v26_apply, Ideal.addf_def, Ideal.addf_def, proj_apply, bias_apply, own_apply]
  rfl

/-! ### The first layer -/

section
variable (x0 x1 : Arr S50000x128) (x2 x3 : Edges) (x4 x5 : Arr S128x128) (x6 : Arr S128) (x7 x8 : Arr S128x128)
  (x9 : Arr S128)

/-- The new rows of side s. -/
theorem conv1s (n : Fin 50000) (k : Fin 128) :
    val_main_v28 (F := Ideal) x0 x1 x3 x4 x5 x6 (ix2 n k)
      = meanH1s (aims (tgt x3)) (src nodes_pos (sco x3)) (mat x0) (mat x1) (mat x4) (mat x5) (vec x6) n k :=
  layer1_apply x0 x1 x3 x4 x5 x6 n k

/-- The stage of side t is the stage of side s with the two sides exchanged. -/
theorem v57_eq : val_main_v57 (F := Ideal) x0 x1 x2 x7 x8 x9 = val_main_v28 (F := Ideal) x1 x0 x2 x7 x8 x9 := rfl

/-- The new rows of side t. -/
theorem conv1t (n : Fin 50000) (k : Fin 128) :
    val_main_v57 (F := Ideal) x0 x1 x2 x7 x8 x9 (ix2 n k)
      = meanH1t (aims (tgt x2)) (src nodes_pos (sco x2)) (mat x0) (mat x1) (mat x7) (mat x8) (vec x9) n k := by
  rw [v57_eq]
  exact layer1_apply x1 x0 x2 x7 x8 x9 n k

end

/-! ### The second layer -/

/-- A second-layer stage as a function of its operands: the mean of the source table T along the edge list times the
    neighbour weights, plus the bias laid over all rows, plus the own rows Td times the own weights. -/
def layer2 (Td T : Arr S50000x128) (x : Edges) (Wl Wr : Arr S128x64) (b : Arr S64) : Arr S50000x64 :=
  addf (F := Ideal)
    (addf (F := Ideal)
      (Host.dotGeneral (F := Ideal) (φ₁ := .f32) (φ₂ := .f32) dot_S50000x128_S128x64_S50000x64_1_0_0_1_n_n none (val_main_v22 (F := Ideal) T x) Wl)
      (val_main_v83 (F := Ideal) b))
    (Host.dotGeneral (F := Ideal) (φ₁ := .f32) (φ₂ := .f32) dot_S50000x128_S128x64_S50000x64_1_0_0_1_n_n none Td Wr)

theorem idx_bias64 (n : Fin 50000) (j : Fin 64) : idx_main_v82 (idx_main_v83 (ix2 n j)) = ix1 j := by
  funext a
  match a with
  | ⟨0, _⟩ => rfl

/-- The bias laid over all rows reads the bias of its column. -/
theorem bias64_apply (b : Arr S64) (n : Fin 50000) (j : Fin 64) :
    val_main_v83 (F := Ideal) b (ix2 n j) = vec b j := by
  rw [val_main_v83_apply, val_main_v82_apply, idx_bias64]

/-- Rows of width 128 times a 128 × 64 matrix: entry (n, j) is the sum over q of row entry q times weight (q, j). -/
theorem dot64_apply (Y : Arr S50000x128) (W : Arr S128x64) (n : Fin 50000) (j : Fin 64) :
    Host.dotGeneral (F := Ideal) (φ₁ := .f32) (φ₂ := .f32) dot_S50000x128_S128x64_S50000x64_1_0_0_1_n_n none Y W (ix2 n j)
      = lin (mat Y) (mat W) n j := by
  simp only [Host.dotGeneral]
  rw [Ideal.dotGeneral_apply,
    ← Equiv.sum_comp (ValueIdx.contrEquiv1 dot_S50000x128_S128x64_S50000x64_1_0_0_1_n_n 128 rfl rfl).symm]
  unfold lin
  refine Finset.sum_congr rfl fun q _ => ?_
  have hq := ValueIdx.contrEquiv1_symm_val dot_S50000x128_S128x64_S50000x64_1_0_0_1_n_n 128 rfl rfl q
  have el : dot_S50000x128_S128x64_S50000x64_1_0_0_1_n_n.lhsIdx (ix2 n j)
      ((ValueIdx.contrEquiv1 dot_S50000x128_S128x64_S50000x64_1_0_0_1_n_n 128 rfl rfl).symm q) = ix2 n q :=
    funext fun a => Fin.ext (by
      match a with
      | ⟨0, _⟩ => exact lhs_main_v85_0 _ _
      | ⟨1, _⟩ => exact (lhs_main_v85_1 _ _).trans hq)
  have er : dot_S50000x128_S128x64_S50000x64_1_0_0_1_n_n.rhsIdx (ix2 n j)
      ((ValueIdx.contrEquiv1 dot_S50000x128_S128x64_S50000x64_1_0_0_1_n_n 128 rfl rfl).symm q) = ix2 q j :=
    funext fun a => Fin.ext (by
      match a with
      | ⟨0, _⟩ => exact (rhs_main_v85_0 _ _).trans hq
      | ⟨1, _⟩ => exact rhs_main_v85_1 _ _)
  rw [el, er]

/-- The mean stage, as a table read by its two coordinates. -/
theorem mean_mat (T : Arr S50000x128) (x : Edges) :
    mat (val_main_v22 (F := Ideal) T x)
      = fun a q => Ideal.div (nsum (aims (tgt x)) (src nodes_pos (sco x)) (mat T) a q) (max (deg (aims (tgt x)) a) 1) :=
  funext fun a => funext fun q => mean_apply T x a q

/-- A second-layer stage at (n, j), for any table of own rows Td and any table of source rows T. -/
theorem layer2_apply (Td T : Arr S50000x128) (x : Edges) (Wl Wr : Arr S128x64) (b : Arr S64)
    (n : Fin 50000) (j : Fin 64) :
    layer2 Td T x Wl Wr b (ix2 n j)
      = meanConv (nsum (aims (tgt x)) (src nodes_pos (sco x)) (mat T)) (deg (aims (tgt x))) (mat Td) (mat Wl) (mat Wr)
          (vec b) n j := by
  unfold layer2
  rw [ValueIdx.addf_apply, ValueIdx.addf_apply, dot64_apply, dot64_apply, bias64_apply, mean_mat]
  rfl

section
variable (x0 x1 : Arr S50000x128) (x2 x3 : Edges) (x4 x5 : Arr S128x128) (x6 : Arr S128) (x7 x8 : Arr S128x128)
  (x9 : Arr S128) (x10 x11 : Arr S128x64) (x12 : Arr S64) (x13 x14 : Arr S128x64) (x15 : Arr S64)

/-- The first layer's rows of side s, as a table read by its two coordinates. -/
theorem h1s_mat :
    mat (val_main_v28 (F := Ideal) x0 x1 x3 x4 x5 x6)
      = meanH1s (aims (tgt x3)) (src nodes_pos (sco x3)) (mat x0) (mat x1) (mat x4) (mat x5) (vec x6) :=
  funext fun a => funext fun b => conv1s x0 x1 x3 x4 x5 x6 a b

/-- The first layer's rows of side t, as a table read by its two coordinates. -/
theorem h1t_mat :
    mat (val_main_v57 (F := Ideal) x0 x1 x2 x7 x8 x9)
      = meanH1t (aims (tgt x2)) (src nodes_pos (sco x2)) (mat x0) (mat x1) (mat x7) (mat x8) (vec x9) :=
  funext fun a => funext fun b => conv1t x0 x1 x2 x7 x8 x9 a b

/-- The first result is the second-layer stage on side s's edge list: own rows the new rows of side s, source rows
    the new rows of side t. -/
theorem v86_eq :
    val_main_v86 (F := Ideal) x0 x1 x2 x3 x4 x5 x6 x7 x8 x9 x10 x11 x12
      = layer2 (val_main_v28 (F := Ideal) x0 x1 x3 x4 x5 x6) (val_main_v57 (F := Ideal) x0 x1 x2 x7 x8 x9) x3
          x10 x11 x12 := rfl

/-- The second result is the second-layer stage on side t's edge list: own rows the new rows of side t, source rows
    the new rows of side s. -/
theorem v115_eq :
    val_main_v115 (F := Ideal) x0 x1 x2 x3 x4 x5 x6 x7 x8 x9 x13 x14 x15
      = layer2 (val_main_v57 (F := Ideal) x0 x1 x2 x7 x8 x9) (val_main_v28 (F := Ideal) x0 x1 x3 x4 x5 x6) x2
          x13 x14 x15 := rfl

/-- The first result, entry by entry: side s of the two-layer network. -/
theorem result_s (n : Fin 50000) (j : Fin 64) :
    val_main_v86 (F := Ideal) x0 x1 x2 x3 x4 x5 x6 x7 x8 x9 x10 x11 x12 (ix2 n j)
      = meanZs (aims (tgt x3)) (aims (tgt x2)) (src nodes_pos (sco x3)) (src nodes_pos (sco x2)) (mat x0) (mat x1)
          (mat x4) (mat x5) (mat x7) (mat x8) (vec x6) (vec x9) (mat x10) (mat x11) (vec x12) n j := by
  rw [v86_eq, layer2_apply, h1s_mat, h1t_mat]
  rfl

/-- The second result, entry by entry: side t of the two-layer network. -/
theorem result_t (n : Fin 50000) (j : Fin 64) :
    val_main_v115 (F := Ideal) x0 x1 x2 x3 x4 x5 x6 x7 x8 x9 x13 x14 x15 (ix2 n j)
      = meanZt (aims (tgt x3)) (aims (tgt x2)) (src nodes_pos (sco x3)) (src nodes_pos (sco x2)) (mat x0) (mat x1)
          (mat x4) (mat x5) (mat x7) (mat x8) (vec x6) (vec x9) (mat x13) (mat x14) (vec x15) n j := by
  rw [v115_eq, layer2_apply, h1s_mat, h1t_mat]
  rfl

end

end Cert.ReferenceIdeal.Layers

end
-- ==== Proof.FiniteInputs.lean ====
/-
  The precondition read as realness of the inputs.

  The precondition is one bit: for each of the fourteen float arguments, the conjunction over every entry x of
  |x| < +∞ (the word 0x7F800000 is +∞), and the conjunction of the fourteen.  The bit being one therefore says that
  every entry of every float argument has |x| < +∞.  On the extended reals |x| is the larger of x and −x, which is +∞
  at both infinities, so |x| < +∞ holds exactly when x is a real number.
-/
import proofs.«117899_j51677046505876_2_alg».proof.Pre_finite_inputs
import proofs.«117899_j51677046505876_2_alg».proof.Proof.Gen.Pre_finite_inputs
import proofs.«117899_j51677046505876_2_alg».proof.Proof.LibSage
import Idealize.ShloMosaic.Lib.ReduceAll
import Idealize.ShloMosaic.Lib.ValueIdx

noncomputable section

namespace Cert.FiniteInputs

open Idealize.ShloMosaic Sage

/-- An array with no axes has one index. -/
instance : Subsingleton (⟨0, ![]⟩ : Shape).Idx := ⟨fun a b => funext fun d => d.elim0⟩

/-- The float word 0x7F800000 is +∞. -/
theorem ofBits_inf : Ideal.ofBits .f32 0x7F800000#32 = (⊤ : EReal) := by
  simp [Ideal.ofBits, Ideal.ieee]

/-- A truth value whose bit is one is true. -/
theorem ofBool_true {b : Bool} (h : BitVec.ofBool b = 1#1) : b = true := by
  cases b
  · exact absurd h (by decide)
  · rfl

/-- An extended real whose absolute value, the larger of it and its negation, is below +∞ is a real number:
    at −∞ and at +∞ that larger one is +∞. -/
theorem isReal_of_abs_lt_top (v : EReal) (h : max v (-v) < ⊤) : IsReal v := by
  induction v using EReal.rec with
  | bot => exact absurd h (by simp)
  | coe r => exact ⟨r, rfl⟩
  | top => exact absurd h (by simp)

/-- The same, with the comparison as the bit the program computes. -/
theorem isReal_of_cmp (v : EReal)
    (h : Ideal.cmp .olt (max v (-v)) (Ideal.ofBits .f32 0x7F800000#32) = 1#1) : IsReal v := by
  rw [ofBits_inf] at h
  have h' : BitVec.ofBool (decide (max v (-v) < ⊤)) = 1#1 := h
  exact isReal_of_abs_lt_top v (of_decide_eq_true (ofBool_true h'))

/-- ONE ARGUMENT: if the conjunction over all entries of |x| < +∞, started from true, is one, every entry of x is a
    real number.  General in the shape and in the axes reduced over. -/
theorem real_of_all_finite {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (e : Host.reduce IntOp.andi
        (cmpf .olt (Host.absf x)
          (broadcastInDim s ![] hb (constant (F := Ideal) (⟨0, ![]⟩ : Shape) .f32 0x7F800000#32)))
        (constantI (⟨0, ![]⟩ : Shape) 1 1#1) hr hu ValueIdx.ix0 = 1#1)
    (i : s.Idx) : IsReal (x i) := by
  have hi := Host.reduce_andi_all _ _ hr hu ValueIdx.ix0 e i
  exact isReal_of_cmp (x i) hi

/-- The conjunction of two bit arrays, read at an index. -/
theorem andi_apply {s : Shape} {w : ℕ} (x y : IVec s w) (i : s.Idx) : andi x y i = IntOp.andi (x i) (y i) := rfl

section
open Cert.Pre_finite_inputs

variable [hF : Cert.Pre_finite_inputs.Facts]

/-- THE PRECONDITION: if the program's bit is one, every entry of each of the fourteen float arguments is a real
    number. -/
theorem real_of_finite (a0 a1 : FVec Ideal S50000x128 .f32) (a2 a3 : IVec S2x1600000 32)
    (a4 a5 : FVec Ideal S128x128 .f32) (a6 : FVec Ideal S128 .f32) (a7 a8 : FVec Ideal S128x128 .f32)
    (a9 : FVec Ideal S128 .f32) (a10 a11 : FVec Ideal S128x64 .f32) (a12 : FVec Ideal S64 .f32)
    (a13 a14 : FVec Ideal S128x64 .f32) (a15 : FVec Ideal S64 .f32)
    (h : Cert.Pre_finite_inputs.fn (F := Ideal) a0 a1 a2 a3 a4 a5 a6 a7 a8 a9 a10 a11 a12 a13 a14 a15 = fun _ => 1#1) :
    (∀ i, IsReal (a0 i)) ∧ (∀ i, IsReal (a1 i)) ∧ (∀ i, IsReal (a4 i)) ∧ (∀ i, IsReal (a5 i)) ∧ (∀ i, IsReal (a6 i))
      ∧ (∀ i, IsReal (a7 i)) ∧ (∀ i, IsReal (a8 i)) ∧ (∀ i, IsReal (a9 i)) ∧ (∀ i, IsReal (a10 i))
      ∧ (∀ i, IsReal (a11 i)) ∧ (∀ i, IsReal (a12 i)) ∧ (∀ i, IsReal (a13 i)) ∧ (∀ i, IsReal (a14 i))
      ∧ (∀ i, IsReal (a15 i)) := by
  have h0 := congrFun h ValueIdx.ix0
  dsimp only [fn, fn_part1, fn_part2, fn_part3, fn_part4] at h0
  simp only [andi_apply, IntOp.andi_eq_one] at h0
  obtain ⟨⟨⟨⟨⟨⟨⟨⟨⟨⟨⟨⟨⟨e0, e1⟩, e4⟩, e5⟩, e6⟩, e7⟩, e8⟩, e9⟩, e10⟩, e11⟩, e12⟩, e13⟩, e14⟩, e15⟩ := h0
  exact ⟨real_of_all_finite a0 _ _ _ e0, real_of_all_finite a1 _ _ _ e1, real_of_all_finite a4 _ _ _ e4,
    real_of_all_finite a5 _ _ _ e5, real_of_all_finite a6 _ _ _ e6, real_of_all_finite a7 _ _ _ e7,
    real_of_all_finite a8 _ _ _ e8, real_of_all_finite a9 _ _ _ e9, real_of_all_finite a10 _ _ _ e10,
    real_of_all_finite a11 _ _ _ e11, real_of_all_finite a12 _ _ _ e12, real_of_all_finite a13 _ _ _ e13,
    real_of_all_finite a14 _ _ _ e14, real_of_all_finite a15 _ _ _ e15⟩

end

end Cert.FiniteInputs

end
-- ==== Proof.Claims.lean ====
/-
  The five claims of the certificate.

  The three programs run to completion with their sixteen arguments unchanged, and the idealized kernel is the
  kernel's own text read over the extended reals (no operation was rewritten).  The kernel and the reference agree:
  the reference's two results are the two sides of a two-layer mean-aggregating network in which every layer divides
  a node's neighbour sum by its clamped edge count and then applies the neighbour weights; the kernel's two results
  are the same two sides with the first layer scaling by the inverse count and the second applying the neighbour
  weights to every row before summing over the edges.  Dividing by a clamped count is scaling by its inverse on all
  extended reals; moving a weight matrix across a finite edge sum is distributivity, which holds where every entry is
  a real number, and the precondition says exactly that every entry of every float argument is one.
-/
import proofs.«117899_j51677046505876_2_alg».proof.Defs
import proofs.«117899_j51677046505876_2_alg».proof.Proof.Gen.Kernel.Frame
import proofs.«117899_j51677046505876_2_alg».proof.Proof.Gen.KernelIdeal.Frame
import proofs.«117899_j51677046505876_2_alg».proof.Proof.Gen.ReferenceIdeal.Run
import proofs.«117899_j51677046505876_2_alg».proof.Proof.Gen.ReferenceIdeal.Read
import proofs.«117899_j51677046505876_2_alg».proof.Proof.Gen.Pre_finite_inputs
import proofs.«117899_j51677046505876_2_alg».proof.Proof.KernelRun
import proofs.«117899_j51677046505876_2_alg».proof.Proof.KernelFold
import proofs.«117899_j51677046505876_2_alg».proof.Proof.ReferenceLayers
import proofs.«117899_j51677046505876_2_alg».proof.Proof.SageNetwork
import proofs.«117899_j51677046505876_2_alg».proof.Proof.FiniteInputs

noncomputable section

namespace Cert.Proof.Claims

open Idealize.ShloMosaic Idealize.ShloMosaic.TcCoe Idealize.SL.Sem Idealize.ShloMosaic.ValueIdx Cert.MatrixViews

/-- The kernel program runs to completion with its arguments unchanged. -/
theorem frame_kernel : Cert.frame_Kernel := fun m ρ _ => Cert.Kernel.Gen.frame m ρ
/-- So does the kernel read over the extended reals. -/
theorem frame_ideal : Cert.frame_KernelIdeal := fun m ρ _ => Cert.KernelIdeal.Gen.frame m ρ
/-- So does the reference: its run names its two results as well, which are dropped here. -/
theorem frame_reference : Cert.frame_ReferenceIdeal := fun m ρ _ =>
  (θ_run Cert.ReferenceIdeal.defs _ _).mono (fun _ h c => (h c).2.2) (Cert.ReferenceIdeal.Value.run (F := Ideal) m ρ)
/-- The idealized kernel rewrites no operation of the kernel. -/
theorem preserves : Cert.preserves_Kernel_KernelIdeal := trivial

/-- The target column of an edge list is one function of it in both programs: the second row, as a column. The two
    spellings differ only in the proofs of their shape side conditions. -/
theorem tgt_eq (x : Cert.ReferenceIdeal.Layers.Edges) : Cert.ReferenceIdeal.Layers.tgt x = Cert.KernelIdeal.Fold.tgt x := rfl
/-- The source column likewise: the first row, a negative word raised by the number of nodes, as a column. -/
theorem sco_eq (x : Cert.ReferenceIdeal.Layers.Edges) : Cert.ReferenceIdeal.Layers.sco x = Cert.KernelIdeal.Fold.sco x := rfl

/-- The reference's first result is the kernel's, entry by entry: the reference's is side s of the network with every
    layer dividing by the clamped edge count, the kernel's the same side with the first layer scaling by the inverse
    count and the second applying the neighbour weights before the edge sum; the two agree because every float
    input is a real number (the precondition). -/
theorem result_s (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) = fun _ => 1#1)
    (hagree : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0))
      ∧ (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1))
      ∧ (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2))
      ∧ (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3))
      ∧ (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4))
      ∧ (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5))
      ∧ (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6))
      ∧ (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7))
      ∧ (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8))
      ∧ (m' ((c.tc : Thread Cert.ReferenceIdeal.nD Cert.ReferenceIdeal.τ).loc Cert.ReferenceIdeal.main_arg9)) = (m ((c.tc : Thread Cert.KernelIdeal.nD Cert.KernelIdeal.τ).loc Cert.KernelIdeal.main_arg9))
      ∧ (m' ((c.tc : Thread Cert.ReferenceIdeal.nD Cert.ReferenceIdeal.τ).loc Cert.ReferenceIdeal.main_arg10)) = (m ((c.tc : Thread Cert.KernelIdeal.nD Cert.KernelIdeal.τ).loc Cert.KernelIdeal.main_arg10))
      ∧ (m' ((c.tc : Thread Cert.ReferenceIdeal.nD Cert.ReferenceIdeal.τ).loc Cert.ReferenceIdeal.main_arg11)) = (m ((c.tc : Thread Cert.KernelIdeal.nD Cert.KernelIdeal.τ).loc Cert.KernelIdeal.main_arg11))
      ∧ (m' ((c.tc : Thread Cert.ReferenceIdeal.nD Cert.ReferenceIdeal.τ).loc Cert.ReferenceIdeal.main_arg12)) = (m ((c.tc : Thread Cert.KernelIdeal.nD Cert.KernelIdeal.τ).loc Cert.KernelIdeal.main_arg12))
      ∧ (m' ((c.tc : Thread Cert.ReferenceIdeal.nD Cert.ReferenceIdeal.τ).loc Cert.ReferenceIdeal.main_arg13)) = (m ((c.tc : Thread Cert.KernelIdeal.nD Cert.KernelIdeal.τ).loc Cert.KernelIdeal.main_arg13))
      ∧ (m' ((c.tc : Thread Cert.ReferenceIdeal.nD Cert.ReferenceIdeal.τ).loc Cert.ReferenceIdeal.main_arg14)) = (m ((c.tc : Thread Cert.KernelIdeal.nD Cert.KernelIdeal.τ).loc Cert.KernelIdeal.main_arg14))
      ∧ (m' ((c.tc : Thread Cert.ReferenceIdeal.nD Cert.ReferenceIdeal.τ).loc Cert.ReferenceIdeal.main_arg15)) = (m ((c.tc : Thread Cert.KernelIdeal.nD Cert.KernelIdeal.τ).loc Cert.KernelIdeal.main_arg15))) :
    (Cert.ReferenceIdeal.Value.res_main_v86 m' c : Cert.KernelIdeal.S50000x64.Idx → EReal)
      = Cert.KernelIdeal.Gen.W10 m ρ c (Proc.devRef .tc Cert.KernelIdeal.main_v0_0) := by
  obtain ⟨r0, r1, r4, r5, r6, r7, r8, r9, r10, r11, r12, r13, r14, r15⟩ :=
    Cert.FiniteInputs.real_of_finite _ _ _ _ _ _ _ _ _ _ _ _ _ _ _ _ hpre
  obtain ⟨a0, a1, a2, a3, a4, a5, a6, a7, a8, a9, a10, a11, a12, a13, a14, a15⟩ := hagree
  rw [Cert.ReferenceIdeal.Read.val_main_v86_eq, a0, a1, a2, a3, a4, a5, a6, a7, a8, a9, a10, a11, a12]
  funext i
  obtain ⟨n, j, rfl⟩ : ∃ (n : Fin 50000) (j : Fin 64), i = ix2 n j := ⟨i 0, i 1, eq_ix2 i⟩
  rw [Cert.ReferenceIdeal.Layers.result_s (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) n j,
    Cert.KernelIdeal.Fold.kernel_zs m ρ c n j, tgt_eq, tgt_eq, sco_eq, sco_eq]
  exact SageNetwork.meanZs_eq _ _ _ _ _ _ _ _ _ _ _ _ _ _ _ (fun n d => r0 (ix2 n d)) (fun n d => r1 (ix2 n d)) (fun k j => r7 (ix2 k j)) (fun k j => r8 (ix2 k j))
      (fun j => r9 (ix1 j)) (fun k j => r10 (ix2 k j)) n j

/-- The reference's second result is the kernel's, entry by entry: the reference's is side t of the network with every
    layer dividing by the clamped edge count, the kernel's the same side with the first layer scaling by the inverse
    count and the second applying the neighbour weights before the edge sum; the two agree because every float
    input is a real number (the precondition). -/
theorem result_t (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) = fun _ => 1#1)
    (hagree : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0))
      ∧ (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1))
      ∧ (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2))
      ∧ (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3))
      ∧ (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4))
      ∧ (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5))
      ∧ (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6))
      ∧ (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7))
      ∧ (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8))
      ∧ (m' ((c.tc : Thread Cert.ReferenceIdeal.nD Cert.ReferenceIdeal.τ).loc Cert.ReferenceIdeal.main_arg9)) = (m ((c.tc : Thread Cert.KernelIdeal.nD Cert.KernelIdeal.τ).loc Cert.KernelIdeal.main_arg9))
      ∧ (m' ((c.tc : Thread Cert.ReferenceIdeal.nD Cert.ReferenceIdeal.τ).loc Cert.ReferenceIdeal.main_arg10)) = (m ((c.tc : Thread Cert.KernelIdeal.nD Cert.KernelIdeal.τ).loc Cert.KernelIdeal.main_arg10))
      ∧ (m' ((c.tc : Thread Cert.ReferenceIdeal.nD Cert.ReferenceIdeal.τ).loc Cert.ReferenceIdeal.main_arg11)) = (m ((c.tc : Thread Cert.KernelIdeal.nD Cert.KernelIdeal.τ).loc Cert.KernelIdeal.main_arg11))
      ∧ (m' ((c.tc : Thread Cert.ReferenceIdeal.nD Cert.ReferenceIdeal.τ).loc Cert.ReferenceIdeal.main_arg12)) = (m ((c.tc : Thread Cert.KernelIdeal.nD Cert.KernelIdeal.τ).loc Cert.KernelIdeal.main_arg12))
      ∧ (m' ((c.tc : Thread Cert.ReferenceIdeal.nD Cert.ReferenceIdeal.τ).loc Cert.ReferenceIdeal.main_arg13)) = (m ((c.tc : Thread Cert.KernelIdeal.nD Cert.KernelIdeal.τ).loc Cert.KernelIdeal.main_arg13))
      ∧ (m' ((c.tc : Thread Cert.ReferenceIdeal.nD Cert.ReferenceIdeal.τ).loc Cert.ReferenceIdeal.main_arg14)) = (m ((c.tc : Thread Cert.KernelIdeal.nD Cert.KernelIdeal.τ).loc Cert.KernelIdeal.main_arg14))
      ∧ (m' ((c.tc : Thread Cert.ReferenceIdeal.nD Cert.ReferenceIdeal.τ).loc Cert.ReferenceIdeal.main_arg15)) = (m ((c.tc : Thread Cert.KernelIdeal.nD Cert.KernelIdeal.τ).loc Cert.KernelIdeal.main_arg15))) :
    (Cert.ReferenceIdeal.Value.res_main_v115 m' c : Cert.KernelIdeal.S50000x64.Idx → EReal)
      = Cert.KernelIdeal.Gen.W10 m ρ c (Proc.devRef .tc Cert.KernelIdeal.main_v0_1) := by
  obtain ⟨r0, r1, r4, r5, r6, r7, r8, r9, r10, r11, r12, r13, r14, r15⟩ :=
    Cert.FiniteInputs.real_of_finite _ _ _ _ _ _ _ _ _ _ _ _ _ _ _ _ hpre
  obtain ⟨a0, a1, a2, a3, a4, a5, a6, a7, a8, a9, a10, a11, a12, a13, a14, a15⟩ := hagree
  rw [Cert.ReferenceIdeal.Read.val_main_v115_eq, a0, a1, a2, a3, a4, a5, a6, a7, a8, a9, a13, a14, a15]
  funext i
  obtain ⟨n, j, rfl⟩ : ∃ (n : Fin 50000) (j : Fin 64), i = ix2 n j := ⟨i 0, i 1, eq_ix2 i⟩
  rw [Cert.ReferenceIdeal.Layers.result_t (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) n j,
    Cert.KernelIdeal.Fold.kernel_zt m ρ c n j, tgt_eq, tgt_eq, sco_eq, sco_eq]
  exact SageNetwork.meanZt_eq _ _ _ _ _ _ _ _ _ _ _ _ _ _ _ (fun n d => r0 (ix2 n d)) (fun n d => r1 (ix2 n d)) (fun k j => r4 (ix2 k j)) (fun k j => r5 (ix2 k j))
      (fun j => r6 (ix1 j)) (fun k j => r13 (ix2 k j)) n j

/-- THE TWO PROGRAMS AGREE. From memories that agree on the sixteen arguments, every float argument a real number:
    the kernel's two results are what its last segment leaves in its two result buffers, its arguments unchanged;
    the reference's two results are the same two arrays (`result_s`, `result_t`), its arguments unchanged. -/
theorem algebraic : Cert.algebraic_KernelIdeal_ReferenceIdeal := by
  intro m ρ m' ρ' hpre hagree
  refine ⟨fun c => Cert.KernelIdeal.Gen.W10 m ρ c (Proc.devRef .tc Cert.KernelIdeal.main_v0_0),
    fun c => Cert.KernelIdeal.Gen.W10 m ρ c (Proc.devRef .tc Cert.KernelIdeal.main_v0_1), ?_, ?_⟩
  · exact (θ_run Cert.KernelIdeal.defs _ _).mono (fun _ h c =>
      ⟨h c _ (Cert.KernelIdeal.Gen.mem_uc Cert.KernelIdeal.main_v0_0 (by decide)),
      h c _ (Cert.KernelIdeal.Gen.mem_uc Cert.KernelIdeal.main_v0_1 (by decide)),
      (h c _ (Cert.KernelIdeal.Gen.mem_uc Cert.KernelIdeal.main_arg0 (by decide))).trans (Cert.KernelIdeal.Gen.W10_main_arg0 m ρ c),
      (h c _ (Cert.KernelIdeal.Gen.mem_uc Cert.KernelIdeal.main_arg1 (by decide))).trans (Cert.KernelIdeal.Gen.W10_main_arg1 m ρ c),
      (h c _ (Cert.KernelIdeal.Gen.mem_uc Cert.KernelIdeal.main_arg2 (by decide))).trans (Cert.KernelIdeal.Gen.W10_main_arg2 m ρ c),
      (h c _ (Cert.KernelIdeal.Gen.mem_uc Cert.KernelIdeal.main_arg3 (by decide))).trans (Cert.KernelIdeal.Gen.W10_main_arg3 m ρ c),
      (h c _ (Cert.KernelIdeal.Gen.mem_uc Cert.KernelIdeal.main_arg4 (by decide))).trans (Cert.KernelIdeal.Gen.W10_main_arg4 m ρ c),
      (h c _ (Cert.KernelIdeal.Gen.mem_uc Cert.KernelIdeal.main_arg5 (by decide))).trans (Cert.KernelIdeal.Gen.W10_main_arg5 m ρ c),
      (h c _ (Cert.KernelIdeal.Gen.mem_uc Cert.KernelIdeal.main_arg6 (by decide))).trans (Cert.KernelIdeal.Gen.W10_main_arg6 m ρ c),
      (h c _ (Cert.KernelIdeal.Gen.mem_uc Cert.KernelIdeal.main_arg7 (by decide))).trans (Cert.KernelIdeal.Gen.W10_main_arg7 m ρ c),
      (h c _ (Cert.KernelIdeal.Gen.mem_uc Cert.KernelIdeal.main_arg8 (by decide))).trans (Cert.KernelIdeal.Gen.W10_main_arg8 m ρ c),
      (h c _ (Cert.KernelIdeal.Gen.mem_uc Cert.KernelIdeal.main_arg9 (by decide))).trans (Cert.KernelIdeal.Gen.W10_main_arg9 m ρ c),
      (h c _ (Cert.KernelIdeal.Gen.mem_uc Cert.KernelIdeal.main_arg10 (by decide))).trans (Cert.KernelIdeal.Gen.W10_main_arg10 m ρ c),
      (h c _ (Cert.KernelIdeal.Gen.mem_uc Cert.KernelIdeal.main_arg11 (by decide))).trans (Cert.KernelIdeal.Gen.W10_main_arg11 m ρ c),
      (h c _ (Cert.KernelIdeal.Gen.mem_uc Cert.KernelIdeal.main_arg12 (by decide))).trans (Cert.KernelIdeal.Gen.W10_main_arg12 m ρ c),
      (h c _ (Cert.KernelIdeal.Gen.mem_uc Cert.KernelIdeal.main_arg13 (by decide))).trans (Cert.KernelIdeal.Gen.W10_main_arg13 m ρ c),
      (h c _ (Cert.KernelIdeal.Gen.mem_uc Cert.KernelIdeal.main_arg14 (by decide))).trans (Cert.KernelIdeal.Gen.W10_main_arg14 m ρ c),
      (h c _ (Cert.KernelIdeal.Gen.mem_uc Cert.KernelIdeal.main_arg15 (by decide))).trans (Cert.KernelIdeal.Gen.W10_main_arg15 m ρ c)⟩)
      (Cert.KernelIdeal.Run.run_all (F := Ideal) m ρ)
  · exact (θ_run Cert.ReferenceIdeal.defs _ _).mono (fun _ h c =>
      ⟨(h c).1.trans (result_s m ρ m' c (hpre c) (hagree c)), (h c).2.1.trans (result_t m ρ m' c (hpre c) (hagree c)), (h c).2.2⟩)
      (Cert.ReferenceIdeal.Value.run (F := Ideal) m' ρ')

end Cert.Proof.Claims

end
-- ==== Proof.lean ====
/-
  The certificate's claim: the kernel, the kernel read over the extended reals, and the reference each run to
  completion with their sixteen arguments unchanged; the second rewrites no operation of the first; and for float
  arguments that are real numbers the kernel's two results equal the reference's two results entry by entry.
  The law that joins the two programs: a neighbour sum divided by its clamped edge count is that sum scaled by the
  inverse count, and a weight matrix moves across a finite edge sum of real rows (distributivity).
-/
import proofs.«117899_j51677046505876_2_alg».proof.Defs
import proofs.«117899_j51677046505876_2_alg».proof.Proof.Gen.Kernel
import proofs.«117899_j51677046505876_2_alg».proof.Proof.Gen.KernelIdeal
import proofs.«117899_j51677046505876_2_alg».proof.Proof.Gen.ReferenceIdeal
import proofs.«117899_j51677046505876_2_alg».proof.Proof.Gen.Pre_finite_inputs
import proofs.«117899_j51677046505876_2_alg».proof.Proof.Claims
import Idealize.ShloMosaic.Adequacy
import Idealize.ShloMosaic.Init

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_kernel, Claims.frame_ideal, Claims.frame_reference, Claims.preserves, Claims.algebraic⟩

end Cert.Proof

end
